-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S640000x16 : Shape := ⟨2, ![640000, 16]⟩
abbrev S640000 : Shape := ⟨1, ![640000]⟩
abbrev S2x144x128 : Shape := ⟨3, ![2, 144, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S2x144x128 : S_.BroadcastsInDim S2x144x128 (![] : Fin 0 → Fin S2x144x128.rank)
  reducesTo_S2x144x128_S_d0_1_2 : S2x144x128.ReducesTo [0, 1, 2] S_
  bcast_S_S2x128 : S_.BroadcastsInDim S2x128 (![] : Fin 0 → Fin S2x128.rank)
  reducesTo_S2x128_S_d0_1 : S2x128.ReducesTo [0, 1] S_
  bcast_S_S2x192x128 : S_.BroadcastsInDim S2x192x128 (![] : Fin 0 → Fin S2x192x128.rank)
  reducesTo_S2x192x128_S_d0_1_2 : S2x192x128.ReducesTo [0, 1, 2] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_

variable [Facts]

def fn_part2 {F : FTy → Type} [FloatOps F] (main_arg9 : FVec F S2x192 .f32) (main_v33 : IVec S_ 1) : IVec S_ 1 :=
  let main_v34 : FVec F S2x192 .f32 := Host.absf main_arg9
  let main_cst_12 : FVec F S_ .f32 := constant S_ .f32 0x7F800000#32
  let main_v35 : FVec F S2x192 .f32 := broadcastInDim S2x192 ![] bcast_S_S2x192 main_cst_12
  let main_v36 : IVec S2x192 1 := cmpf .olt main_v34 main_v35
  let main_c_13 : IVec S_ 1 := constantI S_ 1 1#1
  let main_v37 : IVec S_ 1 := (fun x v => Host.reduce IntOp.andi x v reducesTo_S2x192_S_d0_1 h_S_) main_v36 main_c_13
  let main_v38 : IVec S_ 1 := andi main_v33 main_v37
  main_v38

def fn_part1 {F : FTy → Type} [FloatOps F] (main_arg6 : FVec F S2x192x128 .f32) (main_arg7 : FVec F S2x192x64 .f32) (main_arg8 : FVec F S2x192 .f32) (main_arg9 : FVec F S2x192 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x192x128 .f32 := Host.absf main_arg6
  let main_cst_6 : FVec F S_ .f32 := constant S_ .f32 0x7F800000#32
  let main_v20 : FVec F S2x192x128 .f32 := broadcastInDim S2x192x128 ![] bcast_S_S2x192x128 main_cst_6
  let main_v21 : IVec S2x192x128 1 := cmpf .olt main_v19 main_v20
  let main_c_7 : IVec S_ 1 := constantI S_ 1 1#1
  let main_v22 : IVec S_ 1 := (fun x v => Host.reduce IntOp.andi x v reducesTo_S2x192x128_S_d0_1_2 h_S_) main_v21 main_c_7
  let main_v23 : IVec S_ 1 := andi main_v18 main_v22
  let main_v24 : FVec F S2x192x64 .f32 := Host.absf main_arg7
  let main_cst_8 : FVec F S_ .f32 := constant S_ .f32 0x7F800000#32
  let main_v25 : FVec F S2x192x64 .f32 := broadcastInDim S2x192x64 ![] bcast_S_S2x192x64 main_cst_8
  let main_v26 : IVec S2x192x64 1 := cmpf .olt main_v24 main_v25
  let main_c_9 : IVec S_ 1 := constantI S_ 1 1#1
  let main_v27 : IVec S_ 1 := (fun x v => Host.reduce IntOp.andi x v reducesTo_S2x192x64_S_d0_1_2 h_S_) main_v26 main_c_9
  let main_v28 : IVec S_ 1 := andi main_v23 main_v27
  let main_v29 : FVec F S2x192 .f32 := Host.absf main_arg8
  let main_cst_10 : FVec F S_ .f32 := constant S_ .f32 0x7F800000#32
  let main_v30 : FVec F S2x192 .f32 := broadcastInDim S2x192 ![] bcast_S_S2x192 main_cst_10
  let main_v31 : IVec S2x192 1 := cmpf .olt main_v29 main_v30
  let main_c_11 : IVec S_ 1 := constantI S_ 1 1#1
  let main_v32 : IVec S_ 1 := (fun x v => Host.reduce IntOp.andi x v reducesTo_S2x192_S_d0_1 h_S_) main_v31 main_c_11
  let main_v33 : IVec S_ 1 := andi main_v28 main_v32
  fn_part2 (F := F) main_arg9 main_v33

def fn {F : FTy → Type} [FloatOps F] (main_arg0 : FVec F S20000x64 .f32) (main_arg1 : FVec F S640000x16 .f32) (main_arg2 : IVec S640000 32) (main_arg3 : IVec S640000 32) (main_arg4 : FVec F S2x144x128 .f32) (main_arg5 : FVec F S2x128 .f32) (main_arg6 : FVec F S2x192x128 .f32) (main_arg7 : FVec F S2x192x64 .f32) (main_arg8 : FVec F S2x192 .f32) (main_arg9 : FVec F S2x192 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S640000x16 .f32 := Host.absf main_arg1
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S2x144x128 .f32 := Host.absf main_arg4
  let main_cst_2 : FVec F S_ .f32 := constant S_ .f32 0x7F800000#32
  let main_v10 : FVec F S2x144x128 .f32 := broadcastInDim S2x144x128 ![] bcast_S_S2x144x128 main_cst_2
  let main_v11 : IVec S2x144x128 1 := cmpf .olt main_v9 main_v10
  let main_c_3 : IVec S_ 1 := constantI S_ 1 1#1
  let main_v12 : IVec S_ 1 := (fun x v => Host.reduce IntOp.andi x v reducesTo_S2x144x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg6 main_arg7 main_arg8 main_arg9 main_v13 main_v16
-- ==== Kernel.lean ====
abbrev S20000x64 : Shape := ⟨2, ![20000, 64]⟩
abbrev S640000x16 : Shape := ⟨2, ![640000, 16]⟩
abbrev S640000 : Shape := ⟨1, ![640000]⟩
abbrev S2x144x128 : Shape := ⟨3, ![2, 144, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S640000x1 : Shape := ⟨2, ![640000, 1]⟩
abbrev S640000x64 : Shape := ⟨2, ![640000, 64]⟩
abbrev S640000x144 : Shape := ⟨2, ![640000, 144]⟩
abbrev S1x144x128 : Shape := ⟨3, ![1, 144, 128]⟩
abbrev S144x128 : Shape := ⟨2, ![144, 128]⟩
abbrev S1x128 : Shape := ⟨2, ![1, 128]⟩
abbrev S128 : Shape := ⟨1, ![128]⟩
abbrev S640000x128 : Shape := ⟨2, ![640000, 128]⟩
abbrev S8000x144 : Shape := ⟨2, ![8000, 144]⟩
abbrev S8000x128 : Shape := ⟨2, ![8000, 128]⟩
abbrev S20000x128 : Shape := ⟨2, ![20000, 128]⟩
abbrev S1x192x128 : Shape := ⟨3, ![1, 192, 128]⟩
abbrev S192x128 : Shape := ⟨2, ![192, 128]⟩
abbrev S128x192 : Shape := ⟨2, ![128, 192]⟩
abbrev S1x192x64 : Shape := ⟨3, ![1, 192, 64]⟩
abbrev S192x64 : Shape := ⟨2, ![192, 64]⟩
abbrev S64x192 : Shape := ⟨2, ![64, 192]⟩
abbrev S1x192 : Shape := ⟨2, ![1, 192]⟩
abbrev S192 : Shape := ⟨1, ![192]⟩
abbrev S4000x128 : Shape := ⟨2, ![4000, 128]⟩
abbrev S4000x64 : Shape := ⟨2, ![4000, 64]⟩
abbrev S4000x192 : Shape := ⟨2, ![4000, 192]⟩

abbrev nBuf : Space → Nat
  | .hbm => 94
  | .vmem => 32
  | .smem => 0
  | _ => 0

abbrev bufTy : (tb : Table) → Fin (tcTables nBuf tb) → BufTy
  | .hbm, ⟨0, _⟩ => ⟨S20000x64, .f32⟩
  | .hbm, ⟨1, _⟩ => ⟨S640000x16, .f32⟩
  | .hbm, ⟨2, _⟩ => ⟨S640000, .i32⟩
  | .hbm, ⟨3, _⟩ => ⟨S640000, .i32⟩
  | .hbm, ⟨4, _⟩ => ⟨S2x144x128, .f32⟩
  | .hbm, ⟨5, _⟩ => ⟨S2x128, .f32⟩
  | .hbm, ⟨6, _⟩ => ⟨S2x192x128, .f32⟩
  | .hbm, ⟨7, _⟩ => ⟨S2x192x64, .f32⟩
  | .hbm, ⟨8, _⟩ => ⟨S2x192, .f32⟩
  | .hbm, ⟨9, _⟩ => ⟨S2x192, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x64, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x64, .f32⟩
  | .hbm, ⟨28, _⟩ => ⟨S640000x144, .f32⟩
  | .hbm, ⟨29, _⟩ => ⟨S1x144x128, .f32⟩
  | .hbm, ⟨30, _⟩ => ⟨S144x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S640000x128, .f32⟩
  | .hbm, ⟨35, _⟩ => ⟨S_, .f32⟩
  | .hbm, ⟨36, _⟩ => ⟨S20000x128, .f32⟩
  | .hbm, ⟨37, _⟩ => ⟨S640000x1, .i32⟩
  | .hbm, ⟨38, _⟩ => ⟨S20000x128, .f32⟩
  | .hbm, ⟨39, _⟩ => ⟨S1x192x128, .f32⟩
  | .hbm, ⟨40, _⟩ => ⟨S192x128, .f32⟩
  | .hbm, ⟨41, _⟩ => ⟨S128x192, .f32⟩
  | .hbm, ⟨42, _⟩ => ⟨S1x192x64, .f32⟩
  | .hbm, ⟨43, _⟩ => ⟨S192x64, .f32⟩
  | .hbm, ⟨44, _⟩ => ⟨S64x192, .f32⟩
  | .hbm, ⟨45, _⟩ => ⟨S1x192, .f32⟩
  | .hbm, ⟨46, _⟩ => ⟨S192, .f32⟩
  | .hbm, ⟨47, _⟩ => ⟨S1x192, .f32⟩
  | .hbm, ⟨48, _⟩ => ⟨S1x192, .f32⟩
  | .hbm, ⟨49, _⟩ => ⟨S192, .f32⟩
  | .hbm, ⟨50, _⟩ => ⟨S1x192, .f32⟩
  | .hbm, ⟨51, _⟩ => ⟨S20000x64, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x64, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x64, .f32⟩
  | .hbm, ⟨70, _⟩ => ⟨S640000x144, .f32⟩
  | .hbm, ⟨71, _⟩ => ⟨S1x144x128, .f32⟩
  | .hbm, ⟨72, _⟩ => ⟨S144x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S640000x128, .f32⟩
  | .hbm, ⟨77, _⟩ => ⟨S_, .f32⟩
  | .hbm, ⟨78, _⟩ => ⟨S20000x128, .f32⟩
  | .hbm, ⟨79, _⟩ => ⟨S640000x1, .i32⟩
  | .hbm, ⟨80, _⟩ => ⟨S20000x128, .f32⟩
  | .hbm, ⟨81, _⟩ => ⟨S1x192x128, .f32⟩
  | .hbm, ⟨82, _⟩ => ⟨S192x128, .f32⟩
  | .hbm, ⟨83, _⟩ => ⟨S128x192, .f32⟩
  | .hbm, ⟨84, _⟩ => ⟨S1x192x64, .f32⟩
  | .hbm, ⟨85, _⟩ => ⟨S192x64, .f32⟩
  | .hbm, ⟨86, _⟩ => ⟨S64x192, .f32⟩
  | .hbm, ⟨87, _⟩ => ⟨S1x192, .f32⟩
  | .hbm, ⟨88, _⟩ => ⟨S192, .f32⟩
  | .hbm, ⟨89, _⟩ => ⟨S1x192, .f32⟩
  | .hbm, ⟨90, _⟩ => ⟨S1x192, .f32⟩
  | .hbm, ⟨91, _⟩ => ⟨S192, .f32⟩
  | .hbm, ⟨92, _⟩ => ⟨S1x192, .f32⟩
  | .hbm, ⟨93, _⟩ => ⟨S20000x64, .f32⟩
  | .local _ .vmem, ⟨0, _⟩ => ⟨S8000x144, .f32⟩
  | .local _ .vmem, ⟨1, _⟩ => ⟨S8000x144, .f32⟩
  | .local _ .vmem, ⟨2, _⟩ => ⟨S144x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S4000x128, .f32⟩
  | .local _ .vmem, ⟨7, _⟩ => ⟨S4000x128, .f32⟩
  | .local _ .vmem, ⟨8, _⟩ => ⟨S4000x64, .f32⟩
  | .local _ .vmem, ⟨9, _⟩ => ⟨S4000x64, .f32⟩
  | .local _ .vmem, ⟨10, _⟩ => ⟨S128x192, .f32⟩
  | .local _ .vmem, ⟨11, _⟩ => ⟨S64x192, .f32⟩
  | .local _ .vmem, ⟨12, _⟩ => ⟨S1x192, .f32⟩
  | .local _ .vmem, ⟨13, _⟩ => ⟨S1x192, .f32⟩
  | .local _ .vmem, ⟨14, _⟩ => ⟨S4000x64, .f32⟩
  | .local _ .vmem, ⟨15, _⟩ => ⟨S4000x64, .f32⟩
  | .local _ .vmem, ⟨16, _⟩ => ⟨S8000x144, .f32⟩
  | .local _ .vmem, ⟨17, _⟩ => ⟨S8000x144, .f32⟩
  | .local _ .vmem, ⟨18, _⟩ => ⟨S144x128, .f32⟩
  | .local _ .vmem, ⟨19, _⟩ => ⟨S1x128, .f32⟩
  | .local _ .vmem, ⟨20, _⟩ => ⟨S8000x128, .f32⟩
  | .local _ .vmem, ⟨21, _⟩ => ⟨S8000x128, .f32⟩
  | .local _ .vmem, ⟨22, _⟩ => ⟨S4000x128, .f32⟩
  | .local _ .vmem, ⟨23, _⟩ => ⟨S4000x128, .f32⟩
  | .local _ .vmem, ⟨24, _⟩ => ⟨S4000x64, .f32⟩
  | .local _ .vmem, ⟨25, _⟩ => ⟨S4000x64, .f32⟩
  | .local _ .vmem, ⟨26, _⟩ => ⟨S128x192, .f32⟩
  | .local _ .vmem, ⟨27, _⟩ => ⟨S64x192, .f32⟩
  | .local _ .vmem, ⟨28, _⟩ => ⟨S1x192, .f32⟩
  | .local _ .vmem, ⟨29, _⟩ => ⟨S1x192, .f32⟩
  | .local _ .vmem, ⟨30, _⟩ => ⟨S4000x64, .f32⟩
  | .local _ .vmem, ⟨31, _⟩ => ⟨S4000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_3 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S144x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x16_S640000x144_d1 : Shape.Concatenates [S640000x64, S640000x64, S640000x16] S640000x144 1
  slices_S2x144x128_S1x144x128_0_0_0 : S2x144x128.Slices ![0, 0, 0] S1x144x128
  shapeCasts_S1x144x128_S144x128 : S1x144x128.ShapeCasts S144x128
  slices_S2x128_S1x128_0_0 : S2x128.Slices ![0, 0] S1x128
  shapeCasts_S1x128_S128 : S1x128.ShapeCasts S128
  shapeCasts_S128_S1x128 : S128.ShapeCasts S1x128
  inb_S8000x144_S8000x144_0_0 : ∀ a, (![0, 0] : Fin 2 → Nat) a + S8000x144.size a ≤ S8000x144.size a
  h_S8000x144 : 0 < S8000x144.numel
  shapeCasts_S8000x144_S8000x144 : S8000x144.ShapeCasts S8000x144
  bitsLt_bf16_f32 : FTy.bits .bf16 < FTy.bits .f32
  inb_S144x128_S144x128_0_0 : ∀ a, (![0, 0] : Fin 2 → Nat) a + S144x128.size a ≤ S144x128.size a
  h_S144x128 : 0 < S144x128.numel
  shapeCasts_S144x128_S144x128 : S144x128.ShapeCasts S144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S20000x128 : S_.BroadcastsInDim S20000x128 (![] : Fin 0 → Fin S20000x128.rank)
  slices_S2x192x128_S1x192x128_0_0_0 : S2x192x128.Slices ![0, 0, 0] S1x192x128
  shapeCasts_S1x192x128_S192x128 : S1x192x128.ShapeCasts S192x128
  transposes_S192x128_S128x192_1_0 : S192x128.Transposes [1, 0] S128x192
  slices_S2x192x64_S1x192x64_0_0_0 : S2x192x64.Slices ![0, 0, 0] S1x192x64
  shapeCasts_S1x192x64_S192x64 : S1x192x64.ShapeCasts S192x64
  transposes_S192x64_S64x192_1_0 : S192x64.Transposes [1, 0] S64x192
  slices_S2x192_S1x192_0_0 : S2x192.Slices ![0, 0] S1x192
  shapeCasts_S1x192_S192 : S1x192.ShapeCasts S192
  shapeCasts_S192_S1x192 : S192.ShapeCasts S1x192
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4000x192 : S1x192.Broadcasts S4000x192
  slices_S4000x192_o0_0_S4000x64 : S4000x192.Slices ![0, 0] S4000x64
  slices_S4000x192_o0_64_S4000x64 : S4000x192.Slices ![0, 64] S4000x64
  slices_S4000x192_o0_128_S4000x64 : S4000x192.Slices ![0, 128] S4000x64
  slices_S2x144x128_S1x144x128_1_0_0 : S2x144x128.Slices ![1, 0, 0] S1x144x128
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  shapeCasts_S4000x64_S4000x64 : S4000x64.ShapeCasts S4000x64
  gather_S20000x64_S640000x1_S640000x64_1_0_n_n_0_1_164_wf : GatherDims.WF S20000x64 S640000x1 S640000x64 [1] [0] [] [0] [] 1 ![1, 64]
  dot_S8000x144_S144x128_S8000x128_1_0_0_1_n_n_wf : DotDims.WF S8000x144 S144x128 S8000x128 [1] [0] [0] [1] [] []
  scatter_S20000x128_S640000x1_S640000x128_1_0_0_1_wf : ScatterDims.WF S20000x128 S640000x1 S640000x128 [1] [0] [0] 1
  dot_S4000x128_S128x192_S4000x192_1_0_0_1_n_n_wf : DotDims.WF S4000x128 S128x192 S4000x192 [1] [0] [0] [1] [] []
  dot_S4000x64_S64x192_S4000x192_1_0_0_1_n_n_wf : DotDims.WF S4000x64 S64x192 S4000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x144.size a ≤ S640000x144.size a
  hwx0_0 : ∀ i : grid0.Coords, EltTy.bits .f32 = 32 ∨ (Rect.block (s := S640000x144) S8000x144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x128.size a ≤ S144x128.size a
  hwx0_1 : ∀ i : grid0.Coords, EltTy.bits .f32 = 32 ∨ (Rect.block (s := S144x128) S144x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S640000x128.size a
  hwx0_3 : ∀ i : grid0.Coords, EltTy.bits .f32 = 32 ∨ (Rect.block (s := S640000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S20000x64.size a
  hwx1_1 : ∀ i : grid1.Coords, EltTy.bits .f32 = 32 ∨ (Rect.block (s := S20000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x192.size a ≤ S128x192.size a
  hwx1_2 : ∀ i : grid1.Coords, EltTy.bits .f32 = 32 ∨ (Rect.block (s := S128x192) S128x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S20000x64.size a
  hwx1_6 : ∀ i : grid1.Coords, EltTy.bits .f32 = 32 ∨ (Rect.block (s := S20000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x144.size a ≤ S640000x144.size a
  hwx2_0 : ∀ i : grid2.Coords, EltTy.bits .f32 = 32 ∨ (Rect.block (s := S640000x144) S8000x144.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S144x128.size a ≤ S144x128.size a
  hwx2_1 : ∀ i : grid2.Coords, EltTy.bits .f32 = 32 ∨ (Rect.block (s := S144x128) S144x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S640000x128.size a
  hwx2_3 : ∀ i : grid2.Coords, EltTy.bits .f32 = 32 ∨ (Rect.block (s := S640000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S20000x64.size a
  hwx3_1 : ∀ i : grid3.Coords, EltTy.bits .f32 = 32 ∨ (Rect.block (s := S20000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x192.size a ≤ S128x192.size a
  hwx3_2 : ∀ i : grid3.Coords, EltTy.bits .f32 = 32 ∨ (Rect.block (s := S128x192) S128x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x192.size a ≤ S64x192.size a
  hwx3_3 : ∀ i : grid3.Coords, EltTy.bits .f32 = 32 ∨ (Rect.block (s := S64x192) S64x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S20000x64.size a
  hwx3_6 : ∀ i : grid3.Coords, EltTy.bits .f32 = 32 ∨ (Rect.block (s := S20000x64) S4000x64.size (cc3_transform_6 i) (hinb3_6 i)).WholeWords (EltTy.packing .f32)

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S8000x144_S144x128_S8000x128_1_0_0_1_n_n : DotDims S8000x144 S144x128 S8000x128 where
  lhsContracting := [1]
  rhsContracting := [0]
  lhsNonContracting := [0]
  rhsNonContracting := [1]
  lhsBatch := []
  rhsBatch := []
  wf := dot_S8000x144_S144x128_S8000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x128_S128x192_S4000x192_1_0_0_1_n_n : DotDims S4000x128 S128x192 S4000x192 where
  lhsContracting := [1]
  rhsContracting := [0]
  lhsNonContracting := [0]
  rhsNonContracting := [1]
  lhsBatch := []
  rhsBatch := []
  wf := dot_S4000x128_S128x192_S4000x192_1_0_0_1_n_n_wf
def dot_S4000x64_S64x192_S4000x192_1_0_0_1_n_n : DotDims S4000x64 S64x192 S4000x192 where
  lhsContracting := [1]
  rhsContracting := [0]
  lhsNonContracting := [0]
  rhsNonContracting := [1]
  lhsBatch := []
  rhsBatch := []
  wf := dot_S4000x64_S64x192_S4000x192_1_0_0_1_n_n_wf

abbrev win0_0 : Pipeline.Window sig grid0 :=
  Pipeline.Window.ofSpec (Memref.whole main_v14) S8000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S144x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S8000x144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S144x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S64x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S20000x64 : Shape := ⟨2, ![20000, 64]⟩
abbrev S640000x16 : Shape := ⟨2, ![640000, 16]⟩
abbrev S640000 : Shape := ⟨1, ![640000]⟩
abbrev S2x144x128 : Shape := ⟨3, ![2, 144, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S640000x1 : Shape := ⟨2, ![640000, 1]⟩
abbrev S640000x64 : Shape := ⟨2, ![640000, 64]⟩
abbrev S640000x144 : Shape := ⟨2, ![640000, 144]⟩
abbrev S1x144x128 : Shape := ⟨3, ![1, 144, 128]⟩
abbrev S144x128 : Shape := ⟨2, ![144, 128]⟩
abbrev S640000x128 : Shape := ⟨2, ![640000, 128]⟩
abbrev S1x128 : Shape := ⟨2, ![1, 128]⟩
abbrev S128 : Shape := ⟨1, ![128]⟩
abbrev S20000x128 : Shape := ⟨2, ![20000, 128]⟩
abbrev S1x192x128 : Shape := ⟨3, ![1, 192, 128]⟩
abbrev S192x128 : Shape := ⟨2, ![192, 128]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S128x192 : Shape := ⟨2, ![128, 192]⟩
abbrev S20000x192 : Shape := ⟨2, ![20000, 192]⟩
abbrev S64x192 : Shape := ⟨2, ![64, 192]⟩

abbrev nBuf : Space → Nat
  | .hbm => 174
  | .vmem => 0
  | .smem => 0
  | _ => 0

abbrev hbmTy0_0 (i : Nat) : BufTy := match i % 128 with
  | 0 => ⟨S20000x64, .f32⟩
  | 1 => ⟨S640000x16, .f32⟩
  | 2 => ⟨S640000, .i32⟩
  | 3 => ⟨S640000, .i32⟩
  | 4 => ⟨S2x144x128, .f32⟩
  | 5 => ⟨S2x128, .f32⟩
  | 6 => ⟨S2x192x128, .f32⟩
  | 7 => ⟨S2x192x64, .f32⟩
  | 8 => ⟨S2x192, .f32⟩
  | 9 => ⟨S2x192, .f32⟩
  | 10 => ⟨S_, .i32⟩
  | 11 => ⟨S640000, .i32⟩
  | 12 => ⟨S640000, .i1⟩
  | 13 => ⟨S_, .i32⟩
  | 14 => ⟨S640000, .i32⟩
  | 15 => ⟨S640000, .i32⟩
  | 16 => ⟨S640000, .i32⟩
  | 17 => ⟨S640000x1, .i32⟩
  | 18 => ⟨S640000x64, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x64, .f32⟩
  | 28 => ⟨S640000x144, .f32⟩
  | 29 => ⟨S1x144x128, .f32⟩
  | 30 => ⟨S144x128, .f32⟩
  | 31 => ⟨S640000x128, .f32⟩
  | 32 => ⟨S1x128, .f32⟩
  | 33 => ⟨S128, .f32⟩
  | 34 => ⟨S1x128, .f32⟩
  | 35 => ⟨S640000x128, .f32⟩
  | 36 => ⟨S640000x128, .f32⟩
  | 37 => ⟨S_, .f32⟩
  | 38 => ⟨S20000x128, .f32⟩
  | 39 => ⟨S640000x1, .i32⟩
  | 40 => ⟨S20000x128, .f32⟩
  | 41 => ⟨S1x192x128, .f32⟩
  | 42 => ⟨S192x128, .f32⟩
  | 43 => ⟨S1x192x64, .f32⟩
  | 44 => ⟨S192x64, .f32⟩
  | 45 => ⟨S1x192, .f32⟩
  | 46 => ⟨S192, .f32⟩
  | 47 => ⟨S1x192, .f32⟩
  | 48 => ⟨S192, .f32⟩
  | 49 => ⟨S128x192, .f32⟩
  | 50 => ⟨S20000x192, .f32⟩
  | 51 => ⟨S1x192, .f32⟩
  | 52 => ⟨S20000x192, .f32⟩
  | 53 => ⟨S20000x192, .f32⟩
  | 54 => ⟨S64x192, .f32⟩
  | 55 => ⟨S20000x192, .f32⟩
  | 56 => ⟨S1x192, .f32⟩
  | 57 => ⟨S20000x192, .f32⟩
  | 58 => ⟨S20000x192, .f32⟩
  | 59 => ⟨S20000x64, .f32⟩
  | 60 => ⟨S20000x64, .f32⟩
  | 61 => ⟨S20000x64, .f32⟩
  | 62 => ⟨S20000x64, .f32⟩
  | 63 => ⟨S20000x64, .f32⟩
  | 64 => ⟨S20000x64, .f32⟩
  | 65 => ⟨S20000x64, .f32⟩
  | 66 => ⟨S20000x64, .f32⟩
  | 67 => ⟨S20000x64, .f32⟩
  | 68 => ⟨S_, .f32⟩
  | 69 => ⟨S20000x64, .f32⟩
  | 70 => ⟨S20000x64, .f32⟩
  | 71 => ⟨S_, .f32⟩
  | 72 => ⟨S20000x64, .f32⟩
  | 73 => ⟨S20000x64, .f32⟩
  | 74 => ⟨S20000x64, .f32⟩
  | 75 => ⟨S20000x64, .f32⟩
  | 76 => ⟨S20000x64, .f32⟩
  | 77 => ⟨S_, .f32⟩
  | 78 => ⟨S20000x64, .f32⟩
  | 79 => ⟨S20000x64, .f32⟩
  | 80 => ⟨S_, .f32⟩
  | 81 => ⟨S20000x64, .f32⟩
  | 82 => ⟨S20000x64, .f32⟩
  | 83 => ⟨S20000x64, .f32⟩
  | 84 => ⟨S20000x64, .f32⟩
  | 85 => ⟨S20000x64, .f32⟩
  | 86 => ⟨S_, .f32⟩
  | 87 => ⟨S20000x64, .f32⟩
  | 88 => ⟨S20000x64, .f32⟩
  | 89 => ⟨S20000x64, .f32⟩
  | 90 => ⟨S20000x64, .f32⟩
  | 91 => ⟨S20000x64, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x64, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x64, .f32⟩
  | 110 => ⟨S640000x144, .f32⟩
  | 111 => ⟨S1x144x128, .f32⟩
  | 112 => ⟨S144x128, .f32⟩
  | 113 => ⟨S640000x128, .f32⟩
  | 114 => ⟨S1x128, .f32⟩
  | 115 => ⟨S128, .f32⟩
  | 116 => ⟨S1x128, .f32⟩
  | 117 => ⟨S640000x128, .f32⟩
  | 118 => ⟨S640000x128, .f32⟩
  | 119 => ⟨S_, .f32⟩
  | 120 => ⟨S20000x128, .f32⟩
  | 121 => ⟨S640000x1, .i32⟩
  | 122 => ⟨S20000x128, .f32⟩
  | 123 => ⟨S1x192x128, .f32⟩
  | 124 => ⟨S192x128, .f32⟩
  | 125 => ⟨S1x192x64, .f32⟩
  | 126 => ⟨S192x64, .f32⟩
  | 127 => ⟨S1x192, .f32⟩
  | _ => ⟨S20000x64, .f32⟩

abbrev hbmTy0_1 (i : Nat) : BufTy := match i % 128 with
  | 0 => ⟨S192, .f32⟩
  | 1 => ⟨S1x192, .f32⟩
  | 2 => ⟨S192, .f32⟩
  | 3 => ⟨S128x192, .f32⟩
  | 4 => ⟨S20000x192, .f32⟩
  | 5 => ⟨S1x192, .f32⟩
  | 6 => ⟨S20000x192, .f32⟩
  | 7 => ⟨S20000x192, .f32⟩
  | 8 => ⟨S64x192, .f32⟩
  | 9 => ⟨S20000x192, .f32⟩
  | 10 => ⟨S1x192, .f32⟩
  | 11 => ⟨S20000x192, .f32⟩
  | 12 => ⟨S20000x192, .f32⟩
  | 13 => ⟨S20000x64, .f32⟩
  | 14 => ⟨S20000x64, .f32⟩
  | 15 => ⟨S20000x64, .f32⟩
  | 16 => ⟨S20000x64, .f32⟩
  | 17 => ⟨S20000x64, .f32⟩
  | 18 => ⟨S20000x64, .f32⟩
  | 19 => ⟨S20000x64, .f32⟩
  | 20 => ⟨S20000x64, .f32⟩
  | 21 => ⟨S20000x64, .f32⟩
  | 22 => ⟨S_, .f32⟩
  | 23 => ⟨S20000x64, .f32⟩
  | 24 => ⟨S20000x64, .f32⟩
  | 25 => ⟨S_, .f32⟩
  | 26 => ⟨S20000x64, .f32⟩
  | 27 => ⟨S20000x64, .f32⟩
  | 28 => ⟨S20000x64, .f32⟩
  | 29 => ⟨S20000x64, .f32⟩
  | 30 => ⟨S20000x64, .f32⟩
  | 31 => ⟨S_, .f32⟩
  | 32 => ⟨S20000x64, .f32⟩
  | 33 => ⟨S20000x64, .f32⟩
  | 34 => ⟨S_, .f32⟩
  | 35 => ⟨S20000x64, .f32⟩
  | 36 => ⟨S20000x64, .f32⟩
  | 37 => ⟨S20000x64, .f32⟩
  | 38 => ⟨S20000x64, .f32⟩
  | 39 => ⟨S20000x64, .f32⟩
  | 40 => ⟨S_, .f32⟩
  | 41 => ⟨S20000x64, .f32⟩
  | 42 => ⟨S20000x64, .f32⟩
  | 43 => ⟨S20000x64, .f32⟩
  | 44 => ⟨S20000x64, .f32⟩
  | 45 => ⟨S20000x64, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_3 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_8 : Ref sig .tc := ⟨.hbm, 92, rfl⟩
abbrev main_v72 : Ref sig .tc := ⟨.hbm, 93, rfl⟩
abbrev main_v73 : Ref sig .tc := ⟨.hbm, 94, rfl⟩
abbrev main_c_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_10 : Ref sig .tc := ⟨.hbm, 101, rfl⟩
abbrev main_v79 : Ref sig .tc := ⟨.hbm, 102, rfl⟩
abbrev main_v80 : Ref sig .tc := ⟨.hbm, 103, rfl⟩
abbrev main_c_11 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_12 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_13 : Ref sig .tc := ⟨.hbm, 150, rfl⟩
abbrev main_v125 : Ref sig .tc := ⟨.hbm, 151, rfl⟩
abbrev main_v126 : Ref sig .tc := ⟨.hbm, 152, rfl⟩
abbrev main_cst_14 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_15 : Ref sig .tc := ⟨.hbm, 159, rfl⟩
abbrev main_v132 : Ref sig .tc := ⟨.hbm, 160, rfl⟩
abbrev main_v133 : Ref sig .tc := ⟨.hbm, 161, rfl⟩
abbrev main_cst_16 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_17 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x16_S640000x144_d1 : Shape.Concatenates [S640000x64, S640000x64, S640000x16] S640000x144 1
  slices_S2x144x128_S1x144x128_0_0_0 : S2x144x128.Slices ![0, 0, 0] S1x144x128
  shapeCasts_S1x144x128_S144x128 : S1x144x128.ShapeCasts S144x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S20000x128 : S_.BroadcastsInDim S20000x128 (![] : Fin 0 → Fin S20000x128.rank)
  slices_S2x192x128_S1x192x128_0_0_0 : S2x192x128.Slices ![0, 0, 0] S1x192x128
  shapeCasts_S1x192x128_S192x128 : S1x192x128.ShapeCasts S192x128
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  transposes_S192x128_S128x192_1_0 : S192x128.Transposes [1, 0] S128x192
  bcast_S192_S1x192_1 : S192.BroadcastsInDim S1x192 (![1] : Fin 1 → Fin S1x192.rank)
  bcast_S1x192_S20000x192_0_1 : S1x192.BroadcastsInDim S20000x192 (![0, 1] : Fin 2 → Fin S20000x192.rank)
  transposes_S192x64_S64x192_1_0 : S192x64.Transposes [1, 0] S64x192
  slices_S20000x192_S20000x64_0_0 : S20000x192.Slices ![0, 0] S20000x64
  slices_S20000x192_S20000x64_0_64 : S20000x192.Slices ![0, 64] S20000x64
  slices_S20000x192_S20000x64_0_128 : S20000x192.Slices ![0, 128] S20000x64
  bcast_S_S20000x64 : S_.BroadcastsInDim S20000x64 (![] : Fin 0 → Fin S20000x64.rank)
  slices_S2x144x128_S1x144x128_1_0_0 : S2x144x128.Slices ![1, 0, 0] S1x144x128
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  gather_S20000x64_S640000x1_S640000x64_1_0_n_n_0_1_164_wf : GatherDims.WF S20000x64 S640000x1 S640000x64 [1] [0] [] [0] [] 1 ![1, 64]
  dot_S640000x144_S144x128_S640000x128_1_0_0_1_n_n_wf : DotDims.WF S640000x144 S144x128 S640000x128 [1] [0] [0] [1] [] []
  scatter_S20000x128_S640000x1_S640000x128_1_0_0_1_wf : ScatterDims.WF S20000x128 S640000x1 S640000x128 [1] [0] [0] 1
  dot_S20000x128_S128x192_S20000x192_1_0_0_1_n_n_wf : DotDims.WF S20000x128 S128x192 S20000x192 [1] [0] [0] [1] [] []
  dot_S20000x64_S64x192_S20000x192_1_0_0_1_n_n_wf : DotDims.WF S20000x64 S64x192 S20000x192 [1] [0] [0] [1] [] []

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S640000x144_S144x128_S640000x128_1_0_0_1_n_n : DotDims S640000x144 S144x128 S640000x128 where
  lhsContracting := [1]
  rhsContracting := [0]
  lhsNonContracting := [0]
  rhsNonContracting := [1]
  lhsBatch := []
  rhsBatch := []
  wf := dot_S640000x144_S144x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x192_S20000x192_1_0_0_1_n_n : DotDims S20000x128 S128x192 S20000x192 where
  lhsContracting := [1]
  rhsContracting := [0]
  lhsNonContracting := [0]
  rhsNonContracting := [1]
  lhsBatch := []
  rhsBatch := []
  wf := dot_S20000x128_S128x192_S20000x192_1_0_0_1_n_n_wf
def dot_S20000x64_S64x192_S20000x192_1_0_0_1_n_n : DotDims S20000x64 S64x192 S20000x192 where
  lhsContracting := [1]
  rhsContracting := [0]
  lhsNonContracting := [0]
  rhsNonContracting := [1]
  lhsBatch := []
  rhsBatch := []
  wf := dot_S20000x64_S64x192_S20000x192_1_0_0_1_n_n_wf

class Facts : Prop extends Facts₀ where

variable [Facts]
-- ==== Proof.BitsMsg.lean ====
/-
  The two message-layer regions of the kernel program as printed, each at a parameter `V`, the contents of the
  TensorCore's buffers when the region is entered: the blocks the windows stage, what the body leaves in the output
  block, the body's Hoare triple on whole staging buffers, the pipeline's proof data and the body obligation at a
  generic grid point. Stated for any float instance.
-/
import proofs.«180314_j10892037063246_1_alg».proof.Proof.Gen.Kernel.Launch
import proofs.«180314_j10892037063246_1_alg».proof.Proof.Gen.Kernel.Skeleton
import proofs.«180314_j10892037063246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The message layer's region (pipeline 0): an edge block [8000,144] times the weights [144,128] plus the bias row

Windows: 0 the edge rows' block (8000 rows per grid point), 1 the weight matrix and 2 the bias row (one block each, the
same at every point), 3 the output block. The body reads windows 0–2 whole and overwrites window 3 whole. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S8000x144 := Rect.unit (s := S8000x144) ![0, 0] S8000x144.size inb_S8000x144_S8000x144_0_0
abbrev rw0 : Rect S144x128 := Rect.unit (s := S144x128) ![0, 0] S144x128.size inb_S144x128_S144x128_0_0
abbrev rb0 : Rect S1x128 := Rect.unit (s := S1x128) ![0, 0] S1x128.size inb_S1x128_S1x128_0_0
abbrev ro0 : Rect S8000x128 := Rect.unit (s := S8000x128) ![0, 0] S8000x128.size inb_S8000x128_S8000x128_0_0

/-- The output block after the body, from the three input blocks: one store of the whole block. -/
def out0_3 (x0 : Vec F S8000x144 .f32) (x1 : Vec F S144x128 .f32) (x2 : Vec F S1x128 .f32) : Vec F S8000x128 .f32 :=
  View.canon [⟨ro0, k0_pay1 (View.ld x0 rx0) (View.ld x1 rw0) (View.ld x2 rb0)⟩]

/-- The one store covers the block. -/
theorem cover0_3 (p0 : Vec F S8000x128 .f32) (y : S8000x128.Idx) :
    ∃ pc ∈ ([⟨ro0, p0⟩] : List (View.Piece (Elt F) S8000x128 .f32)), y ∈ pc.1.set :=
  View.cover_of_tiled [⟨ro0, p0⟩] S8000x128.size (by rfl) y

set_option maxHeartbeats 1000000 in
/-- The body on whole staging buffers: the inputs are read and left as they were, the output buffer (whatever it held) ends
    holding `out0_3` of the inputs. -/
theorem sound_kernel0 (c : Dev nD) (E : Set ℕ) (i : grid0.Coords)
    (arg1 : Memref sig .tc .vmem S8000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x144 .f32) (x1 : Vec F S144x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input buffer holds its block
    and the output buffer `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Region0

/-! # The message layer's region (pipeline 2): an edge block [8000,144] times the weights [144,128] plus the bias row

Windows: 0 the edge rows' block (8000 rows per grid point), 1 the weight matrix and 2 the bias row (one block each, the
same at every point), 3 the output block. The body reads windows 0–2 whole and overwrites window 3 whole. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S8000x144 := Rect.unit (s := S8000x144) ![0, 0] S8000x144.size inb_S8000x144_S8000x144_0_0
abbrev rw2 : Rect S144x128 := Rect.unit (s := S144x128) ![0, 0] S144x128.size inb_S144x128_S144x128_0_0
abbrev rb2 : Rect S1x128 := Rect.unit (s := S1x128) ![0, 0] S1x128.size inb_S1x128_S1x128_0_0
abbrev ro2 : Rect S8000x128 := Rect.unit (s := S8000x128) ![0, 0] S8000x128.size inb_S8000x128_S8000x128_0_0

/-- The output block after the body, from the three input blocks: one store of the whole block. -/
def out2_3 (x0 : Vec F S8000x144 .f32) (x1 : Vec F S144x128 .f32) (x2 : Vec F S1x128 .f32) : Vec F S8000x128 .f32 :=
  View.canon [⟨ro2, k2_pay1 (View.ld x0 rx2) (View.ld x1 rw2) (View.ld x2 rb2)⟩]

/-- The one store covers the block. -/
theorem cover2_3 (p0 : Vec F S8000x128 .f32) (y : S8000x128.Idx) :
    ∃ pc ∈ ([⟨ro2, p0⟩] : List (View.Piece (Elt F) S8000x128 .f32)), y ∈ pc.1.set :=
  View.cover_of_tiled [⟨ro2, p0⟩] S8000x128.size (by rfl) y

set_option maxHeartbeats 1000000 in
/-- The body on whole staging buffers: the inputs are read and left as they were, the output buffer (whatever it held) ends
    holding `out2_3` of the inputs. -/
theorem sound_kernel2 (c : Dev nD) (E : Set ℕ) (i : grid2.Coords)
    (arg1 : Memref sig .tc .vmem S8000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x144 .f32) (x1 : Vec F S144x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__msg_kernel i arg1 harg1 arg2 harg2 arg3 harg3 arg4 harg4) K := by
  simp only [cc2__msg_kernel_eq_skeleton]; unfold cc2__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input buffer holds its block
    and the output buffer `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.BitsGru.lean ====
/-
  The two recurrent-cell regions of the kernel program as printed, each at a parameter `V`, the contents of the
  TensorCore's buffers when the region is entered: the blocks the windows stage, what the body leaves in the output
  block, the body's Hoare triple on whole staging buffers, the pipeline's proof data and the body obligation at a
  generic grid point. Stated for any float instance.
-/
import proofs.«180314_j10892037063246_1_alg».proof.Proof.Gen.Kernel.Launch
import proofs.«180314_j10892037063246_1_alg».proof.Proof.Gen.Kernel.Skeleton
import proofs.«180314_j10892037063246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The recurrent cell's region (pipeline 1): a block of 4000 nodes through the gated recurrent cell

Windows: 0 the aggregated messages' block [4000,128], 1 the node states' block [4000,64] (4000 rows per grid point), 2 and 3
the two transposed weight matrices [128,192] and [64,192], 4 and 5 the two bias rows [1,192] (one block each, the same at
every point), 6 the output block [4000,64]. The body reads windows 0–5 whole (window 1 twice) and overwrites window 6 whole. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev ra1 : Rect S4000x128 := Rect.unit (s := S4000x128) ![0, 0] S4000x128.size inb_S4000x128_S4000x128_0_0
abbrev rh1 : Rect S4000x64 := Rect.unit (s := S4000x64) ![0, 0] S4000x64.size inb_S4000x64_S4000x64_0_0
abbrev rwi1 : Rect S128x192 := Rect.unit (s := S128x192) ![0, 0] S128x192.size inb_S128x192_S128x192_0_0
abbrev rwh1 : Rect S64x192 := Rect.unit (s := S64x192) ![0, 0] S64x192.size inb_S64x192_S64x192_0_0
abbrev rbi1 : Rect S1x192 := Rect.unit (s := S1x192) ![0, 0] S1x192.size inb_S1x192_S1x192_0_0
abbrev ro1 : Rect S4000x64 := Rect.unit (s := S4000x64) ![0, 0] S4000x64.size inb_S4000x64_S4000x64_0_0

/-- The output block after the body, from the six input blocks: one store of the whole block. -/
def out1_6 (x0 : Vec F S4000x128 .f32) (x1 : Vec F S4000x64 .f32) (x2 : Vec F S128x192 .f32) (x3 : Vec F S64x192 .f32) (x4 : Vec F S1x192 .f32) (x5 : Vec F S1x192 .f32) : Vec F S4000x64 .f32 :=
  View.canon [⟨ro1, k1_pay1 (View.ld x0 ra1) (View.ld x1 rh1) (View.ld x2 rwi1) (View.ld x3 rwh1) (View.ld x4 rbi1) (View.ld x5 rbi1) (View.ld x1 rh1)⟩]

/-- The one store covers the block. -/
theorem cover1_6 (p0 : Vec F S4000x64 .f32) (y : S4000x64.Idx) :
    ∃ pc ∈ ([⟨ro1, p0⟩] : List (View.Piece (Elt F) S4000x64 .f32)), y ∈ pc.1.set :=
  View.cover_of_tiled [⟨ro1, p0⟩] S4000x64.size (by rfl) y

set_option maxHeartbeats 1000000 in
/-- The body on whole staging buffers: the inputs are read and left as they were, the output buffer (whatever it held) ends
    holding `out1_6` of the inputs. -/
theorem sound_kernel1 (c : Dev nD) (E : Set ℕ) (i : grid1.Coords)
    (arg1 : Memref sig .tc .vmem S4000x128 .f32) (harg1 : arg1.IsWhole) (arg2 : Memref sig .tc .vmem S4000x64 .f32) (harg2 : arg2.IsWhole) (arg3 : Memref sig .tc .vmem S128x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S4000x64 .f32) (harg7 : arg7.IsWhole)
    (x0 : Vec F S4000x128 .f32) (x1 : Vec F S4000x64 .f32) (x2 : Vec F S128x192 .f32) (x3 : Vec F S64x192 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The pipeline's proof data: the arrays as the region finds them; after the body each input buffer holds its block
    and the output buffer `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Region1

/-! # The recurrent cell's region (pipeline 3): a block of 4000 nodes through the gated recurrent cell

Windows: 0 the aggregated messages' block [4000,128], 1 the node states' block [4000,64] (4000 rows per grid point), 2 and 3
the two transposed weight matrices [128,192] and [64,192], 4 and 5 the two bias rows [1,192] (one block each, the same at
every point), 6 the output block [4000,64]. The body reads windows 0–5 whole (window 1 twice) and overwrites window 6 whole. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: an unfetched window's
    block index has not moved. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev ra3 : Rect S4000x128 := Rect.unit (s := S4000x128) ![0, 0] S4000x128.size inb_S4000x128_S4000x128_0_0
abbrev rh3 : Rect S4000x64 := Rect.unit (s := S4000x64) ![0, 0] S4000x64.size inb_S4000x64_S4000x64_0_0
abbrev rwi3 : Rect S128x192 := Rect.unit (s := S128x192) ![0, 0] S128x192.size inb_S128x192_S128x192_0_0
abbrev rwh3 : Rect S64x192 := Rect.unit (s := S64x192) ![0, 0] S64x192.size inb_S64x192_S64x192_0_0
abbrev rbi3 : Rect S1x192 := Rect.unit (s := S1x192) ![0, 0] S1x192.size inb_S1x192_S1x192_0_0
abbrev ro3 : Rect S4000x64 := Rect.unit (s := S4000x64) ![0, 0] S4000x64.size inb_S4000x64_S4000x64_0_0

/-- The output block after the body, from the six input blocks: one store of the whole block. -/
def out3_6 (x0 : Vec F S4000x128 .f32) (x1 : Vec F S4000x64 .f32) (x2 : Vec F S128x192 .f32) (x3 : Vec F S64x192 .f32) (x4 : Vec F S1x192 .f32) (x5 : Vec F S1x192 .f32) : Vec F S4000x64 .f32 :=
  View.canon [⟨ro3, k3_pay1 (View.ld x0 ra3) (View.ld x1 rh3) (View.ld x2 rwi3) (View.ld x3 rwh3) (View.ld x4 rbi3) (View.ld x5 rbi3) (View.ld x1 rh3)⟩]

/-- The one store covers the block. -/
theorem cover3_6 (p0 : Vec F S4000x64 .f32) (y : S4000x64.Idx) :
    ∃ pc ∈ ([⟨ro3, p0⟩] : List (View.Piece (Elt F) S4000x64 .f32)), y ∈ pc.1.set :=
  View.cover_of_tiled [⟨ro3, p0⟩] S4000x64.size (by rfl) y

set_option maxHeartbeats 1000000 in
/-- The body on whole staging buffers: the inputs are read and left as they were, the output buffer (whatever it held) ends
    holding `out3_6` of the inputs. -/
theorem sound_kernel3 (c : Dev nD) (E : Set ℕ) (i : grid3.Coords)
    (arg1 : Memref sig .tc .vmem S4000x128 .f32) (harg1 : arg1.IsWhole) (arg2 : Memref sig .tc .vmem S4000x64 .f32) (harg2 : arg2.IsWhole) (arg3 : Memref sig .tc .vmem S128x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S4000x64 .f32) (harg7 : arg7.IsWhole)
    (x0 : Vec F S4000x128 .f32) (x1 : Vec F S4000x64 .f32) (x2 : Vec F S128x192 .f32) (x3 : Vec F S64x192 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gru_kernel i arg1 harg1 arg2 harg2 arg3 harg3 arg4 harg4 arg5 harg5 arg6 harg6 arg7 harg7) K := by
  simp only [cc3__gru_kernel_eq_skeleton]; unfold cc3__gru_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover3_6 _)

/-- The pipeline's proof data: the arrays as the region finds them; after the body each input buffer holds its block
    and the output buffer `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.BitsRun.lean ====
/-
  The run of the kernel program as printed: its entry function is four stretches of host operations, each followed by a kernel
  region (message layer, recurrent cell, message layer, recurrent cell). `W0 … W8` are the contents of the TensorCore's
  buffers at the nine boundaries: a host stretch applies its operations; a region replaces its arrays by what its pipeline
  leaves (an input array as entered, the output array the write-backs of all grid points) and leaves every other buffer alone.
  `run_all`: every weakly fair execution terminates, nothing faulting, with every unscoped buffer at `W8`; the argument
  arrays read back through the fold are the launch contents (`frame`).
-/
import proofs.«180314_j10892037063246_1_alg».proof.Proof.BitsMsg
import proofs.«180314_j10892037063246_1_alg».proof.Proof.BitsGru
import proofs.«180314_j10892037063246_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0` (region 0's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves (an input as entered, the output its write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the pipeline leaves (an input as entered, the output its write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its arrays at what the pipeline leaves (an input as entered, the output its write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the pipeline leaves (an input as entered, the output its write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-! ## The arguments end as launched: no host operation writes one, and a region reads one only through an input window -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (StableHlo.after_of_writes_sub hostOps0 _ hostOps0_writes (r := main_arg0) (by decide)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (r := main_arg0) (by decide)).trans (W2_main_arg0 m ρ c)
theorem W4_main_arg0 (c : Dev nD) : W4 m ρ c (Proc.devRef .tc main_arg0) = m ((c : Thread nD τ).loc main_arg0) :=
  ((W4_arr m ρ c 1).trans (((dat1 (U3 m ρ) c).arrAt_in 1 rfl _).trans (A_eq1 (U3 m ρ) c 1))).trans (W3_main_arg0 m ρ c)
theorem W5_main_arg0 (c : Dev nD) : W5 m ρ c (Proc.devRef .tc main_arg0) = m ((c : Thread nD τ).loc main_arg0) :=
  (StableHlo.after_of_writes_sub hostOps2 _ hostOps2_writes (r := main_arg0) (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_writes_sub hostOps3 _ hostOps3_writes (r := main_arg0) (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (StableHlo.after_of_writes_sub hostOps0 _ hostOps0_writes (r := main_arg1) (by decide)).trans (W0_main_arg1 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (r := main_arg1) (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps2 _ hostOps2_writes (r := main_arg1) (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_writes_sub hostOps3 _ hostOps3_writes (r := main_arg1) (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (StableHlo.after_of_writes_sub hostOps0 _ hostOps0_writes (r := main_arg2) (by decide)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (r := main_arg2) (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps2 _ hostOps2_writes (r := main_arg2) (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_writes_sub hostOps3 _ hostOps3_writes (r := main_arg2) (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (StableHlo.after_of_writes_sub hostOps0 _ hostOps0_writes (r := main_arg3) (by decide)).trans (W0_main_arg3 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (r := main_arg3) (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps2 _ hostOps2_writes (r := main_arg3) (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_writes_sub hostOps3 _ hostOps3_writes (r := main_arg3) (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (StableHlo.after_of_writes_sub hostOps0 _ hostOps0_writes (r := main_arg4) (by decide)).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (r := main_arg4) (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps2 _ hostOps2_writes (r := main_arg4) (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_writes_sub hostOps3 _ hostOps3_writes (r := main_arg4) (by decide)).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (StableHlo.after_of_writes_sub hostOps0 _ hostOps0_writes (r := main_arg5) (by decide)).trans (W0_main_arg5 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (r := main_arg5) (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_writes_sub hostOps2 _ hostOps2_writes (r := main_arg5) (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (StableHlo.after_of_writes_sub hostOps3 _ hostOps3_writes (r := main_arg5) (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (StableHlo.after_of_writes_sub hostOps0 _ hostOps0_writes (r := main_arg6) (by decide)).trans (W0_main_arg6 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (r := main_arg6) (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps2 _ hostOps2_writes (r := main_arg6) (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_writes_sub hostOps3 _ hostOps3_writes (r := main_arg6) (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (StableHlo.after_of_writes_sub hostOps0 _ hostOps0_writes (r := main_arg7) (by decide)).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (r := main_arg7) (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps2 _ hostOps2_writes (r := main_arg7) (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (StableHlo.after_of_writes_sub hostOps3 _ hostOps3_writes (r := main_arg7) (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (StableHlo.after_of_writes_sub hostOps0 _ hostOps0_writes (r := main_arg8) (by decide)).trans (W0_main_arg8 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (r := main_arg8) (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps2 _ hostOps2_writes (r := main_arg8) (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (StableHlo.after_of_writes_sub hostOps3 _ hostOps3_writes (r := main_arg8) (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (StableHlo.after_of_writes_sub hostOps0 _ hostOps0_writes (r := main_arg9) (by decide)).trans (W0_main_arg9 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 _ hostOps1_writes (r := main_arg9) (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (StableHlo.after_of_writes_sub hostOps2 _ hostOps2_writes (r := main_arg9) (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (StableHlo.after_of_writes_sub hostOps3 _ hostOps3_writes (r := main_arg9) (by decide)).trans (W6_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m ρ c) ∗ ∃ r, prngReg c r)

/-- The last region's exit state regrouped: the buffers and the generator register on one side, the dues on the other. -/
theorem last_link (c : Dev nD) :
    (iprop(StableHlo.held (c : Thread nD τ) (Pipeline.ucRefs τ sig) (W8 m ρ c)
        ∗ ((∃ r, prngReg c r) ∗ ∃ W, owes (c : Thread nD τ) (0 : CellTallies nD τ sig Unit) W)) : sProp 𝕄)
      ⊢ iprop((StableHlo.held (c : Thread nD τ) (Pipeline.ucRefs τ sig) (W8 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at what the pipeline leaves; the generator register passes
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays
    are split out of the unscoped buffers and put back at what the pipeline leaves; the generator register passes
    through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays
    are split out of the unscoped buffers and put back at what the pipeline leaves; the generator register passes
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its arrays
    are split out of the unscoped buffers and put back at what the pipeline leaves; the generator register passes
    through the invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The entry function is the run of the segments. -/
theorem main_run (c : Dev nD) : main (F := F) c = Pipeline.Seg.run (mainSegs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the entry function on the TensorCores terminates,
    nothing faulting, and every final state holds every unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.Kernel.Hand

end
-- ==== Proof.IdealMsg.lean ====
/-
  The two message-layer regions of the idealized kernel program, each at a parameter `V`, the contents of the
  TensorCore's buffers when the region is entered: the blocks the windows stage, what the body leaves in the output
  block, the body's Hoare triple on whole staging buffers, the pipeline's proof data and the body obligation at a
  generic grid point. Stated for any float instance.
-/
import proofs.«180314_j10892037063246_1_alg».proof.Proof.Gen.KernelIdeal.Launch
import proofs.«180314_j10892037063246_1_alg».proof.Proof.Gen.KernelIdeal.Skeleton
import proofs.«180314_j10892037063246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The message layer's region (pipeline 0): an edge block [8000,144] times the weights [144,128] plus the bias row

Windows: 0 the edge rows' block (8000 rows per grid point), 1 the weight matrix and 2 the bias row (one block each, the
same at every point), 3 the output block. The body reads windows 0–2 whole and overwrites window 3 whole. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S8000x144 := Rect.unit (s := S8000x144) ![0, 0] S8000x144.size inb_S8000x144_S8000x144_0_0
abbrev rw0 : Rect S144x128 := Rect.unit (s := S144x128) ![0, 0] S144x128.size inb_S144x128_S144x128_0_0
abbrev rb0 : Rect S1x128 := Rect.unit (s := S1x128) ![0, 0] S1x128.size inb_S1x128_S1x128_0_0
abbrev ro0 : Rect S8000x128 := Rect.unit (s := S8000x128) ![0, 0] S8000x128.size inb_S8000x128_S8000x128_0_0

/-- The output block after the body, from the three input blocks: one store of the whole block. -/
def out0_3 (x0 : Vec F S8000x144 .f32) (x1 : Vec F S144x128 .f32) (x2 : Vec F S1x128 .f32) : Vec F S8000x128 .f32 :=
  View.canon [⟨ro0, k0_pay1 (View.ld x0 rx0) (View.ld x1 rw0) (View.ld x2 rb0)⟩]

/-- The one store covers the block. -/
theorem cover0_3 (p0 : Vec F S8000x128 .f32) (y : S8000x128.Idx) :
    ∃ pc ∈ ([⟨ro0, p0⟩] : List (View.Piece (Elt F) S8000x128 .f32)), y ∈ pc.1.set :=
  View.cover_of_tiled [⟨ro0, p0⟩] S8000x128.size (by rfl) y

set_option maxHeartbeats 1000000 in
/-- The body on whole staging buffers: the inputs are read and left as they were, the output buffer (whatever it held) ends
    holding `out0_3` of the inputs. -/
theorem sound_kernel0 (c : Dev nD) (E : Set ℕ) (i : grid0.Coords)
    (arg1 : Memref sig .tc .vmem S8000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x144 .f32) (x1 : Vec F S144x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input buffer holds its block
    and the output buffer `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Region0

/-! # The message layer's region (pipeline 2): an edge block [8000,144] times the weights [144,128] plus the bias row

Windows: 0 the edge rows' block (8000 rows per grid point), 1 the weight matrix and 2 the bias row (one block each, the
same at every point), 3 the output block. The body reads windows 0–2 whole and overwrites window 3 whole. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S8000x144 := Rect.unit (s := S8000x144) ![0, 0] S8000x144.size inb_S8000x144_S8000x144_0_0
abbrev rw2 : Rect S144x128 := Rect.unit (s := S144x128) ![0, 0] S144x128.size inb_S144x128_S144x128_0_0
abbrev rb2 : Rect S1x128 := Rect.unit (s := S1x128) ![0, 0] S1x128.size inb_S1x128_S1x128_0_0
abbrev ro2 : Rect S8000x128 := Rect.unit (s := S8000x128) ![0, 0] S8000x128.size inb_S8000x128_S8000x128_0_0

/-- The output block after the body, from the three input blocks: one store of the whole block. -/
def out2_3 (x0 : Vec F S8000x144 .f32) (x1 : Vec F S144x128 .f32) (x2 : Vec F S1x128 .f32) : Vec F S8000x128 .f32 :=
  View.canon [⟨ro2, k2_pay1 (View.ld x0 rx2) (View.ld x1 rw2) (View.ld x2 rb2)⟩]

/-- The one store covers the block. -/
theorem cover2_3 (p0 : Vec F S8000x128 .f32) (y : S8000x128.Idx) :
    ∃ pc ∈ ([⟨ro2, p0⟩] : List (View.Piece (Elt F) S8000x128 .f32)), y ∈ pc.1.set :=
  View.cover_of_tiled [⟨ro2, p0⟩] S8000x128.size (by rfl) y

set_option maxHeartbeats 1000000 in
/-- The body on whole staging buffers: the inputs are read and left as they were, the output buffer (whatever it held) ends
    holding `out2_3` of the inputs. -/
theorem sound_kernel2 (c : Dev nD) (E : Set ℕ) (i : grid2.Coords)
    (arg1 : Memref sig .tc .vmem S8000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x144 .f32) (x1 : Vec F S144x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__msg_kernel i arg1 harg1 arg2 harg2 arg3 harg3 arg4 harg4) K := by
  simp only [cc2__msg_kernel_eq_skeleton]; unfold cc2__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input buffer holds its block
    and the output buffer `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.IdealGru.lean ====
/-
  The two recurrent-cell regions of the idealized kernel program, each at a parameter `V`, the contents of the
  TensorCore's buffers when the region is entered: the blocks the windows stage, what the body leaves in the output
  block, the body's Hoare triple on whole staging buffers, the pipeline's proof data and the body obligation at a
  generic grid point. Stated for any float instance.
-/
import proofs.«180314_j10892037063246_1_alg».proof.Proof.Gen.KernelIdeal.Launch
import proofs.«180314_j10892037063246_1_alg».proof.Proof.Gen.KernelIdeal.Skeleton
import proofs.«180314_j10892037063246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The recurrent cell's region (pipeline 1): a block of 4000 nodes through the gated recurrent cell

Windows: 0 the aggregated messages' block [4000,128], 1 the node states' block [4000,64] (4000 rows per grid point), 2 and 3
the two transposed weight matrices [128,192] and [64,192], 4 and 5 the two bias rows [1,192] (one block each, the same at
every point), 6 the output block [4000,64]. The body reads windows 0–5 whole (window 1 twice) and overwrites window 6 whole. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev ra1 : Rect S4000x128 := Rect.unit (s := S4000x128) ![0, 0] S4000x128.size inb_S4000x128_S4000x128_0_0
abbrev rh1 : Rect S4000x64 := Rect.unit (s := S4000x64) ![0, 0] S4000x64.size inb_S4000x64_S4000x64_0_0
abbrev rwi1 : Rect S128x192 := Rect.unit (s := S128x192) ![0, 0] S128x192.size inb_S128x192_S128x192_0_0
abbrev rwh1 : Rect S64x192 := Rect.unit (s := S64x192) ![0, 0] S64x192.size inb_S64x192_S64x192_0_0
abbrev rbi1 : Rect S1x192 := Rect.unit (s := S1x192) ![0, 0] S1x192.size inb_S1x192_S1x192_0_0
abbrev ro1 : Rect S4000x64 := Rect.unit (s := S4000x64) ![0, 0] S4000x64.size inb_S4000x64_S4000x64_0_0

/-- The output block after the body, from the six input blocks: one store of the whole block. -/
def out1_6 (x0 : Vec F S4000x128 .f32) (x1 : Vec F S4000x64 .f32) (x2 : Vec F S128x192 .f32) (x3 : Vec F S64x192 .f32) (x4 : Vec F S1x192 .f32) (x5 : Vec F S1x192 .f32) : Vec F S4000x64 .f32 :=
  View.canon [⟨ro1, k1_pay1 (View.ld x0 ra1) (View.ld x1 rh1) (View.ld x2 rwi1) (View.ld x3 rwh1) (View.ld x4 rbi1) (View.ld x5 rbi1) (View.ld x1 rh1)⟩]

/-- The one store covers the block. -/
theorem cover1_6 (p0 : Vec F S4000x64 .f32) (y : S4000x64.Idx) :
    ∃ pc ∈ ([⟨ro1, p0⟩] : List (View.Piece (Elt F) S4000x64 .f32)), y ∈ pc.1.set :=
  View.cover_of_tiled [⟨ro1, p0⟩] S4000x64.size (by rfl) y

set_option maxHeartbeats 1000000 in
/-- The body on whole staging buffers: the inputs are read and left as they were, the output buffer (whatever it held) ends
    holding `out1_6` of the inputs. -/
theorem sound_kernel1 (c : Dev nD) (E : Set ℕ) (i : grid1.Coords)
    (arg1 : Memref sig .tc .vmem S4000x128 .f32) (harg1 : arg1.IsWhole) (arg2 : Memref sig .tc .vmem S4000x64 .f32) (harg2 : arg2.IsWhole) (arg3 : Memref sig .tc .vmem S128x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S4000x64 .f32) (harg7 : arg7.IsWhole)
    (x0 : Vec F S4000x128 .f32) (x1 : Vec F S4000x64 .f32) (x2 : Vec F S128x192 .f32) (x3 : Vec F S64x192 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The pipeline's proof data: the arrays as the region finds them; after the body each input buffer holds its block
    and the output buffer `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Region1

/-! # The recurrent cell's region (pipeline 3): a block of 4000 nodes through the gated recurrent cell

Windows: 0 the aggregated messages' block [4000,128], 1 the node states' block [4000,64] (4000 rows per grid point), 2 and 3
the two transposed weight matrices [128,192] and [64,192], 4 and 5 the two bias rows [1,192] (one block each, the same at
every point), 6 the output block [4000,64]. The body reads windows 0–5 whole (window 1 twice) and overwrites window 6 whole. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: an unfetched window's
    block index has not moved. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev ra3 : Rect S4000x128 := Rect.unit (s := S4000x128) ![0, 0] S4000x128.size inb_S4000x128_S4000x128_0_0
abbrev rh3 : Rect S4000x64 := Rect.unit (s := S4000x64) ![0, 0] S4000x64.size inb_S4000x64_S4000x64_0_0
abbrev rwi3 : Rect S128x192 := Rect.unit (s := S128x192) ![0, 0] S128x192.size inb_S128x192_S128x192_0_0
abbrev rwh3 : Rect S64x192 := Rect.unit (s := S64x192) ![0, 0] S64x192.size inb_S64x192_S64x192_0_0
abbrev rbi3 : Rect S1x192 := Rect.unit (s := S1x192) ![0, 0] S1x192.size inb_S1x192_S1x192_0_0
abbrev ro3 : Rect S4000x64 := Rect.unit (s := S4000x64) ![0, 0] S4000x64.size inb_S4000x64_S4000x64_0_0

/-- The output block after the body, from the six input blocks: one store of the whole block. -/
def out3_6 (x0 : Vec F S4000x128 .f32) (x1 : Vec F S4000x64 .f32) (x2 : Vec F S128x192 .f32) (x3 : Vec F S64x192 .f32) (x4 : Vec F S1x192 .f32) (x5 : Vec F S1x192 .f32) : Vec F S4000x64 .f32 :=
  View.canon [⟨ro3, k3_pay1 (View.ld x0 ra3) (View.ld x1 rh3) (View.ld x2 rwi3) (View.ld x3 rwh3) (View.ld x4 rbi3) (View.ld x5 rbi3) (View.ld x1 rh3)⟩]

/-- The one store covers the block. -/
theorem cover3_6 (p0 : Vec F S4000x64 .f32) (y : S4000x64.Idx) :
    ∃ pc ∈ ([⟨ro3, p0⟩] : List (View.Piece (Elt F) S4000x64 .f32)), y ∈ pc.1.set :=
  View.cover_of_tiled [⟨ro3, p0⟩] S4000x64.size (by rfl) y

set_option maxHeartbeats 1000000 in
/-- The body on whole staging buffers: the inputs are read and left as they were, the output buffer (whatever it held) ends
    holding `out3_6` of the inputs. -/
theorem sound_kernel3 (c : Dev nD) (E : Set ℕ) (i : grid3.Coords)
    (arg1 : Memref sig .tc .vmem S4000x128 .f32) (harg1 : arg1.IsWhole) (arg2 : Memref sig .tc .vmem S4000x64 .f32) (harg2 : arg2.IsWhole) (arg3 : Memref sig .tc .vmem S128x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S4000x64 .f32) (harg7 : arg7.IsWhole)
    (x0 : Vec F S4000x128 .f32) (x1 : Vec F S4000x64 .f32) (x2 : Vec F S128x192 .f32) (x3 : Vec F S64x192 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gru_kernel i arg1 harg1 arg2 harg2 arg3 harg3 arg4 harg4 arg5 harg5 arg6 harg6 arg7 harg7) K := by
  simp only [cc3__gru_kernel_eq_skeleton]; unfold cc3__gru_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover3_6 _)

/-- The pipeline's proof data: the arrays as the region finds them; after the body each input buffer holds its block
    and the output buffer `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.IdealRun.lean ====
/-
  The run of the idealized kernel program: its entry function is four stretches of host operations, each followed by a kernel
  region (message layer, recurrent cell, message layer, recurrent cell). `W0 … W8` are the contents of the TensorCore's
  buffers at the nine boundaries: a host stretch applies its operations; a region replaces its arrays by what its pipeline
  leaves (an input array as entered, the output array the write-backs of all grid points) and leaves every other buffer alone.
  `run_all`: every weakly fair execution terminates, nothing faulting, with every unscoped buffer at `W8`; the argument
  arrays read back through the fold are the launch contents (`frame`).
-/
import proofs.«180314_j10892037063246_1_alg».proof.Proof.IdealMsg
import proofs.«180314_j10892037063246_1_alg».proof.Proof.IdealGru
import proofs.«180314_j10892037063246_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0` (region 0's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves (an input as entered, the output its write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the pipeline leaves (an input as entered, the output its write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its arrays at what the pipeline leaves (an input as entered, the output its write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the pipeline leaves (an input as entered, the output its write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-! ## The arguments end as launched: no host operation writes one, and a region reads one only through an input window -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (StableHlo.after_of_writes_sub hostOps0 _ hostOps0_writes (r := main_arg0) (by decide)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (r := main_arg0) (by decide)).trans (W2_main_arg0 m ρ c)
theorem W4_main_arg0 (c : Dev nD) : W4 m ρ c (Proc.devRef .tc main_arg0) = m ((c : Thread nD τ).loc main_arg0) :=
  ((W4_arr m ρ c 1).trans (((dat1 (U3 m ρ) c).arrAt_in 1 rfl _).trans (A_eq1 (U3 m ρ) c 1))).trans (W3_main_arg0 m ρ c)
theorem W5_main_arg0 (c : Dev nD) : W5 m ρ c (Proc.devRef .tc main_arg0) = m ((c : Thread nD τ).loc main_arg0) :=
  (StableHlo.after_of_writes_sub hostOps2 _ hostOps2_writes (r := main_arg0) (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_writes_sub hostOps3 _ hostOps3_writes (r := main_arg0) (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (StableHlo.after_of_writes_sub hostOps0 _ hostOps0_writes (r := main_arg1) (by decide)).trans (W0_main_arg1 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (r := main_arg1) (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps2 _ hostOps2_writes (r := main_arg1) (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_writes_sub hostOps3 _ hostOps3_writes (r := main_arg1) (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (StableHlo.after_of_writes_sub hostOps0 _ hostOps0_writes (r := main_arg2) (by decide)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (r := main_arg2) (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps2 _ hostOps2_writes (r := main_arg2) (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_writes_sub hostOps3 _ hostOps3_writes (r := main_arg2) (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (StableHlo.after_of_writes_sub hostOps0 _ hostOps0_writes (r := main_arg3) (by decide)).trans (W0_main_arg3 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (r := main_arg3) (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps2 _ hostOps2_writes (r := main_arg3) (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_writes_sub hostOps3 _ hostOps3_writes (r := main_arg3) (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (StableHlo.after_of_writes_sub hostOps0 _ hostOps0_writes (r := main_arg4) (by decide)).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (r := main_arg4) (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps2 _ hostOps2_writes (r := main_arg4) (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_writes_sub hostOps3 _ hostOps3_writes (r := main_arg4) (by decide)).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (StableHlo.after_of_writes_sub hostOps0 _ hostOps0_writes (r := main_arg5) (by decide)).trans (W0_main_arg5 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (r := main_arg5) (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_writes_sub hostOps2 _ hostOps2_writes (r := main_arg5) (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (StableHlo.after_of_writes_sub hostOps3 _ hostOps3_writes (r := main_arg5) (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (StableHlo.after_of_writes_sub hostOps0 _ hostOps0_writes (r := main_arg6) (by decide)).trans (W0_main_arg6 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (r := main_arg6) (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps2 _ hostOps2_writes (r := main_arg6) (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_writes_sub hostOps3 _ hostOps3_writes (r := main_arg6) (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (StableHlo.after_of_writes_sub hostOps0 _ hostOps0_writes (r := main_arg7) (by decide)).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (r := main_arg7) (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps2 _ hostOps2_writes (r := main_arg7) (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (StableHlo.after_of_writes_sub hostOps3 _ hostOps3_writes (r := main_arg7) (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (StableHlo.after_of_writes_sub hostOps0 _ hostOps0_writes (r := main_arg8) (by decide)).trans (W0_main_arg8 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (r := main_arg8) (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps2 _ hostOps2_writes (r := main_arg8) (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (StableHlo.after_of_writes_sub hostOps3 _ hostOps3_writes (r := main_arg8) (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (StableHlo.after_of_writes_sub hostOps0 _ hostOps0_writes (r := main_arg9) (by decide)).trans (W0_main_arg9 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 _ hostOps1_writes (r := main_arg9) (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (StableHlo.after_of_writes_sub hostOps2 _ hostOps2_writes (r := main_arg9) (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (StableHlo.after_of_writes_sub hostOps3 _ hostOps3_writes (r := main_arg9) (by decide)).trans (W6_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m ρ c) ∗ ∃ r, prngReg c r)

/-- The last region's exit state regrouped: the buffers and the generator register on one side, the dues on the other. -/
theorem last_link (c : Dev nD) :
    (iprop(StableHlo.held (c : Thread nD τ) (Pipeline.ucRefs τ sig) (W8 m ρ c)
        ∗ ((∃ r, prngReg c r) ∗ ∃ W, owes (c : Thread nD τ) (0 : CellTallies nD τ sig Unit) W)) : sProp 𝕄)
      ⊢ iprop((StableHlo.held (c : Thread nD τ) (Pipeline.ucRefs τ sig) (W8 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at what the pipeline leaves; the generator register passes
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays
    are split out of the unscoped buffers and put back at what the pipeline leaves; the generator register passes
    through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays
    are split out of the unscoped buffers and put back at what the pipeline leaves; the generator register passes
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its arrays
    are split out of the unscoped buffers and put back at what the pipeline leaves; the generator register passes
    through the invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The entry function is the run of the segments. -/
theorem main_run (c : Dev nD) : main (F := F) c = Pipeline.Seg.run (mainSegs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the entry function on the TensorCores terminates,
    nothing faulting, and every final state holds every unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.KernelIdeal.Hand

end
-- ==== Proof.RefStages.lean ====
/-
  The reference program's arithmetic, stage by stage, as whole-array functions on the extended reals.

  The program is two rounds of message passing on a graph with 20000 nodes, each carrying a state of 64 entries, and
  640000 edges, each carrying 16 features and the numbers of its two end nodes.  One round:
  * every edge reads the states of its two end nodes (a negative node number counts from the end) and puts them, with
    its own features, side by side in a row of 144 entries;
  * an affine layer turns that row into a message of 128 entries;
  * every node sums the messages of the edges that point at it;
  * a gated recurrent cell computes the node's new state from that sum and the old state: with gi and gh the affine
    images (192 columns each) of the sum and of the old state, r = σ(gi + gh) on columns 0..63, z = σ(gi + gh) on
    columns 64..127, n = tanh(gi + r · gh) on columns 128..191, and the new state is (1 − z) · n + z · h, where
    σ x = 1 / (1 + e^(−x)).
  The parameters of the two rounds are the two leading slices of arrays with a leading axis of extent 2; the cell's
  weight matrices are stored with the 192 output columns first and are transposed before use.

  Every stage below is written operation by operation in the order and with the operands of the program's own term, so
  that the composition of the stages is that term.
-/
import proofs.«180314_j10892037063246_1_alg».proof.Proof.Gen.ReferenceIdeal
import Idealize.ShloMosaic.PureOps.Ideal

noncomputable section

namespace Cert.Hand.Ref

open Cert.ReferenceIdeal Cert.ReferenceIdeal.Gen Idealize.ShloMosaic

/-- Node numbers as a column, a negative number wrapped around by the number of nodes. -/
def refIdx (d : (⟨S640000, .i32⟩ : BufTy).Contents (Elt Ideal)) : (⟨S640000x1, .i32⟩ : BufTy).Contents (Elt Ideal) :=
  broadcastInDim S640000x1 ![0] bcast_S640000_S640000x1_0 (select (cmpi .slt d (broadcastInDim S640000 ![] bcast_S_S640000 (constantI S_ 32 0#32))) (addi d (broadcastInDim S640000 ![] bcast_S_S640000 (constantI S_ 32 20000#32))) d)

/-- The layer's input: for every edge, the state of its destination node, the state of its source node and the edge's
    own features side by side. -/
def refMsgIn (hv : FVec Ideal S20000x64 .f32) (e : FVec Ideal S640000x16 .f32) (src dst : IVec S640000 32) :
    FVec Ideal S640000x144 .f32 :=
  concatenate S640000x144 1 [⟨S640000x64, (Host.gather gather_S20000x64_S640000x1_S640000x64_1_0_n_n_0_1_164 hv (refIdx dst))⟩, ⟨S640000x64, (Host.gather gather_S20000x64_S640000x1_S640000x64_1_0_n_n_0_1_164 hv (refIdx src))⟩, ⟨S640000x16, e⟩] concatenates_S640000x64_S640000x64_S640000x16_S640000x144_d1

/-- The message layer: the product with the weight matrix plus the bias, the bias repeated along every row. -/
def refMsg (x : FVec Ideal S640000x144 .f32) (w : FVec Ideal S144x128 .f32) (b : FVec Ideal S128 .f32) :
    FVec Ideal S640000x128 .f32 :=
  addf (Host.dotGeneral dot_S640000x144_S144x128_S640000x128_1_0_0_1_n_n none x w) (broadcastInDim S640000x128 ![0, 1] bcast_S1x128_S640000x128_0_1 (broadcastInDim S1x128 ![1] bcast_S128_S1x128_1 b))

/-- The sum, at every node, of the messages of the edges whose destination it is. -/
def refAgg (msgs : FVec Ideal S640000x128 .f32) (dst : IVec S640000 32) : FVec Ideal S20000x128 .f32 :=
  Host.scatterAdd scatter_S20000x128_S640000x1_S640000x128_1_0_0_1 (broadcastInDim S20000x128 ![] bcast_S_S20000x128 (constant (F := Ideal) S_ .f32 0x00000000#32)) (broadcastInDim S640000x1 ![0] bcast_S640000_S640000x1_0 dst) msgs

/-- The float word of one, at every entry of a [20000, 64] array. -/
def refOne : FVec Ideal S20000x64 .f32 :=
  broadcastInDim S20000x64 ![] bcast_S_S20000x64 (constant (F := Ideal) S_ .f32 0x3F800000#32)

/-- The cell's affine image of the summed messages: 192 columns. -/
def refGi (a : FVec Ideal S20000x128 .f32) (wiT : FVec Ideal S128x192 .f32) (bi : FVec Ideal S192 .f32) :
    FVec Ideal S20000x192 .f32 :=
  addf (Host.dotGeneral dot_S20000x128_S128x192_S20000x192_1_0_0_1_n_n none a wiT) (broadcastInDim S20000x192 ![0, 1] bcast_S1x192_S20000x192_0_1 (broadcastInDim S1x192 ![1] bcast_S192_S1x192_1 bi))

/-- The cell's affine image of the old state: 192 columns. -/
def refGh (h : FVec Ideal S20000x64 .f32) (whT : FVec Ideal S64x192 .f32) (bh : FVec Ideal S192 .f32) :
    FVec Ideal S20000x192 .f32 :=
  addf (Host.dotGeneral dot_S20000x64_S64x192_S20000x192_1_0_0_1_n_n none h whT) (broadcastInDim S20000x192 ![0, 1] bcast_S1x192_S20000x192_0_1 (broadcastInDim S1x192 ![1] bcast_S192_S1x192_1 bh))

/-- A gate: one over one plus the exponential of minus the sum of the two arguments, entry by entry. -/
def refGate (u v : FVec Ideal S20000x64 .f32) : FVec Ideal S20000x64 .f32 :=
  Host.divf refOne (addf refOne (Host.exp (Host.negf (addf u v))))

/-- The gated recurrent cell on the two affine images and the old state. -/
def refCell (gi gh : FVec Ideal S20000x192 .f32) (h : FVec Ideal S20000x64 .f32) : FVec Ideal S20000x64 .f32 :=
  addf (mulf (subf refOne (refGate (extractStridedSlice S20000x64 ![0, 64] gi slices_S20000x192_S20000x64_0_64) (extractStridedSlice S20000x64 ![0, 64] gh slices_S20000x192_S20000x64_0_64))) (Host.tanh (addf (extractStridedSlice S20000x64 ![0, 128] gi slices_S20000x192_S20000x64_0_128) (mulf (refGate (extractStridedSlice S20000x64 ![0, 0] gi slices_S20000x192_S20000x64_0_0) (extractStridedSlice S20000x64 ![0, 0] gh slices_S20000x192_S20000x64_0_0)) (extractStridedSlice S20000x64 ![0, 128] gh slices_S20000x192_S20000x64_0_128))))) (mulf (refGate (extractStridedSlice S20000x64 ![0, 64] gi slices_S20000x192_S20000x64_0_64) (extractStridedSlice S20000x64 ![0, 64] gh slices_S20000x192_S20000x64_0_64)) h)

/-- The gated recurrent cell: new node states from the summed messages a, the old states h, the two transposed weight
    matrices and the two biases. -/
def refGru (a : FVec Ideal S20000x128 .f32) (h : FVec Ideal S20000x64 .f32) (wiT : FVec Ideal S128x192 .f32)
    (whT : FVec Ideal S64x192 .f32) (bi bh : FVec Ideal S192 .f32) : FVec Ideal S20000x64 .f32 :=
  refCell (refGi a wiT bi) (refGh h whT bh) h

/-! ## The parameters of round 0 and of round 1: the two leading slices -/

def wmsg0 (W : FVec Ideal S2x144x128 .f32) : FVec Ideal S144x128 .f32 :=
  shapeCast _ (extractStridedSlice S1x144x128 ![0, 0, 0] W slices_S2x144x128_S1x144x128_0_0_0) shapeCasts_S1x144x128_S144x128
def wmsg1 (W : FVec Ideal S2x144x128 .f32) : FVec Ideal S144x128 .f32 :=
  shapeCast _ (extractStridedSlice S1x144x128 ![1, 0, 0] W slices_S2x144x128_S1x144x128_1_0_0) shapeCasts_S1x144x128_S144x128
def bmsg0 (B : FVec Ideal S2x128 .f32) : FVec Ideal S128 .f32 :=
  shapeCast _ (extractStridedSlice S1x128 ![0, 0] B slices_S2x128_S1x128_0_0) shapeCasts_S1x128_S128
def bmsg1 (B : FVec Ideal S2x128 .f32) : FVec Ideal S128 .f32 :=
  shapeCast _ (extractStridedSlice S1x128 ![1, 0] B slices_S2x128_S1x128_1_0) shapeCasts_S1x128_S128
def wihT0 (W : FVec Ideal S2x192x128 .f32) : FVec Ideal S128x192 .f32 :=
  transpose S128x192 [1, 0] (shapeCast _ (extractStridedSlice S1x192x128 ![0, 0, 0] W slices_S2x192x128_S1x192x128_0_0_0) shapeCasts_S1x192x128_S192x128) transposes_S192x128_S128x192_1_0
def wihT1 (W : FVec Ideal S2x192x128 .f32) : FVec Ideal S128x192 .f32 :=
  transpose S128x192 [1, 0] (shapeCast _ (extractStridedSlice S1x192x128 ![1, 0, 0] W slices_S2x192x128_S1x192x128_1_0_0) shapeCasts_S1x192x128_S192x128) transposes_S192x128_S128x192_1_0
def whhT0 (W : FVec Ideal S2x192x64 .f32) : FVec Ideal S64x192 .f32 :=
  transpose S64x192 [1, 0] (shapeCast _ (extractStridedSlice S1x192x64 ![0, 0, 0] W slices_S2x192x64_S1x192x64_0_0_0) shapeCasts_S1x192x64_S192x64) transposes_S192x64_S64x192_1_0
def whhT1 (W : FVec Ideal S2x192x64 .f32) : FVec Ideal S64x192 .f32 :=
  transpose S64x192 [1, 0] (shapeCast _ (extractStridedSlice S1x192x64 ![1, 0, 0] W slices_S2x192x64_S1x192x64_1_0_0) shapeCasts_S1x192x64_S192x64) transposes_S192x64_S64x192_1_0
def bih0 (B : FVec Ideal S2x192 .f32) : FVec Ideal S192 .f32 :=
  shapeCast _ (extractStridedSlice S1x192 ![0, 0] B slices_S2x192_S1x192_0_0) shapeCasts_S1x192_S192
def bih1 (B : FVec Ideal S2x192 .f32) : FVec Ideal S192 .f32 :=
  shapeCast _ (extractStridedSlice S1x192 ![1, 0] B slices_S2x192_S1x192_1_0) shapeCasts_S1x192_S192
def bhh0 (B : FVec Ideal S2x192 .f32) : FVec Ideal S192 .f32 :=
  shapeCast _ (extractStridedSlice S1x192 ![0, 0] B slices_S2x192_S1x192_0_0) shapeCasts_S1x192_S192
def bhh1 (B : FVec Ideal S2x192 .f32) : FVec Ideal S192 .f32 :=
  shapeCast _ (extractStridedSlice S1x192 ![1, 0] B slices_S2x192_S1x192_1_0) shapeCasts_S1x192_S192

/-! ## One round, and the two rounds -/

/-- Round 0 on the node states hv. -/
def refRound0 (hv : FVec Ideal S20000x64 .f32) (e : FVec Ideal S640000x16 .f32) (src dst : IVec S640000 32)
    (Wmsg : FVec Ideal S2x144x128 .f32) (Bmsg : FVec Ideal S2x128 .f32) (Wih : FVec Ideal S2x192x128 .f32)
    (Whh : FVec Ideal S2x192x64 .f32) (Bih Bhh : FVec Ideal S2x192 .f32) : FVec Ideal S20000x64 .f32 :=
  refGru (refAgg (refMsg (refMsgIn hv e src dst) (wmsg0 Wmsg) (bmsg0 Bmsg)) dst) hv (wihT0 Wih) (whhT0 Whh) (bih0 Bih) (bhh0 Bhh)

/-- Round 1 on the node states hv. -/
def refRound1 (hv : FVec Ideal S20000x64 .f32) (e : FVec Ideal S640000x16 .f32) (src dst : IVec S640000 32)
    (Wmsg : FVec Ideal S2x144x128 .f32) (Bmsg : FVec Ideal S2x128 .f32) (Wih : FVec Ideal S2x192x128 .f32)
    (Whh : FVec Ideal S2x192x64 .f32) (Bih Bhh : FVec Ideal S2x192 .f32) : FVec Ideal S20000x64 .f32 :=
  refGru (refAgg (refMsg (refMsgIn hv e src dst) (wmsg1 Wmsg) (bmsg1 Bmsg)) dst) hv (wihT1 Wih) (whhT1 Whh) (bih1 Bih) (bhh1 Bhh)

/-- The whole program: round 1 after round 0. -/
def refNet (hv : FVec Ideal S20000x64 .f32) (e : FVec Ideal S640000x16 .f32) (src dst : IVec S640000 32)
    (Wmsg : FVec Ideal S2x144x128 .f32) (Bmsg : FVec Ideal S2x128 .f32) (Wih : FVec Ideal S2x192x128 .f32)
    (Whh : FVec Ideal S2x192x64 .f32) (Bih Bhh : FVec Ideal S2x192 .f32) : FVec Ideal S20000x64 .f32 :=
  refRound1 (refRound0 hv e src dst Wmsg Bmsg Wih Whh Bih Bhh) e src dst Wmsg Bmsg Wih Whh Bih Bhh

end Cert.Hand.Ref

end
-- ==== Proof.IdealHost.lean ====
/-
  What the host stretches of the idealized kernel program write, read against the reference's stage functions: each
  buffer a region stages, at the boundary where the region is entered, is a stage function of the buffers at the boundary
  before. The gathered and concatenated layer input, the two leading slices of the parameters and the scattered sum are
  the same operations in both programs; the kernel's bias rows are the reference's bias vectors cast to one row.
-/
import proofs.«180314_j10892037063246_1_alg».proof.Proof.IdealRun
import proofs.«180314_j10892037063246_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Hand.Ref (refMsgIn refAgg wmsg0 wmsg1 bmsg0 bmsg1 wihT0 wihT1 whhT0 whhT1 bih0 bih1 bhh0 bhh1)

variable (m : (ℓ : Loc nD τ sig) → Buf (Elt Ideal) ℓ) (ρ : Dev nD → PrngReg)

/-! ## The first stretch: round 0's layer input and message parameters, from any contents `W` of the buffers before it, and at the boundary's contents -/

theorem stretch0_v14 (W : Valuation τ sig (Elt Ideal)) :
    StableHlo.after hostOps0 W (Proc.devRef .tc main_v14) = refMsgIn (W (Proc.devRef .tc main_arg0)) (W (Proc.devRef .tc main_arg1)) (W (Proc.devRef .tc main_arg2)) (W (Proc.devRef .tc main_arg3)) := by
  after_results
  rfl
theorem U1_v14 (c : Dev nD) : U1 m ρ c main_v14 = refMsgIn (m ((c : Thread nD τ).loc main_arg0)) (m ((c : Thread nD τ).loc main_arg1)) (m ((c : Thread nD τ).loc main_arg2)) (m ((c : Thread nD τ).loc main_arg3)) :=
  stretch0_v14 (W0 m ρ c)
theorem stretch0_v16 (W : Valuation τ sig (Elt Ideal)) :
    StableHlo.after hostOps0 W (Proc.devRef .tc main_v16) = wmsg0 (W (Proc.devRef .tc main_arg4)) := by
  after_results
  rfl
theorem U1_v16 (c : Dev nD) : U1 m ρ c main_v16 = wmsg0 (m ((c : Thread nD τ).loc main_arg4)) :=
  stretch0_v16 (W0 m ρ c)
theorem stretch0_v19 (W : Valuation τ sig (Elt Ideal)) :
    StableHlo.after hostOps0 W (Proc.devRef .tc main_v19) = shapeCast S1x128 (bmsg0 (W (Proc.devRef .tc main_arg5))) shapeCasts_S128_S1x128 := by
  after_results
  rfl
theorem U1_v19 (c : Dev nD) : U1 m ρ c main_v19 = shapeCast S1x128 (bmsg0 (m ((c : Thread nD τ).loc main_arg5))) shapeCasts_S128_S1x128 :=
  stretch0_v19 (W0 m ρ c)

/-! ## The second stretch: round 0's summed messages and cell parameters, from any contents `W` of the buffers before it, and at the boundary's contents -/

theorem stretch1_v23 (W : Valuation τ sig (Elt Ideal)) :
    StableHlo.after hostOps1 W (Proc.devRef .tc main_v23) = refAgg (W (Proc.devRef .tc main_v20)) (W (Proc.devRef .tc main_arg3)) := by
  after_results
  rfl
theorem U3_v23 (c : Dev nD) : U3 m ρ c main_v23 = refAgg (W2 m ρ c (Proc.devRef .tc main_v20)) (W2 m ρ c (Proc.devRef .tc main_arg3)) :=
  stretch1_v23 (W2 m ρ c)
theorem stretch1_v26 (W : Valuation τ sig (Elt Ideal)) :
    StableHlo.after hostOps1 W (Proc.devRef .tc main_v26) = wihT0 (W (Proc.devRef .tc main_arg6)) := by
  after_results
  rfl
theorem U3_v26 (c : Dev nD) : U3 m ρ c main_v26 = wihT0 (W2 m ρ c (Proc.devRef .tc main_arg6)) :=
  stretch1_v26 (W2 m ρ c)
theorem stretch1_v29 (W : Valuation τ sig (Elt Ideal)) :
    StableHlo.after hostOps1 W (Proc.devRef .tc main_v29) = whhT0 (W (Proc.devRef .tc main_arg7)) := by
  after_results
  rfl
theorem U3_v29 (c : Dev nD) : U3 m ρ c main_v29 = whhT0 (W2 m ρ c (Proc.devRef .tc main_arg7)) :=
  stretch1_v29 (W2 m ρ c)
theorem stretch1_v32 (W : Valuation τ sig (Elt Ideal)) :
    StableHlo.after hostOps1 W (Proc.devRef .tc main_v32) = shapeCast S1x192 (bih0 (W (Proc.devRef .tc main_arg8))) shapeCasts_S192_S1x192 := by
  after_results
  rfl
theorem U3_v32 (c : Dev nD) : U3 m ρ c main_v32 = shapeCast S1x192 (bih0 (W2 m ρ c (Proc.devRef .tc main_arg8))) shapeCasts_S192_S1x192 :=
  stretch1_v32 (W2 m ρ c)
theorem stretch1_v35 (W : Valuation τ sig (Elt Ideal)) :
    StableHlo.after hostOps1 W (Proc.devRef .tc main_v35) = shapeCast S1x192 (bhh0 (W (Proc.devRef .tc main_arg9))) shapeCasts_S192_S1x192 := by
  after_results
  rfl
theorem U3_v35 (c : Dev nD) : U3 m ρ c main_v35 = shapeCast S1x192 (bhh0 (W2 m ρ c (Proc.devRef .tc main_arg9))) shapeCasts_S192_S1x192 :=
  stretch1_v35 (W2 m ρ c)

/-! ## The third stretch: round 1's layer input and message parameters, from any contents `W` of the buffers before it, and at the boundary's contents -/

theorem stretch2_v51 (W : Valuation τ sig (Elt Ideal)) :
    StableHlo.after hostOps2 W (Proc.devRef .tc main_v51) = refMsgIn (W (Proc.devRef .tc main_v36)) (W (Proc.devRef .tc main_arg1)) (W (Proc.devRef .tc main_arg2)) (W (Proc.devRef .tc main_arg3)) := by
  after_results
  rfl
theorem U5_v51 (c : Dev nD) : U5 m ρ c main_v51 = refMsgIn (W4 m ρ c (Proc.devRef .tc main_v36)) (W4 m ρ c (Proc.devRef .tc main_arg1)) (W4 m ρ c (Proc.devRef .tc main_arg2)) (W4 m ρ c (Proc.devRef .tc main_arg3)) :=
  stretch2_v51 (W4 m ρ c)
theorem stretch2_v53 (W : Valuation τ sig (Elt Ideal)) :
    StableHlo.after hostOps2 W (Proc.devRef .tc main_v53) = wmsg1 (W (Proc.devRef .tc main_arg4)) := by
  after_results
  rfl
theorem U5_v53 (c : Dev nD) : U5 m ρ c main_v53 = wmsg1 (W4 m ρ c (Proc.devRef .tc main_arg4)) :=
  stretch2_v53 (W4 m ρ c)
theorem stretch2_v56 (W : Valuation τ sig (Elt Ideal)) :
    StableHlo.after hostOps2 W (Proc.devRef .tc main_v56) = shapeCast S1x128 (bmsg1 (W (Proc.devRef .tc main_arg5))) shapeCasts_S128_S1x128 := by
  after_results
  rfl
theorem U5_v56 (c : Dev nD) : U5 m ρ c main_v56 = shapeCast S1x128 (bmsg1 (W4 m ρ c (Proc.devRef .tc main_arg5))) shapeCasts_S128_S1x128 :=
  stretch2_v56 (W4 m ρ c)

/-! ## The fourth stretch: round 1's summed messages and cell parameters, from any contents `W` of the buffers before it, and at the boundary's contents -/

theorem stretch3_v60 (W : Valuation τ sig (Elt Ideal)) :
    StableHlo.after hostOps3 W (Proc.devRef .tc main_v60) = refAgg (W (Proc.devRef .tc main_v57)) (W (Proc.devRef .tc main_arg3)) := by
  after_results
  rfl
theorem U7_v60 (c : Dev nD) : U7 m ρ c main_v60 = refAgg (W6 m ρ c (Proc.devRef .tc main_v57)) (W6 m ρ c (Proc.devRef .tc main_arg3)) :=
  stretch3_v60 (W6 m ρ c)
theorem stretch3_v63 (W : Valuation τ sig (Elt Ideal)) :
    StableHlo.after hostOps3 W (Proc.devRef .tc main_v63) = wihT1 (W (Proc.devRef .tc main_arg6)) := by
  after_results
  rfl
theorem U7_v63 (c : Dev nD) : U7 m ρ c main_v63 = wihT1 (W6 m ρ c (Proc.devRef .tc main_arg6)) :=
  stretch3_v63 (W6 m ρ c)
theorem stretch3_v66 (W : Valuation τ sig (Elt Ideal)) :
    StableHlo.after hostOps3 W (Proc.devRef .tc main_v66) = whhT1 (W (Proc.devRef .tc main_arg7)) := by
  after_results
  rfl
theorem U7_v66 (c : Dev nD) : U7 m ρ c main_v66 = whhT1 (W6 m ρ c (Proc.devRef .tc main_arg7)) :=
  stretch3_v66 (W6 m ρ c)
theorem stretch3_v69 (W : Valuation τ sig (Elt Ideal)) :
    StableHlo.after hostOps3 W (Proc.devRef .tc main_v69) = shapeCast S1x192 (bih1 (W (Proc.devRef .tc main_arg8))) shapeCasts_S192_S1x192 := by
  after_results
  rfl
theorem U7_v69 (c : Dev nD) : U7 m ρ c main_v69 = shapeCast S1x192 (bih1 (W6 m ρ c (Proc.devRef .tc main_arg8))) shapeCasts_S192_S1x192 :=
  stretch3_v69 (W6 m ρ c)
theorem stretch3_v72 (W : Valuation τ sig (Elt Ideal)) :
    StableHlo.after hostOps3 W (Proc.devRef .tc main_v72) = shapeCast S1x192 (bhh1 (W (Proc.devRef .tc main_arg9))) shapeCasts_S192_S1x192 := by
  after_results
  rfl
theorem U7_v72 (c : Dev nD) : U7 m ρ c main_v72 = shapeCast S1x192 (bhh1 (W6 m ρ c (Proc.devRef .tc main_arg9))) shapeCasts_S192_S1x192 :=
  stretch3_v72 (W6 m ρ c)

/-! ## The first cell's output reaches the second cell unchanged: neither the third nor the fourth stretch writes it, and the
    third region neither stages nor writes it -/

theorem U7_v36 (c : Dev nD) : U7 m ρ c main_v36 = W4 m ρ c (Proc.devRef .tc main_v36) :=
  calc U7 m ρ c main_v36
    _ = W6 m ρ c (Proc.devRef .tc main_v36) := StableHlo.after_of_writes_sub hostOps3 _ hostOps3_writes (r := main_v36) (by decide)
    _ = W5 m ρ c (Proc.devRef .tc main_v36) := W6_of_ne m ρ c main_v36 (by decide)
    _ = W4 m ρ c (Proc.devRef .tc main_v36) := StableHlo.after_of_writes_sub hostOps2 _ hostOps2_writes (r := main_v36) (by decide)

end Cert.KernelIdeal.Hand

end
-- ==== Proof.Spec.lean ====
/-
  The arithmetic both programs perform, written once over plain index functions on the extended reals.

  * `lin x w b c = (∑ k, x k · w k c) + b c`: entry `c` of one row `x` through an affine layer with weight matrix
    `w` (contraction index first) and bias `b`.
  * `gru a h wi wh bi bh j`: entry `j` of one row of a gated recurrent cell with 64 hidden units.  With
    `gi = lin a wi bi` and `gh = lin h wh bh` (192 columns each, read as three consecutive stretches of 64):
    `r = σ(gi_j + gh_j)`, `z = σ(gi_{64+j} + gh_{64+j})`, `n = tanh(gi_{128+j} + r · gh_{128+j})`, and the new state is
    `(1 − z) · n + z · h_j`.  Here `σ x = 1 / (1 + e^{−x})` on the extended reals and the constant one is kept as the
    float word both programs spell it with.
-/
import Idealize.ShloMosaic.PureOps.Ideal

noncomputable section

namespace Cert.Spec

open Idealize.ShloMosaic

/-- Entry `c` of a row `x` through the affine layer `(w, b)`. -/
def lin {K C : ℕ} (x : Fin K → EReal) (w : Fin K → Fin C → EReal) (b : Fin C → EReal) (c : Fin C) : EReal :=
  (∑ k : Fin K, x k * w k c) + b c

/-- Column `j` of the first, second and third stretch of 64 among 192 columns. -/
def lo (j : Fin 64) : Fin 192 := ⟨j.val, by omega⟩
def mid (j : Fin 64) : Fin 192 := ⟨64 + j.val, by omega⟩
def hi (j : Fin 64) : Fin 192 := ⟨128 + j.val, by omega⟩

/-- The float word of 1.0 at the ideal instance. -/
def one : EReal := Ideal.ofBits .f32 0x3F800000#32

/-- Entry `j` of one row of the gated recurrent cell. -/
def gru (a : Fin 128 → EReal) (h : Fin 64 → EReal) (wi : Fin 128 → Fin 192 → EReal) (wh : Fin 64 → Fin 192 → EReal)
    (bi bh : Fin 192 → EReal) (j : Fin 64) : EReal :=
  (one - Ideal.logistic (lin a wi bi (mid j) + lin h wh bh (mid j)))
      * Ideal.tanh (lin a wi bi (hi j) + Ideal.logistic (lin a wi bi (lo j) + lin h wh bh (lo j)) * lin h wh bh (hi j))
    + Ideal.logistic (lin a wi bi (mid j) + lin h wh bh (mid j)) * h j

end Cert.Spec

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.PayMsg.lean ====
/-
  The two message kernels' arithmetic on the extended reals, entry by entry.

  Each message kernel computes one dense layer of a block of 8000 rows: the block of inputs times the weight matrix,
  accumulated from zero, plus the bias row repeated along the rows. The operands are narrowed to bf16 before the product;
  on the extended reals a change of float format is the identity. So entry (p, q) of the stored block is
  (∑ k, x (p, k) * w (k, q)) + b (0, q). The layer is stated once for any extents (it serves the gated cell's two layers
  too) and then read off each kernel's payload.
-/
import proofs.«180314_j10892037063246_1_alg».proof.Proof.Gen.KernelIdeal.Skeleton
import proofs.«180314_j10892037063246_1_alg».proof.Proof.Spec
import proofs.«180314_j10892037063246_1_alg».proof.Proof.LibDense
import Idealize.ShloMosaic.Lib.ValueLayout

noncomputable section

namespace Cert.Hand.Pay

open Idealize.ShloMosaic Idealize.ShloMosaic.ValueIdx Cert.KernelIdeal

/-- A dense layer as both message kernels spell it: the operands narrowed to bf16 (the identity on the extended
    reals), their product into a zero accumulator, plus the one-row bias repeated along the rows. At entry (p, c) it is
    the sum over k of x (p, k) * w (k, c), plus b (0, c). -/
theorem lin_at {R K C : ℕ} (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (x : FVec Ideal ⟨2, ![R, K]⟩ .f32) (w : FVec Ideal ⟨2, ![K, C]⟩ .f32) (b : FVec Ideal ⟨2, ![1, C]⟩ .f32)
    (hx hw : FTy.bf16.bits < FTy.f32.bits) (hb : (⟨2, ![1, C]⟩ : Shape).Broadcasts ⟨2, ![R, C]⟩)
    (p : Fin R) (c : Fin C) :
    addf (matmul D none (truncf .bf16 x hx) (truncf .bf16 w hw) (constant ⟨2, ![R, C]⟩ .f32 0x00000000#32))
        (broadcastTo ⟨2, ![R, C]⟩ b hb) (ix2 p c)
      = Cert.Spec.lin (fun k : Fin K => x (ix2 p k)) (fun (k : Fin K) (c : Fin C) => w (ix2 k c))
          (fun c : Fin C => b (ix2 0 c)) c := by
  unfold Cert.Spec.lin
  rw [addf_apply]
  refine congrArg₂ (· + ·) ?_ ?_
  · refine (Cert.Dense.matmul_zero_eq D hr hs l0 l1 r0 r1 none _ _ (ix2 p c)).trans ?_
    unfold Cert.Dense.mm
    refine Finset.sum_congr rfl fun k _ => ?_
    rw [truncf_apply, truncf_apply]
    rfl
  · rw [broadcastTo_1b_ab_apply]

/-- The first message kernel's stored value at row p, column q. -/
theorem pay_msg0 (x : Vec Ideal S8000x144 .f32) (w : Vec Ideal S144x128 .f32) (b : Vec Ideal S1x128 .f32)
    (p : Fin 8000) (q : Fin 128) :
    Cert.KernelIdeal.Gen.k0_pay1 (F := Ideal) x w b (ix2 p q)
      = Cert.Spec.lin (fun k : Fin 144 => x (ix2 p k)) (fun (k : Fin 144) (c : Fin 128) => w (ix2 k c))
          (fun c : Fin 128 => b (ix2 0 c)) q := by
  unfold Cert.KernelIdeal.Gen.k0_pay1
  rw [shapeCast_self, shapeCast_self, shapeCast_self]
  exact lin_at dot_S8000x144_S144x128_S8000x128_1_0_0_1_n_n rfl rfl (fun _ _ => rfl) (fun _ _ => rfl)
    (fun _ _ => rfl) (fun _ _ => rfl) x w b _ _ _ p q

/-- The second message kernel's stored value at row p, column q: the same layer. -/
theorem pay_msg2 (x : Vec Ideal S8000x144 .f32) (w : Vec Ideal S144x128 .f32) (b : Vec Ideal S1x128 .f32)
    (p : Fin 8000) (q : Fin 128) :
    Cert.KernelIdeal.Gen.k2_pay1 (F := Ideal) x w b (ix2 p q)
      = Cert.Spec.lin (fun k : Fin 144 => x (ix2 p k)) (fun (k : Fin 144) (c : Fin 128) => w (ix2 k c))
          (fun c : Fin 128 => b (ix2 0 c)) q := by
  unfold Cert.KernelIdeal.Gen.k2_pay1
  rw [shapeCast_self, shapeCast_self, shapeCast_self]
  exact lin_at dot_S8000x144_S144x128_S8000x128_1_0_0_1_n_n rfl rfl (fun _ _ => rfl) (fun _ _ => rfl)
    (fun _ _ => rfl) (fun _ _ => rfl) x w b _ _ _ p q

end Cert.Hand.Pay

end
-- ==== Proof.IdealMsgValue.lean ====
/-
  From blocks to the whole array, for the two message-layer regions of the idealized kernel on the extended reals.

  Each region runs its body at 80 grid points. At point t the body reads rows t * 8000 .. t * 8000 + 7999 of the edge
  array (window 0), the whole weight matrix and the whole bias row (windows 1 and 2, block (0, 0) at every point), and
  writes rows t * 8000 .. of the output array (window 3). An element of a block sits in its array, on each axis, at the
  block index times the block size plus its own coordinate; so the block point t writes back, which is the dense layer of
  the three blocks entry by entry, is block t of ONE function of the three arrays: `msgArr`, the dense layer of the whole
  edge array. Every row r of the output lies in the block of point r / 8000 and every point writes back, so after the
  last point the output array is `msgArr` of the arrays as the region found them.
-/
import proofs.«180314_j10892037063246_1_alg».proof.Proof.IdealMsg
import proofs.«180314_j10892037063246_1_alg».proof.Proof.PayMsg
import proofs.«180314_j10892037063246_1_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The message layer of the whole edge array: row (i 0) of x through the affine layer (w, b), entry (i 1). -/
def msgArr (x : S640000x144.Idx → Elt Ideal .f32) (w : S144x128.Idx → Elt Ideal .f32) (b : S1x128.Idx → Elt Ideal .f32) :
    S640000x128.Idx → Elt Ideal .f32 :=
  fun i => Cert.Spec.lin (fun k : Fin 144 => x (ix2 (i 0) k)) (fun (k : Fin 144) (c : Fin 128) => w (ix2 k c))
    (fun c : Fin 128 => b (ix2 0 c)) (i 1)

theorem hz2 : (![0, 0] : Fin 2 → Nat) = fun _ => 0 := funext fun a => by fin_cases a <;> rfl

/-! # Region 0 -/

section Value0
variable (V : (c : Dev nD) → (b : Ref sig .tc) → Buf (Elt Ideal) ((c : Thread nD τ).loc b))

/-- The printed index maps, decided over the grid: the row windows sit at block (t, 0), the others at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the edge block at point t is row t * 8000 + p of the edge array. -/
theorem iblk0_0_row (c : Dev nD) (t : Fin cfg0.N) (p : Fin 8000) (r : Fin 640000) (hr : r.val = t.val * 8000 + p.val) :
    (fun k : Fin 144 => iblk0 V c 0 t (ix2 p k)) = fun k : Fin 144 => V c main_v14 (ix2 r k) := by
  obtain ⟨e00, e01, -⟩ := idx_facts0 t
  funext k
  show V c main_v14 (((cfg0.win 0).blk t).view.emb (ix2 p k)) = V c main_v14 (ix2 r k)
  refine congrArg (V c main_v14) (funext fun a => Fin.ext ?_)
  match a with
  | ⟨0, _⟩ => show win0_0.index t (0 : Fin 2) * 8000 + 1 * p.val = r.val; omega
  | ⟨1, _⟩ => show win0_0.index t (1 : Fin 2) * 144 + 1 * k.val = k.val; omega

/-- The weight block is the weight array at every point, -/
theorem iblk0_1_eq (c : Dev nD) (t : Fin cfg0.N) :
    (fun (k : Fin 144) (q : Fin 128) => iblk0 V c 1 t (ix2 k q)) = fun (k : Fin 144) (q : Fin 128) => V c main_v16 (ix2 k q) := by
  obtain ⟨-, -, e10, e11, -⟩ := idx_facts0 t
  funext k q
  show V c main_v16 (((cfg0.win 1).blk t).view.emb (ix2 k q)) = V c main_v16 (ix2 k q)
  refine congrArg (V c main_v16) (funext fun a => Fin.ext ?_)
  match a with
  | ⟨0, _⟩ => show win0_1.index t (0 : Fin 2) * 144 + 1 * k.val = k.val; omega
  | ⟨1, _⟩ => show win0_1.index t (1 : Fin 2) * 128 + 1 * q.val = q.val; omega

/-- and the bias block the bias row. -/
theorem iblk0_2_eq (c : Dev nD) (t : Fin cfg0.N) :
    (fun q : Fin 128 => iblk0 V c 2 t (ix2 0 q)) = fun q : Fin 128 => V c main_v19 (ix2 0 q) := by
  obtain ⟨-, -, -, -, e20, e21, -⟩ := idx_facts0 t
  funext q
  show V c main_v19 (((cfg0.win 2).blk t).view.emb (ix2 0 q)) = V c main_v19 (ix2 0 q)
  refine congrArg (V c main_v19) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point t writes back is block t of the message layer of the arrays as the region finds them. -/
theorem flushed0_eq (c : Dev nD) (t : Fin cfg0.N) :
    (dat0 (F := Ideal) V c).flushed 3 t
      = ((cfg0.win 3).blk t).view.read (Elt Ideal) (msgArr (V c main_v14) (V c main_v16) (V c main_v19)) := by
  show (cfg0.win 3).cut (grid0.coords t) ((dat0 V c).after 3 t) = _
  rw [after0_3]
  unfold out0_3
  rw [View.canon_unit_zero hz2]
  simp only [View.ld_unit_zero (S := S8000x144) hz2, View.ld_unit_zero (S := S144x128) hz2, View.ld_unit_zero (S := S1x128) hz2]
  funext j
  obtain ⟨p, q, rfl⟩ : ∃ (p : Fin 8000) (q : Fin 128), j = ix2 p q := ⟨j 0, j 1, eq_ix2 j⟩
  obtain ⟨-, -, -, -, -, -, e30, e31⟩ := idx_facts0 t
  have ht : t.val < 80 := lt_of_lt_of_eq t.isLt N_0
  have hemb : ((cfg0.win 3).blk t).view.emb (ix2 p q) = ix2 (⟨t.val * 8000 + p.val, by omega⟩ : Fin 640000) q := by
    funext a; apply Fin.ext
    match a with
    | ⟨0, _⟩ => show win0_3.index t (0 : Fin 2) * 8000 + 1 * p.val = t.val * 8000 + p.val; omega
    | ⟨1, _⟩ => show win0_3.index t (1 : Fin 2) * 128 + 1 * q.val = q.val; omega
  refine (Cert.Hand.Pay.pay_msg0 _ _ _ p q).trans ?_
  show _ = msgArr (V c main_v14) (V c main_v16) (V c main_v19) (((cfg0.win 3).blk t).view.emb (ix2 p q))
  rw [hemb, iblk0_0_row V c t p ⟨t.val * 8000 + p.val, by omega⟩ rfl, iblk0_1_eq V c t, iblk0_2_eq V c t]
  rfl

/-- An index of the output array is in point t's block iff each coordinate is in the block's range on its axis. -/
theorem mem_blk0 (t : Fin cfg0.N) (i : S640000x128.Idx) :
    i ∈ ((cfg0.win 3).blk t).view.set
      ↔ ∀ a : Fin 2, win0_3.index t a * S8000x128.size a ≤ (i a).val ∧ (i a).val < win0_3.index t a * S8000x128.size a + S8000x128.size a := by
  show i ∈ ((View.whole main_v20).slice (win0_3.rect t)).set ↔ _
  rw [View.set_slice_whole, Rect.mem_set_unit]
  exact Iff.rfl

/-- Every row r of the output array is in the block of point r / 8000. -/
theorem cover0 (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : (i 0).val / 8000 < cfg0.N := by
    have : (i 0).val / 8000 < 80 := by omega
    exact lt_of_lt_of_eq this N_0.symm
  refine ⟨⟨(i 0).val / 8000, hN⟩, flush0_3 _, ?_⟩
  obtain ⟨-, -, -, -, -, -, e30, e31⟩ := idx_facts0 ⟨(i 0).val / 8000, hN⟩
  rw [mem_blk0]
  intro a
  match a with
  | ⟨0, _⟩ =>
    show win0_3.index ⟨(i 0).val / 8000, hN⟩ (0 : Fin 2) * 8000 ≤ (i 0).val
      ∧ (i 0).val < win0_3.index ⟨(i 0).val / 8000, hN⟩ (0 : Fin 2) * 8000 + 8000
    rw [e30]; show (i 0).val / 8000 * 8000 ≤ (i 0).val ∧ (i 0).val < (i 0).val / 8000 * 8000 + 8000; omega
  | ⟨1, _⟩ =>
    show win0_3.index ⟨(i 0).val / 8000, hN⟩ (1 : Fin 2) * 128 ≤ (i 1).val
      ∧ (i 1).val < win0_3.index ⟨(i 0).val / 8000, hN⟩ (1 : Fin 2) * 128 + 128
    rw [e31]; omega

/-- The output array after the region: the message layer of the arrays as the region finds them. -/
theorem final0 (c : Dev nD) :
    (dat0 (F := Ideal) V c).arrAt 3 cfg0.N = msgArr (V c main_v14) (V c main_v16) (V c main_v19) :=
  (dat0 (F := Ideal) V c).arrAt_eq_of_cover 3 _ (fun t _ => flushed0_eq V c t) (cover0)

end Value0

/-! # Region 2: the same layer on the second round's arrays -/

section Value2
variable (V : (c : Dev nD) → (b : Ref sig .tc) → Buf (Elt Ideal) ((c : Thread nD τ).loc b))

/-- The printed index maps, decided over the grid: the row windows sit at block (t, 0), the others at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the edge block at point t is row t * 8000 + p of the edge array. -/
theorem iblk2_0_row (c : Dev nD) (t : Fin cfg2.N) (p : Fin 8000) (r : Fin 640000) (hr : r.val = t.val * 8000 + p.val) :
    (fun k : Fin 144 => iblk2 V c 0 t (ix2 p k)) = fun k : Fin 144 => V c main_v51 (ix2 r k) := by
  obtain ⟨e00, e01, -⟩ := idx_facts2 t
  funext k
  show V c main_v51 (((cfg2.win 0).blk t).view.emb (ix2 p k)) = V c main_v51 (ix2 r k)
  refine congrArg (V c main_v51) (funext fun a => Fin.ext ?_)
  match a with
  | ⟨0, _⟩ => show win2_0.index t (0 : Fin 2) * 8000 + 1 * p.val = r.val; omega
  | ⟨1, _⟩ => show win2_0.index t (1 : Fin 2) * 144 + 1 * k.val = k.val; omega

/-- The weight block is the weight array at every point, -/
theorem iblk2_1_eq (c : Dev nD) (t : Fin cfg2.N) :
    (fun (k : Fin 144) (q : Fin 128) => iblk2 V c 1 t (ix2 k q)) = fun (k : Fin 144) (q : Fin 128) => V c main_v53 (ix2 k q) := by
  obtain ⟨-, -, e10, e11, -⟩ := idx_facts2 t
  funext k q
  show V c main_v53 (((cfg2.win 1).blk t).view.emb (ix2 k q)) = V c main_v53 (ix2 k q)
  refine congrArg (V c main_v53) (funext fun a => Fin.ext ?_)
  match a with
  | ⟨0, _⟩ => show win2_1.index t (0 : Fin 2) * 144 + 1 * k.val = k.val; omega
  | ⟨1, _⟩ => show win2_1.index t (1 : Fin 2) * 128 + 1 * q.val = q.val; omega

/-- and the bias block the bias row. -/
theorem iblk2_2_eq (c : Dev nD) (t : Fin cfg2.N) :
    (fun q : Fin 128 => iblk2 V c 2 t (ix2 0 q)) = fun q : Fin 128 => V c main_v56 (ix2 0 q) := by
  obtain ⟨-, -, -, -, e20, e21, -⟩ := idx_facts2 t
  funext q
  show V c main_v56 (((cfg2.win 2).blk t).view.emb (ix2 0 q)) = V c main_v56 (ix2 0 q)
  refine congrArg (V c main_v56) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- What point t writes back is block t of the message layer of the arrays as the region finds them. -/
theorem flushed2_eq (c : Dev nD) (t : Fin cfg2.N) :
    (dat2 (F := Ideal) V c).flushed 3 t
      = ((cfg2.win 3).blk t).view.read (Elt Ideal) (msgArr (V c main_v51) (V c main_v53) (V c main_v56)) := by
  show (cfg2.win 3).cut (grid2.coords t) ((dat2 V c).after 3 t) = _
  rw [after2_3]
  unfold out2_3
  rw [View.canon_unit_zero hz2]
  simp only [View.ld_unit_zero (S := S8000x144) hz2, View.ld_unit_zero (S := S144x128) hz2, View.ld_unit_zero (S := S1x128) hz2]
  funext j
  obtain ⟨p, q, rfl⟩ : ∃ (p : Fin 8000) (q : Fin 128), j = ix2 p q := ⟨j 0, j 1, eq_ix2 j⟩
  obtain ⟨-, -, -, -, -, -, e30, e31⟩ := idx_facts2 t
  have ht : t.val < 80 := lt_of_lt_of_eq t.isLt N_2
  have hemb : ((cfg2.win 3).blk t).view.emb (ix2 p q) = ix2 (⟨t.val * 8000 + p.val, by omega⟩ : Fin 640000) q := by
    funext a; apply Fin.ext
    match a with
    | ⟨0, _⟩ => show win2_3.index t (0 : Fin 2) * 8000 + 1 * p.val = t.val * 8000 + p.val; omega
    | ⟨1, _⟩ => show win2_3.index t (1 : Fin 2) * 128 + 1 * q.val = q.val; omega
  refine (Cert.Hand.Pay.pay_msg2 _ _ _ p q).trans ?_
  show _ = msgArr (V c main_v51) (V c main_v53) (V c main_v56) (((cfg2.win 3).blk t).view.emb (ix2 p q))
  rw [hemb, iblk2_0_row V c t p ⟨t.val * 8000 + p.val, by omega⟩ rfl, iblk2_1_eq V c t, iblk2_2_eq V c t]
  rfl

/-- An index of the output array is in point t's block iff each coordinate is in the block's range on its axis. -/
theorem mem_blk2 (t : Fin cfg2.N) (i : S640000x128.Idx) :
    i ∈ ((cfg2.win 3).blk t).view.set
      ↔ ∀ a : Fin 2, win2_3.index t a * S8000x128.size a ≤ (i a).val ∧ (i a).val < win2_3.index t a * S8000x128.size a + S8000x128.size a := by
  show i ∈ ((View.whole main_v57).slice (win2_3.rect t)).set ↔ _
  rw [View.set_slice_whole, Rect.mem_set_unit]
  exact Iff.rfl

/-- Every row r of the output array is in the block of point r / 8000. -/
theorem cover2 (i : S640000x128.Idx) :
    ∃ t : Fin cfg2.N, (cfg2.win 3).flush t = true ∧ i ∈ ((cfg2.win 3).blk t).view.set := by
  have hi0 : (i 0).val < 640000 := (i 0).isLt
  have hi1 : (i 1).val < 128 := (i 1).isLt
  have hN : (i 0).val / 8000 < cfg2.N := by
    have : (i 0).val / 8000 < 80 := by omega
    exact lt_of_lt_of_eq this N_2.symm
  refine ⟨⟨(i 0).val / 8000, hN⟩, flush2_3 _, ?_⟩
  obtain ⟨-, -, -, -, -, -, e30, e31⟩ := idx_facts2 ⟨(i 0).val / 8000, hN⟩
  rw [mem_blk2]
  intro a
  match a with
  | ⟨0, _⟩ =>
    show win2_3.index ⟨(i 0).val / 8000, hN⟩ (0 : Fin 2) * 8000 ≤ (i 0).val
      ∧ (i 0).val < win2_3.index ⟨(i 0).val / 8000, hN⟩ (0 : Fin 2) * 8000 + 8000
    rw [e30]; show (i 0).val / 8000 * 8000 ≤ (i 0).val ∧ (i 0).val < (i 0).val / 8000 * 8000 + 8000; omega
  | ⟨1, _⟩ =>
    show win2_3.index ⟨(i 0).val / 8000, hN⟩ (1 : Fin 2) * 128 ≤ (i 1).val
      ∧ (i 1).val < win2_3.index ⟨(i 0).val / 8000, hN⟩ (1 : Fin 2) * 128 + 128
    rw [e31]; omega

/-- The output array after the region: the message layer of the arrays as the region finds them. -/
theorem final2 (c : Dev nD) :
    (dat2 (F := Ideal) V c).arrAt 3 cfg2.N = msgArr (V c main_v51) (V c main_v53) (V c main_v56) :=
  (dat2 (F := Ideal) V c).arrAt_eq_of_cover 3 _ (fun t _ => flushed2_eq V c t) (cover2)

end Value2

end Cert.KernelIdeal.Hand

end
-- ==== Proof.PayGru.lean ====
/-
  The two gated-cell kernels' arithmetic on the extended reals, entry by entry.

  Each kernel takes a block of 4000 rows of aggregated messages a and of states h and computes two dense layers of 192
  columns, gi = a · wi + bi and gh = h · wh + bh (operands narrowed to bf16, the identity on the extended reals; products
  accumulated from zero; bias rows repeated along the rows). Both are cut into three stretches of 64 columns, and with
  r = σ (gi_lo + gh_lo), z = σ (gi_mid + gh_mid), n = tanh (gi_hi + r * gh_hi) the new state is (1 - z) * n + z * h. The
  elementwise part is read at an entry once, for any two pre-activations (`cell_at`), then joined with the dense layer
  of the message kernels' file (`cell_spec`), and each kernel's payload is an instance. The second kernel's text differs
  from the first only by casts of an array to its own shape, which are the identity.
-/
import proofs.«180314_j10892037063246_1_alg».proof.Proof.Gen.KernelIdeal.Skeleton
import proofs.«180314_j10892037063246_1_alg».proof.Proof.Spec
import proofs.«180314_j10892037063246_1_alg».proof.Proof.PayMsg

noncomputable section

namespace Cert.Hand.Pay

open Idealize.ShloMosaic Idealize.ShloMosaic.ValueIdx Cert.KernelIdeal

variable {s : Shape} {φ : FTy}

/-- The logistic function and the hyperbolic tangent of an array, read at an index. -/
theorem logistic_at (v : FVec Ideal s φ) (i : s.Idx) : logistic v i = Ideal.logistic (v i) := rfl
theorem tanh_at (v : FVec Ideal s φ) (i : s.Idx) : tanh v i = Ideal.tanh (v i) := rfl

/-- The gated cell's elementwise part. From the two pre-activations gi, gh (192 columns each, cut into three stretches of
    64 columns) and the state h: with r = σ (gi_lo + gh_lo), z = σ (gi_mid + gh_mid) and n = tanh (gi_hi + r * gh_hi), entry
    (p, q) of (1 - z) * n + z * h'. The state enters as h' here; both kernels load the same block for it. -/
theorem cell_at {R : ℕ} (gi gh : FVec Ideal ⟨2, ![R, 192]⟩ .f32) (h' : FVec Ideal ⟨2, ![R, 64]⟩ .f32)
    (s0 : (⟨2, ![R, 192]⟩ : Shape).Slices ![0, 0] ⟨2, ![R, 64]⟩)
    (s64 : (⟨2, ![R, 192]⟩ : Shape).Slices ![0, 64] ⟨2, ![R, 64]⟩)
    (s128 : (⟨2, ![R, 192]⟩ : Shape).Slices ![0, 128] ⟨2, ![R, 64]⟩) (p : Fin R) (q : Fin 64) :
    addf
        (mulf
          (subf (broadcast ⟨2, ![R, 64]⟩ (Scalar.ofBits (F := Ideal) .f32 0x3F800000#32))
            (logistic (addf (extractStridedSlice ⟨2, ![R, 64]⟩ ![0, 64] gi s64)
              (extractStridedSlice ⟨2, ![R, 64]⟩ ![0, 64] gh s64))))
          (tanh (addf (extractStridedSlice ⟨2, ![R, 64]⟩ ![0, 128] gi s128)
            (mulf
              (logistic (addf (extractStridedSlice ⟨2, ![R, 64]⟩ ![0, 0] gi s0)
                (extractStridedSlice ⟨2, ![R, 64]⟩ ![0, 0] gh s0)))
              (extractStridedSlice ⟨2, ![R, 64]⟩ ![0, 128] gh s128)))))
        (mulf
          (logistic (addf (extractStridedSlice ⟨2, ![R, 64]⟩ ![0, 64] gi s64)
            (extractStridedSlice ⟨2, ![R, 64]⟩ ![0, 64] gh s64)))
          h') (ix2 p q)
      = (Cert.Spec.one - Ideal.logistic (gi (ix2 p (Cert.Spec.mid q)) + gh (ix2 p (Cert.Spec.mid q))))
            * Ideal.tanh (gi (ix2 p (Cert.Spec.hi q))
                + Ideal.logistic (gi (ix2 p (Cert.Spec.lo q)) + gh (ix2 p (Cert.Spec.lo q))) * gh (ix2 p (Cert.Spec.hi q)))
          + Ideal.logistic (gi (ix2 p (Cert.Spec.mid q)) + gh (ix2 p (Cert.Spec.mid q))) * h' (ix2 p q) := by
  rw [addf_apply, mulf_apply, mulf_apply, subf_apply, broadcast_apply, tanh_at, logistic_at, addf_apply, addf_apply,
    mulf_apply, logistic_at, addf_apply,
    slice2_axis1_apply 64 gi s64 p q (Cert.Spec.mid q) rfl, slice2_axis1_apply 64 gh s64 p q (Cert.Spec.mid q) rfl,
    slice2_axis1_apply 128 gi s128 p q (Cert.Spec.hi q) rfl, slice2_axis1_apply 128 gh s128 p q (Cert.Spec.hi q) rfl,
    slice2_axis1_apply 0 gi s0 p q (Cert.Spec.lo q) (Nat.zero_add _).symm,
    slice2_axis1_apply 0 gh s0 p q (Cert.Spec.lo q) (Nat.zero_add _).symm]
  rfl

/-- The cell at entry (p, q), when row p of each pre-activation is an affine layer of a row: the specification's cell. -/
theorem cell_spec {R : ℕ} (gi gh : FVec Ideal ⟨2, ![R, 192]⟩ .f32) (h' : FVec Ideal ⟨2, ![R, 64]⟩ .f32)
    (s0 : (⟨2, ![R, 192]⟩ : Shape).Slices ![0, 0] ⟨2, ![R, 64]⟩)
    (s64 : (⟨2, ![R, 192]⟩ : Shape).Slices ![0, 64] ⟨2, ![R, 64]⟩)
    (s128 : (⟨2, ![R, 192]⟩ : Shape).Slices ![0, 128] ⟨2, ![R, 64]⟩) (p : Fin R) (q : Fin 64)
    (a : Fin 128 → EReal) (h : Fin 64 → EReal) (wi : Fin 128 → Fin 192 → EReal) (wh : Fin 64 → Fin 192 → EReal)
    (bi bh : Fin 192 → EReal)
    (hgi : ∀ c : Fin 192, gi (ix2 p c) = Cert.Spec.lin a wi bi c)
    (hgh : ∀ c : Fin 192, gh (ix2 p c) = Cert.Spec.lin h wh bh c)
    (hh : h' (ix2 p q) = h q) :
    addf
        (mulf
          (subf (broadcast ⟨2, ![R, 64]⟩ (Scalar.ofBits (F := Ideal) .f32 0x3F800000#32))
            (logistic (addf (extractStridedSlice ⟨2, ![R, 64]⟩ ![0, 64] gi s64)
              (extractStridedSlice ⟨2, ![R, 64]⟩ ![0, 64] gh s64))))
          (tanh (addf (extractStridedSlice ⟨2, ![R, 64]⟩ ![0, 128] gi s128)
            (mulf
              (logistic (addf (extractStridedSlice ⟨2, ![R, 64]⟩ ![0, 0] gi s0)
                (extractStridedSlice ⟨2, ![R, 64]⟩ ![0, 0] gh s0)))
              (extractStridedSlice ⟨2, ![R, 64]⟩ ![0, 128] gh s128)))))
        (mulf
          (logistic (addf (extractStridedSlice ⟨2, ![R, 64]⟩ ![0, 64] gi s64)
            (extractStridedSlice ⟨2, ![R, 64]⟩ ![0, 64] gh s64)))
          h') (ix2 p q)
      = Cert.Spec.gru a h wi wh bi bh q := by
  rw [cell_at, hgi, hgi, hgi, hgh, hgh, hgh, hh]
  rfl

/-- The first gated-cell kernel's new state at row p, column q. The state block is loaded twice; both loads are h. -/
theorem pay_gru1 (a : Vec Ideal S4000x128 .f32) (h : Vec Ideal S4000x64 .f32) (wi : Vec Ideal S128x192 .f32)
    (wh : Vec Ideal S64x192 .f32) (bi bh : Vec Ideal S1x192 .f32) (p : Fin 4000) (q : Fin 64) :
    Cert.KernelIdeal.Gen.k1_pay1 (F := Ideal) a h wi wh bi bh h (ix2 p q)
      = Cert.Spec.gru (fun k : Fin 128 => a (ix2 p k)) (fun k : Fin 64 => h (ix2 p k))
          (fun (k : Fin 128) (c : Fin 192) => wi (ix2 k c)) (fun (k : Fin 64) (c : Fin 192) => wh (ix2 k c))
          (fun c : Fin 192 => bi (ix2 0 c)) (fun c : Fin 192 => bh (ix2 0 c)) q := by
  unfold Cert.KernelIdeal.Gen.k1_pay1
  simp only [shapeCast_self]
  refine cell_spec _ _ _ _ _ _ p q _ _ _ _ _ _ (fun c => ?_) (fun c => ?_) rfl
  · exact lin_at dot_S4000x128_S128x192_S4000x192_1_0_0_1_n_n rfl rfl (fun _ _ => rfl) (fun _ _ => rfl)
      (fun _ _ => rfl) (fun _ _ => rfl) a wi bi _ _ _ p c
  · exact lin_at dot_S4000x64_S64x192_S4000x192_1_0_0_1_n_n rfl rfl (fun _ _ => rfl) (fun _ _ => rfl)
      (fun _ _ => rfl) (fun _ _ => rfl) h wh bh _ _ _ p c

/-- The second gated-cell kernel's new state at row p, column q: the same cell. -/
theorem pay_gru3 (a : Vec Ideal S4000x128 .f32) (h : Vec Ideal S4000x64 .f32) (wi : Vec Ideal S128x192 .f32)
    (wh : Vec Ideal S64x192 .f32) (bi bh : Vec Ideal S1x192 .f32) (p : Fin 4000) (q : Fin 64) :
    Cert.KernelIdeal.Gen.k3_pay1 (F := Ideal) a h wi wh bi bh h (ix2 p q)
      = Cert.Spec.gru (fun k : Fin 128 => a (ix2 p k)) (fun k : Fin 64 => h (ix2 p k))
          (fun (k : Fin 128) (c : Fin 192) => wi (ix2 k c)) (fun (k : Fin 64) (c : Fin 192) => wh (ix2 k c))
          (fun c : Fin 192 => bi (ix2 0 c)) (fun c : Fin 192 => bh (ix2 0 c)) q := by
  unfold Cert.KernelIdeal.Gen.k3_pay1
  simp only [shapeCast_self]
  refine cell_spec _ _ _ _ _ _ p q _ _ _ _ _ _ (fun c => ?_) (fun c => ?_) rfl
  · exact lin_at dot_S4000x128_S128x192_S4000x192_1_0_0_1_n_n rfl rfl (fun _ _ => rfl) (fun _ _ => rfl)
      (fun _ _ => rfl) (fun _ _ => rfl) a wi bi _ _ _ p c
  · exact lin_at dot_S4000x64_S64x192_S4000x192_1_0_0_1_n_n rfl rfl (fun _ _ => rfl) (fun _ _ => rfl)
      (fun _ _ => rfl) (fun _ _ => rfl) h wh bh _ _ _ p c

end Cert.Hand.Pay

end
-- ==== Proof.IdealGruValue.lean ====
/-
  From blocks to the whole array, for the two gated-cell regions of the idealized kernel on the extended reals.

  Each region runs its body at 5 grid points. At point t the body reads rows t * 4000 .. t * 4000 + 3999 of the
  aggregated messages (window 0) and of the states (window 1), the two weight matrices and the two bias rows whole
  (windows 2 to 5, block (0, 0) at every point), and writes the same rows of the output array (window 6). An element of
  a block sits in its array, on each axis, at the block index times the block size plus its own coordinate; so the
  block point t writes back, which is the gated cell of the six blocks entry by entry, is block t of ONE function of the
  six arrays: `gruArr`, the gated cell of the whole node array. Every row r of the output lies in the block of point
  r / 4000 and every point writes back, so after the last point the output array is `gruArr` of the arrays as the region
  found them.
-/
import proofs.«180314_j10892037063246_1_alg».proof.Proof.IdealGru
import proofs.«180314_j10892037063246_1_alg».proof.Proof.PayGru
import proofs.«180314_j10892037063246_1_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The gated cell of the whole node array: row (i 0) of the aggregated messages a and of the states h through the cell,
    entry (i 1). -/
def gruArr (a : S20000x128.Idx → Elt Ideal .f32) (h : S20000x64.Idx → Elt Ideal .f32) (wi : S128x192.Idx → Elt Ideal .f32)
    (wh : S64x192.Idx → Elt Ideal .f32) (bi bh : S1x192.Idx → Elt Ideal .f32) : S20000x64.Idx → Elt Ideal .f32 :=
  fun i => Cert.Spec.gru (fun k : Fin 128 => a (ix2 (i 0) k)) (fun k : Fin 64 => h (ix2 (i 0) k))
    (fun (k : Fin 128) (c : Fin 192) => wi (ix2 k c)) (fun (k : Fin 64) (c : Fin 192) => wh (ix2 k c))
    (fun c : Fin 192 => bi (ix2 0 c)) (fun c : Fin 192 => bh (ix2 0 c)) (i 1)

theorem hz2g : (![0, 0] : Fin 2 → Nat) = fun _ => 0 := funext fun a => by fin_cases a <;> rfl

/-! # Region 1 -/

section Value1
variable (V : (c : Dev nD) → (b : Ref sig .tc) → Buf (Elt Ideal) ((c : Thread nD τ).loc b))

/-! The printed index maps, decided over the grid: the row windows (aggregated messages, states, output) sit at block
    (t, 0), the weight and bias windows at block (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-- Row p of the aggregated-message block at point t is row t * 4000 + p of its array. -/
theorem iblk1_0_row (c : Dev nD) (t : Fin cfg1.N) (p : Fin 4000) (r : Fin 20000) (hr : r.val = t.val * 4000 + p.val) :
    (fun k : Fin 128 => iblk1 V c 0 t (ix2 p k)) = fun k : Fin 128 => V c main_v23 (ix2 r k) := by
  obtain ⟨e0, e1⟩ := idx1_0 t
  funext k
  show V c main_v23 (((cfg1.win 0).blk t).view.emb (ix2 p k)) = V c main_v23 (ix2 r k)
  refine congrArg (V c main_v23) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of the state block at point t is row t * 4000 + p of its array. -/
theorem iblk1_1_row (c : Dev nD) (t : Fin cfg1.N) (p : Fin 4000) (r : Fin 20000) (hr : r.val = t.val * 4000 + p.val) :
    (fun k : Fin 64 => iblk1 V c 1 t (ix2 p k)) = fun k : Fin 64 => V c main_arg0 (ix2 r k) := by
  obtain ⟨e0, e1⟩ := idx1_1 t
  funext k
  show V c main_arg0 (((cfg1.win 1).blk t).view.emb (ix2 p k)) = V c main_arg0 (ix2 r k)
  refine congrArg (V c main_arg0) (funext fun a => Fin.ext ?_)
  match a with
  | ⟨0, _⟩ => show win1_1.index t (0 : Fin 2) * 4000 + 1 * p.val = r.val; omega
  | ⟨1, _⟩ => show win1_1.index t (1 : Fin 2) * 64 + 1 * k.val = k.val; omega

/-- The input weights' block is its whole array at every point. -/
theorem iblk1_2_eq (c : Dev nD) (t : Fin cfg1.N) :
    (fun (k : Fin 128) (q : Fin 192) => iblk1 V c 2 t (ix2 k q)) = fun (k : Fin 128) (q : Fin 192) => V c main_v26 (ix2 k q) := by
  obtain ⟨e0, e1⟩ := idx1_2 t
  funext k q
  show V c main_v26 (((cfg1.win 2).blk t).view.emb (ix2 k q)) = V c main_v26 (ix2 k q)
  refine congrArg (V c main_v26) (funext fun a => Fin.ext ?_)
  match a with
  | ⟨0, _⟩ => show win1_2.index t (0 : Fin 2) * 128 + 1 * k.val = k.val; omega
  | ⟨1, _⟩ => show win1_2.index t (1 : Fin 2) * 192 + 1 * q.val = q.val; omega

/-- The state weights' block is its whole array at every point. -/
theorem iblk1_3_eq (c : Dev nD) (t : Fin cfg1.N) :
    (fun (k : Fin 64) (q : Fin 192) => iblk1 V c 3 t (ix2 k q)) = fun (k : Fin 64) (q : Fin 192) => V c main_v29 (ix2 k q) := by
  obtain ⟨e0, e1⟩ := idx1_3 t
  funext k q
  show V c main_v29 (((cfg1.win 3).blk t).view.emb (ix2 k q)) = V c main_v29 (ix2 k q)
  refine congrArg (V c main_v29) (funext fun a => Fin.ext ?_)
  match a with
  | ⟨0, _⟩ => show win1_3.index t (0 : Fin 2) * 64 + 1 * k.val = k.val; omega
  | ⟨1, _⟩ => show win1_3.index t (1 : Fin 2) * 192 + 1 * q.val = q.val; omega

/-- The input bias's block is its one-row array at every point. -/
theorem iblk1_4_eq (c : Dev nD) (t : Fin cfg1.N) :
    (fun q : Fin 192 => iblk1 V c 4 t (ix2 0 q)) = fun q : Fin 192 => V c main_v32 (ix2 0 q) := by
  obtain ⟨e0, e1⟩ := idx1_4 t
  funext q
  show V c main_v32 (((cfg1.win 4).blk t).view.emb (ix2 0 q)) = V c main_v32 (ix2 0 q)
  refine congrArg (V c main_v32) (funext fun a => Fin.ext ?_)
  match a with
  | ⟨0, _⟩ => show win1_4.index t (0 : Fin 2) * 1 + 1 * 0 = 0; omega
  | ⟨1, _⟩ => show win1_4.index t (1 : Fin 2) * 192 + 1 * q.val = q.val; omega

/-- The state bias's block is its one-row array at every point. -/
theorem iblk1_5_eq (c : Dev nD) (t : Fin cfg1.N) :
    (fun q : Fin 192 => iblk1 V c 5 t (ix2 0 q)) = fun q : Fin 192 => V c main_v35 (ix2 0 q) := by
  obtain ⟨e0, e1⟩ := idx1_5 t
  funext q
  show V c main_v35 (((cfg1.win 5).blk t).view.emb (ix2 0 q)) = V c main_v35 (ix2 0 q)
  refine congrArg (V c main_v35) (funext fun a => Fin.ext ?_)
  match a with
  | ⟨0, _⟩ => show win1_5.index t (0 : Fin 2) * 1 + 1 * 0 = 0; omega
  | ⟨1, _⟩ => show win1_5.index t (1 : Fin 2) * 192 + 1 * q.val = q.val; omega

/-- What point t writes back is block t of the gated cell of the arrays as the region finds them. -/
theorem flushed1_eq (c : Dev nD) (t : Fin cfg1.N) :
    (dat1 (F := Ideal) V c).flushed 6 t
      = ((cfg1.win 6).blk t).view.read (Elt Ideal)
          (gruArr (V c main_v23) (V c main_arg0) (V c main_v26) (V c main_v29) (V c main_v32) (V c main_v35)) := by
  show (cfg1.win 6).cut (grid1.coords t) ((dat1 V c).after 6 t) = _
  rw [after1_6]
  unfold out1_6
  rw [View.canon_unit_zero hz2g]
  simp only [View.ld_unit_zero (S := S4000x128) hz2g, View.ld_unit_zero (S := S4000x64) hz2g,
    View.ld_unit_zero (S := S128x192) hz2g, View.ld_unit_zero (S := S64x192) hz2g, View.ld_unit_zero (S := S1x192) hz2g]
  funext j
  obtain ⟨p, q, rfl⟩ : ∃ (p : Fin 4000) (q : Fin 64), j = ix2 p q := ⟨j 0, j 1, eq_ix2 j⟩
  obtain ⟨e60, e61⟩ := idx1_6 t
  have ht : t.val < 5 := lt_of_lt_of_eq t.isLt N_1
  have hemb : ((cfg1.win 6).blk t).view.emb (ix2 p q) = ix2 (⟨t.val * 4000 + p.val, by omega⟩ : Fin 20000) q := by
    funext a; apply Fin.ext
    match a with
    | ⟨0, _⟩ => show win1_6.index t (0 : Fin 2) * 4000 + 1 * p.val = t.val * 4000 + p.val; omega
    | ⟨1, _⟩ => show win1_6.index t (1 : Fin 2) * 64 + 1 * q.val = q.val; omega
  refine (Cert.Hand.Pay.pay_gru1 _ _ _ _ _ _ p q).trans ?_
  show _ = gruArr (V c main_v23) (V c main_arg0) (V c main_v26) (V c main_v29) (V c main_v32) (V c main_v35)
    (((cfg1.win 6).blk t).view.emb (ix2 p q))
  rw [hemb, iblk1_0_row V c t p ⟨t.val * 4000 + p.val, by omega⟩ rfl,
    iblk1_1_row V c t p ⟨t.val * 4000 + p.val, by omega⟩ rfl,
    iblk1_2_eq V c t, iblk1_3_eq V c t, iblk1_4_eq V c t, iblk1_5_eq V c t]
  rfl

/-- An index of the output array is in point t's block iff each coordinate is in the block's range on its axis. -/
theorem mem_blk1 (t : Fin cfg1.N) (i : S20000x64.Idx) :
    i ∈ ((cfg1.win 6).blk t).view.set
      ↔ ∀ a : Fin 2, win1_6.index t a * S4000x64.size a ≤ (i a).val ∧ (i a).val < win1_6.index t a * S4000x64.size a + S4000x64.size a := by
  show i ∈ ((View.whole main_v36).slice (win1_6.rect t)).set ↔ _
  rw [View.set_slice_whole, Rect.mem_set_unit]
  exact Iff.rfl

/-- Every row r of the output array is in the block of point r / 4000. -/
theorem cover1 (i : S20000x64.Idx) :
    ∃ t : Fin cfg1.N, (cfg1.win 6).flush t = true ∧ i ∈ ((cfg1.win 6).blk t).view.set := by
  have hi0 : (i 0).val < 20000 := (i 0).isLt
  have hi1 : (i 1).val < 64 := (i 1).isLt
  have hN : (i 0).val / 4000 < cfg1.N := by
    have : (i 0).val / 4000 < 5 := by omega
    exact lt_of_lt_of_eq this N_1.symm
  refine ⟨⟨(i 0).val / 4000, hN⟩, flush1_6 _, ?_⟩
  obtain ⟨e60, e61⟩ := idx1_6 ⟨(i 0).val / 4000, hN⟩
  rw [mem_blk1]
  intro a
  match a with
  | ⟨0, _⟩ =>
    show win1_6.index ⟨(i 0).val / 4000, hN⟩ (0 : Fin 2) * 4000 ≤ (i 0).val
      ∧ (i 0).val < win1_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, hN⟩ (1 : Fin 2) * 64 ≤ (i 1).val
      ∧ (i 1).val < win1_6.index ⟨(i 0).val / 4000, hN⟩ (1 : Fin 2) * 64 + 64
    rw [e61]; omega

/-- The output array after the region: the gated cell of the arrays as the region finds them. -/
theorem final1 (c : Dev nD) :
    (dat1 (F := Ideal) V c).arrAt 6 cfg1.N
      = gruArr (V c main_v23) (V c main_arg0) (V c main_v26) (V c main_v29) (V c main_v32) (V c main_v35) :=
  (dat1 (F := Ideal) V c).arrAt_eq_of_cover 6 _ (fun t _ => flushed1_eq V c t) (cover1)

end Value1

/-! # Region 3: the same cell on the second round's arrays -/

section Value3
variable (V : (c : Dev nD) → (b : Ref sig .tc) → Buf (Elt Ideal) ((c : Thread nD τ).loc b))

/-! The printed index maps, decided over the grid: the row windows (aggregated messages, states, output) sit at block
    (t, 0), the weight and bias windows at block (0, 0). -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)

/-- Row p of the aggregated-message block at point t is row t * 4000 + p of its array. -/
theorem iblk3_0_row (c : Dev nD) (t : Fin cfg3.N) (p : Fin 4000) (r : Fin 20000) (hr : r.val = t.val * 4000 + p.val) :
    (fun k : Fin 128 => iblk3 V c 0 t (ix2 p k)) = fun k : Fin 128 => V c main_v60 (ix2 r k) := by
  obtain ⟨e0, e1⟩ := idx3_0 t
  funext k
  show V c main_v60 (((cfg3.win 0).blk t).view.emb (ix2 p k)) = V c main_v60 (ix2 r k)
  refine congrArg (V c main_v60) (funext fun a => Fin.ext ?_)
  match a with
  | ⟨0, _⟩ => show win3_0.index t (0 : Fin 2) * 4000 + 1 * p.val = r.val; omega
  | ⟨1, _⟩ => show win3_0.index t (1 : Fin 2) * 128 + 1 * k.val = k.val; omega

/-- Row p of the state block at point t is row t * 4000 + p of its array. -/
theorem iblk3_1_row (c : Dev nD) (t : Fin cfg3.N) (p : Fin 4000) (r : Fin 20000) (hr : r.val = t.val * 4000 + p.val) :
    (fun k : Fin 64 => iblk3 V c 1 t (ix2 p k)) = fun k : Fin 64 => V c main_v36 (ix2 r k) := by
  obtain ⟨e0, e1⟩ := idx3_1 t
  funext k
  show V c main_v36 (((cfg3.win 1).blk t).view.emb (ix2 p k)) = V c main_v36 (ix2 r k)
  refine congrArg (V c main_v36) (funext fun a => Fin.ext ?_)
  match a with
  | ⟨0, _⟩ => show win3_1.index t (0 : Fin 2) * 4000 + 1 * p.val = r.val; omega
  | ⟨1, _⟩ => show win3_1.index t (1 : Fin 2) * 64 + 1 * k.val = k.val; omega

/-- The input weights' block is its whole array at every point. -/
theorem iblk3_2_eq (c : Dev nD) (t : Fin cfg3.N) :
    (fun (k : Fin 128) (q : Fin 192) => iblk3 V c 2 t (ix2 k q)) = fun (k : Fin 128) (q : Fin 192) => V c main_v63 (ix2 k q) := by
  obtain ⟨e0, e1⟩ := idx3_2 t
  funext k q
  show V c main_v63 (((cfg3.win 2).blk t).view.emb (ix2 k q)) = V c main_v63 (ix2 k q)
  refine congrArg (V c main_v63) (funext fun a => Fin.ext ?_)
  match a with
  | ⟨0, _⟩ => show win3_2.index t (0 : Fin 2) * 128 + 1 * k.val = k.val; omega
  | ⟨1, _⟩ => show win3_2.index t (1 : Fin 2) * 192 + 1 * q.val = q.val; omega

/-- The state weights' block is its whole array at every point. -/
theorem iblk3_3_eq (c : Dev nD) (t : Fin cfg3.N) :
    (fun (k : Fin 64) (q : Fin 192) => iblk3 V c 3 t (ix2 k q)) = fun (k : Fin 64) (q : Fin 192) => V c main_v66 (ix2 k q) := by
  obtain ⟨e0, e1⟩ := idx3_3 t
  funext k q
  show V c main_v66 (((cfg3.win 3).blk t).view.emb (ix2 k q)) = V c main_v66 (ix2 k q)
  refine congrArg (V c main_v66) (funext fun a => Fin.ext ?_)
  match a with
  | ⟨0, _⟩ => show win3_3.index t (0 : Fin 2) * 64 + 1 * k.val = k.val; omega
  | ⟨1, _⟩ => show win3_3.index t (1 : Fin 2) * 192 + 1 * q.val = q.val; omega

/-- The input bias's block is its one-row array at every point. -/
theorem iblk3_4_eq (c : Dev nD) (t : Fin cfg3.N) :
    (fun q : Fin 192 => iblk3 V c 4 t (ix2 0 q)) = fun q : Fin 192 => V c main_v69 (ix2 0 q) := by
  obtain ⟨e0, e1⟩ := idx3_4 t
  funext q
  show V c main_v69 (((cfg3.win 4).blk t).view.emb (ix2 0 q)) = V c main_v69 (ix2 0 q)
  refine congrArg (V c main_v69) (funext fun a => Fin.ext ?_)
  match a with
  | ⟨0, _⟩ => show win3_4.index t (0 : Fin 2) * 1 + 1 * 0 = 0; omega
  | ⟨1, _⟩ => show win3_4.index t (1 : Fin 2) * 192 + 1 * q.val = q.val; omega

/-- The state bias's block is its one-row array at every point. -/
theorem iblk3_5_eq (c : Dev nD) (t : Fin cfg3.N) :
    (fun q : Fin 192 => iblk3 V c 5 t (ix2 0 q)) = fun q : Fin 192 => V c main_v72 (ix2 0 q) := by
  obtain ⟨e0, e1⟩ := idx3_5 t
  funext q
  show V c main_v72 (((cfg3.win 5).blk t).view.emb (ix2 0 q)) = V c main_v72 (ix2 0 q)
  refine congrArg (V c main_v72) (funext fun a => Fin.ext ?_)
  match a with
  | ⟨0, _⟩ => show win3_5.index t (0 : Fin 2) * 1 + 1 * 0 = 0; omega
  | ⟨1, _⟩ => show win3_5.index t (1 : Fin 2) * 192 + 1 * q.val = q.val; omega

/-- What point t writes back is block t of the gated cell of the arrays as the region finds them. -/
theorem flushed3_eq (c : Dev nD) (t : Fin cfg3.N) :
    (dat3 (F := Ideal) V c).flushed 6 t
      = ((cfg3.win 6).blk t).view.read (Elt Ideal)
          (gruArr (V c main_v60) (V c main_v36) (V c main_v63) (V c main_v66) (V c main_v69) (V c main_v72)) := by
  show (cfg3.win 6).cut (grid3.coords t) ((dat3 V c).after 6 t) = _
  rw [after3_6]
  unfold out3_6
  rw [View.canon_unit_zero hz2g]
  simp only [View.ld_unit_zero (S := S4000x128) hz2g, View.ld_unit_zero (S := S4000x64) hz2g,
    View.ld_unit_zero (S := S128x192) hz2g, View.ld_unit_zero (S := S64x192) hz2g, View.ld_unit_zero (S := S1x192) hz2g]
  funext j
  obtain ⟨p, q, rfl⟩ : ∃ (p : Fin 4000) (q : Fin 64), j = ix2 p q := ⟨j 0, j 1, eq_ix2 j⟩
  obtain ⟨e60, e61⟩ := idx3_6 t
  have ht : t.val < 5 := lt_of_lt_of_eq t.isLt N_3
  have hemb : ((cfg3.win 6).blk t).view.emb (ix2 p q) = ix2 (⟨t.val * 4000 + p.val, by omega⟩ : Fin 20000) q := by
    funext a; apply Fin.ext
    match a with
    | ⟨0, _⟩ => show win3_6.index t (0 : Fin 2) * 4000 + 1 * p.val = t.val * 4000 + p.val; omega
    | ⟨1, _⟩ => show win3_6.index t (1 : Fin 2) * 64 + 1 * q.val = q.val; omega
  refine (Cert.Hand.Pay.pay_gru3 _ _ _ _ _ _ p q).trans ?_
  show _ = gruArr (V c main_v60) (V c main_v36) (V c main_v63) (V c main_v66) (V c main_v69) (V c main_v72)
    (((cfg3.win 6).blk t).view.emb (ix2 p q))
  rw [hemb, iblk3_0_row V c t p ⟨t.val * 4000 + p.val, by omega⟩ rfl,
    iblk3_1_row V c t p ⟨t.val * 4000 + p.val, by omega⟩ rfl,
    iblk3_2_eq V c t, iblk3_3_eq V c t, iblk3_4_eq V c t, iblk3_5_eq V c t]
  rfl

/-- An index of the output array is in point t's block iff each coordinate is in the block's range on its axis. -/
theorem mem_blk3 (t : Fin cfg3.N) (i : S20000x64.Idx) :
    i ∈ ((cfg3.win 6).blk t).view.set
      ↔ ∀ a : Fin 2, win3_6.index t a * S4000x64.size a ≤ (i a).val ∧ (i a).val < win3_6.index t a * S4000x64.size a + S4000x64.size a := by
  show i ∈ ((View.whole main_v73).slice (win3_6.rect t)).set ↔ _
  rw [View.set_slice_whole, Rect.mem_set_unit]
  exact Iff.rfl

/-- Every row r of the output array is in the block of point r / 4000. -/
theorem cover3 (i : S20000x64.Idx) :
    ∃ t : Fin cfg3.N, (cfg3.win 6).flush t = true ∧ i ∈ ((cfg3.win 6).blk t).view.set := by
  have hi0 : (i 0).val < 20000 := (i 0).isLt
  have hi1 : (i 1).val < 64 := (i 1).isLt
  have hN : (i 0).val / 4000 < cfg3.N := by
    have : (i 0).val / 4000 < 5 := by omega
    exact lt_of_lt_of_eq this N_3.symm
  refine ⟨⟨(i 0).val / 4000, hN⟩, flush3_6 _, ?_⟩
  obtain ⟨e60, e61⟩ := idx3_6 ⟨(i 0).val / 4000, hN⟩
  rw [mem_blk3]
  intro a
  match a with
  | ⟨0, _⟩ =>
    show win3_6.index ⟨(i 0).val / 4000, hN⟩ (0 : Fin 2) * 4000 ≤ (i 0).val
      ∧ (i 0).val < win3_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win3_6.index ⟨(i 0).val / 4000, hN⟩ (1 : Fin 2) * 64 ≤ (i 1).val
      ∧ (i 1).val < win3_6.index ⟨(i 0).val / 4000, hN⟩ (1 : Fin 2) * 64 + 64
    rw [e61]; omega

/-- The output array after the region: the gated cell of the arrays as the region finds them. -/
theorem final3 (c : Dev nD) :
    (dat3 (F := Ideal) V c).arrAt 6 cfg3.N
      = gruArr (V c main_v60) (V c main_v36) (V c main_v63) (V c main_v66) (V c main_v69) (V c main_v72) :=
  (dat3 (F := Ideal) V c).arrAt_eq_of_cover 6 _ (fun t _ => flushed3_eq V c t) (cover3)

end Value3

end Cert.KernelIdeal.Hand

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.RefArith.lean ====
/-
  The two stages of the reference whose arithmetic is not the kernel's word for word, read at one entry.

  * The message layer at edge i, entry q is the affine layer of the plain specification on row i of its input.
  * The gated recurrent cell at node n, entry q is the plain specification's cell on row n of the summed messages and
    row n of the old states.  The reference spells each gate as the float word of one over that word plus the
    exponential of minus the argument; the word is the number one, so the gate is the logistic function.  The three
    stretches of 64 columns the cell reads are unit-stride slices at column offsets 0, 64 and 128.
-/
import proofs.«180314_j10892037063246_1_alg».proof.Proof.RefStages
import proofs.«180314_j10892037063246_1_alg».proof.Proof.Spec
import proofs.«180314_j10892037063246_1_alg».proof.Proof.LibDense
import proofs.«180314_j10892037063246_1_alg».proof.Proof.LibColRow
import Idealize.ShloMosaic.Lib.IdealHost

noncomputable section

namespace Cert.Hand.Ref

open Cert.ReferenceIdeal Cert.ReferenceIdeal.Gen Idealize.ShloMosaic Idealize.ShloMosaic.ValueIdx

/-- A product of an [R, K] by a [K, C] matrix plus a length-C bias repeated along the rows, read at (i, c): the affine
    layer of row i, given the coordinate facts of the product's dimension record. -/
theorem lin_apply {R K C : ℕ} (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (h1 : (⟨1, ![C]⟩ : Shape).BroadcastsInDim ⟨2, ![1, C]⟩ ![1])
    (h2 : (⟨2, ![1, C]⟩ : Shape).BroadcastsInDim ⟨2, ![R, C]⟩ ![0, 1])
    (x : FVec Ideal ⟨2, ![R, K]⟩ .f32) (w : FVec Ideal ⟨2, ![K, C]⟩ .f32) (b : FVec Ideal ⟨1, ![C]⟩ .f32)
    (i : Fin R) (c : Fin C) :
    addf (Host.dotGeneral D none x w) (broadcastInDim ⟨2, ![R, C]⟩ ![0, 1] h2 (broadcastInDim ⟨2, ![1, C]⟩ ![1] h1 b)) (ix2 i c)
      = Cert.Spec.lin (fun k : Fin K => x (ix2 i k)) (fun (k : Fin K) (c : Fin C) => w (ix2 k c)) (fun c : Fin C => b (ix1 c)) c := by
  show Host.dotGeneral D none x w (ix2 i c)
      + broadcastInDim ⟨2, ![R, C]⟩ ![0, 1] h2 (broadcastInDim ⟨2, ![1, C]⟩ ![1] h1 b) (ix2 i c) = _
  rw [broadcastInDim_1b_ab_apply, broadcastInDim_b_1b_apply]
  exact congrArg (· + b (ix1 c)) (Cert.Dense.dotGeneral_eq D hr hs l0 l1 r0 r1 none .single x w (ix2 i c))

/-! ## The coordinate facts of the three dimension records: each contracts the left operand's second axis with the
    right operand's first -/

theorem dmsg_rank : dot_S640000x144_S144x128_S640000x128_1_0_0_1_n_n.contr.rank = 1 := rfl
theorem dmsg_size : dot_S640000x144_S144x128_S640000x128_1_0_0_1_n_n.contr.size ⟨0, by decide⟩ = 144 := rfl
theorem dmsg_l0 : ∀ i q, (dot_S640000x144_S144x128_S640000x128_1_0_0_1_n_n.lhsIdx i q 0).val = (i 0).val := fun _ _ => rfl
theorem dmsg_l1 : ∀ i q, (dot_S640000x144_S144x128_S640000x128_1_0_0_1_n_n.lhsIdx i q 1).val = (q ⟨0, by decide⟩).val := fun _ _ => rfl
theorem dmsg_r0 : ∀ i q, (dot_S640000x144_S144x128_S640000x128_1_0_0_1_n_n.rhsIdx i q 0).val = (q ⟨0, by decide⟩).val := fun _ _ => rfl
theorem dmsg_r1 : ∀ i q, (dot_S640000x144_S144x128_S640000x128_1_0_0_1_n_n.rhsIdx i q 1).val = (i 1).val := fun _ _ => rfl

theorem dgi_rank : dot_S20000x128_S128x192_S20000x192_1_0_0_1_n_n.contr.rank = 1 := rfl
theorem dgi_size : dot_S20000x128_S128x192_S20000x192_1_0_0_1_n_n.contr.size ⟨0, by decide⟩ = 128 := rfl
theorem dgi_l0 : ∀ i q, (dot_S20000x128_S128x192_S20000x192_1_0_0_1_n_n.lhsIdx i q 0).val = (i 0).val := fun _ _ => rfl
theorem dgi_l1 : ∀ i q, (dot_S20000x128_S128x192_S20000x192_1_0_0_1_n_n.lhsIdx i q 1).val = (q ⟨0, by decide⟩).val := fun _ _ => rfl
theorem dgi_r0 : ∀ i q, (dot_S20000x128_S128x192_S20000x192_1_0_0_1_n_n.rhsIdx i q 0).val = (q ⟨0, by decide⟩).val := fun _ _ => rfl
theorem dgi_r1 : ∀ i q, (dot_S20000x128_S128x192_S20000x192_1_0_0_1_n_n.rhsIdx i q 1).val = (i 1).val := fun _ _ => rfl

theorem dgh_rank : dot_S20000x64_S64x192_S20000x192_1_0_0_1_n_n.contr.rank = 1 := rfl
theorem dgh_size : dot_S20000x64_S64x192_S20000x192_1_0_0_1_n_n.contr.size ⟨0, by decide⟩ = 64 := rfl
theorem dgh_l0 : ∀ i q, (dot_S20000x64_S64x192_S20000x192_1_0_0_1_n_n.lhsIdx i q 0).val = (i 0).val := fun _ _ => rfl
theorem dgh_l1 : ∀ i q, (dot_S20000x64_S64x192_S20000x192_1_0_0_1_n_n.lhsIdx i q 1).val = (q ⟨0, by decide⟩).val := fun _ _ => rfl
theorem dgh_r0 : ∀ i q, (dot_S20000x64_S64x192_S20000x192_1_0_0_1_n_n.rhsIdx i q 0).val = (q ⟨0, by decide⟩).val := fun _ _ => rfl
theorem dgh_r1 : ∀ i q, (dot_S20000x64_S64x192_S20000x192_1_0_0_1_n_n.rhsIdx i q 1).val = (i 1).val := fun _ _ => rfl

/-! ## The message layer at an entry -/

/-- The message of edge i, entry q: the affine layer on row i of the layer's input. -/
theorem ref_msg (x : FVec Ideal S640000x144 .f32) (w : FVec Ideal S144x128 .f32) (b : FVec Ideal S128 .f32)
    (i : Fin 640000) (q : Fin 128) :
    refMsg x w b (ix2 i q) = Cert.Spec.lin (fun k : Fin 144 => x (ix2 i k)) (fun (k : Fin 144) (c : Fin 128) => w (ix2 k c))
      (fun c : Fin 128 => b (ix1 c)) q :=
  lin_apply dot_S640000x144_S144x128_S640000x128_1_0_0_1_n_n dmsg_rank dmsg_size dmsg_l0 dmsg_l1 dmsg_r0 dmsg_r1
    bcast_S128_S1x128_1 bcast_S1x128_S640000x128_0_1 x w b i q

/-! ## The gated recurrent cell at an entry -/

/-- The affine image of the summed messages at node n, column c. -/
theorem ref_gi (a : FVec Ideal S20000x128 .f32) (wiT : FVec Ideal S128x192 .f32) (bi : FVec Ideal S192 .f32)
    (n : Fin 20000) (c : Fin 192) :
    refGi a wiT bi (ix2 n c) = Cert.Spec.lin (fun k : Fin 128 => a (ix2 n k)) (fun (k : Fin 128) (c : Fin 192) => wiT (ix2 k c))
      (fun c : Fin 192 => bi (ix1 c)) c :=
  lin_apply dot_S20000x128_S128x192_S20000x192_1_0_0_1_n_n dgi_rank dgi_size dgi_l0 dgi_l1 dgi_r0 dgi_r1
    bcast_S192_S1x192_1 bcast_S1x192_S20000x192_0_1 a wiT bi n c

/-- The affine image of the old state at node n, column c. -/
theorem ref_gh (h : FVec Ideal S20000x64 .f32) (whT : FVec Ideal S64x192 .f32) (bh : FVec Ideal S192 .f32)
    (n : Fin 20000) (c : Fin 192) :
    refGh h whT bh (ix2 n c) = Cert.Spec.lin (fun k : Fin 64 => h (ix2 n k)) (fun (k : Fin 64) (c : Fin 192) => whT (ix2 k c))
      (fun c : Fin 192 => bh (ix1 c)) c :=
  lin_apply dot_S20000x64_S64x192_S20000x192_1_0_0_1_n_n dgh_rank dgh_size dgh_l0 dgh_l1 dgh_r0 dgh_r1
    bcast_S192_S1x192_1 bcast_S1x192_S20000x192_0_1 h whT bh n c

/-- The array of ones reads the float word of one at every entry. -/
theorem ref_one (j : S20000x64.Idx) : refOne j = Cert.Spec.one := rfl

/-- A gate at an entry is the logistic function of the sum of its arguments there: the float word of one is the
    number one. -/
theorem ref_gate (u v : FVec Ideal S20000x64 .f32) (j : S20000x64.Idx) : refGate u v j = Ideal.logistic (u j + v j) := by
  show Ideal.div (Ideal.ofBits .f32 0x3F800000#32) (Ideal.ofBits .f32 0x3F800000#32 + Ideal.exp (-(u j + v j))) = _
  rw [Ideal.ofBits_one_f32]
  rfl

/-- The three stretches of 64 columns of a [20000, 192] array, read at node n, entry q. -/
theorem slice_lo (g : FVec Ideal S20000x192 .f32) (n : Fin 20000) (q : Fin 64) :
    extractStridedSlice S20000x64 ![0, 0] g slices_S20000x192_S20000x64_0_0 (ix2 n q) = g (ix2 n (Cert.Spec.lo q)) :=
  extractStridedSlice_apply _ g _ _ _ fun a => match a with
    | ⟨0, _⟩ => (Nat.zero_add _).symm
    | ⟨1, _⟩ => (Nat.zero_add _).symm
theorem slice_mid (g : FVec Ideal S20000x192 .f32) (n : Fin 20000) (q : Fin 64) :
    extractStridedSlice S20000x64 ![0, 64] g slices_S20000x192_S20000x64_0_64 (ix2 n q) = g (ix2 n (Cert.Spec.mid q)) :=
  extractStridedSlice_apply _ g _ _ _ fun a => match a with
    | ⟨0, _⟩ => (Nat.zero_add _).symm
    | ⟨1, _⟩ => rfl
theorem slice_hi (g : FVec Ideal S20000x192 .f32) (n : Fin 20000) (q : Fin 64) :
    extractStridedSlice S20000x64 ![0, 128] g slices_S20000x192_S20000x64_0_128 (ix2 n q) = g (ix2 n (Cert.Spec.hi q)) :=
  extractStridedSlice_apply _ g _ _ _ fun a => match a with
    | ⟨0, _⟩ => (Nat.zero_add _).symm
    | ⟨1, _⟩ => rfl

/-- The cell on two affine images and the old state, at node n, entry q. -/
theorem ref_cell (gi gh : FVec Ideal S20000x192 .f32) (h : FVec Ideal S20000x64 .f32) (n : Fin 20000) (q : Fin 64) :
    refCell gi gh h (ix2 n q)
      = (Cert.Spec.one - Ideal.logistic (gi (ix2 n (Cert.Spec.mid q)) + gh (ix2 n (Cert.Spec.mid q))))
          * Ideal.tanh (gi (ix2 n (Cert.Spec.hi q))
              + Ideal.logistic (gi (ix2 n (Cert.Spec.lo q)) + gh (ix2 n (Cert.Spec.lo q))) * gh (ix2 n (Cert.Spec.hi q)))
        + Ideal.logistic (gi (ix2 n (Cert.Spec.mid q)) + gh (ix2 n (Cert.Spec.mid q))) * h (ix2 n q) := by
  show (refOne (ix2 n q) - refGate _ _ (ix2 n q)) * Ideal.tanh (extractStridedSlice S20000x64 ![0, 128] gi slices_S20000x192_S20000x64_0_128 (ix2 n q) + refGate _ _ (ix2 n q) * extractStridedSlice S20000x64 ![0, 128] gh slices_S20000x192_S20000x64_0_128 (ix2 n q)) + refGate _ _ (ix2 n q) * h (ix2 n q) = _
  simp only [ref_one, ref_gate, slice_lo, slice_mid, slice_hi]

/-- The new state of node n, entry q: the plain specification's cell on row n of the summed messages and row n of the
    old states. -/
theorem ref_gru (a : FVec Ideal S20000x128 .f32) (h : FVec Ideal S20000x64 .f32) (wiT : FVec Ideal S128x192 .f32)
    (whT : FVec Ideal S64x192 .f32) (bi bh : FVec Ideal S192 .f32) (n : Fin 20000) (q : Fin 64) :
    refGru a h wiT whT bi bh (ix2 n q) = Cert.Spec.gru (fun k : Fin 128 => a (ix2 n k)) (fun k : Fin 64 => h (ix2 n k))
      (fun (k : Fin 128) (c : Fin 192) => wiT (ix2 k c)) (fun (k : Fin 64) (c : Fin 192) => whT (ix2 k c))
      (fun c : Fin 192 => bi (ix1 c)) (fun c : Fin 192 => bh (ix1 c)) q := by
  unfold refGru
  rw [ref_cell]
  simp only [ref_gi, ref_gh]
  rfl

end Cert.Hand.Ref

end
-- ==== Proof.IdealValue.lean ====
/-
  The idealized kernel program computes the reference's function. At the ideal instance the message region's output
  array is, entry by entry, the row of the layer input times the weight matrix plus the bias (`msgArr`), which is the
  reference's product-plus-broadcast-bias stage; the cell region's output array is the gated recurrent cell entry by entry
  (`gruArr`), which is the reference's chain of host operations; the kernel passes a bias as a one-row matrix where the
  reference broadcasts a vector, and row 0 of that matrix is the vector. Between the regions both programs apply the same
  host operations. So the result buffer ends holding the reference's two rounds of the launch contents.
-/
import proofs.«180314_j10892037063246_1_alg».proof.Proof.IdealHost
import proofs.«180314_j10892037063246_1_alg».proof.Proof.IdealMsgValue
import proofs.«180314_j10892037063246_1_alg».proof.Proof.IdealGruValue
import proofs.«180314_j10892037063246_1_alg».proof.Proof.RefArith
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Hand.Ref (refMsgIn refMsg refAgg refGru refRound0 refRound1 refNet wmsg0 wmsg1 bmsg0 bmsg1 wihT0 wihT1 whhT0 whhT1 bih0 bih1 bhh0 bhh1 ref_msg ref_gru)

/-! ## The two stages that differ, as whole arrays -/

/-- The message layer with its bias given as a one-row matrix is the reference's stage on the bias vector. -/
theorem msgArr_eq (x : FVec Ideal S640000x144 .f32) (w : FVec Ideal S144x128 .f32) (b : FVec Ideal S128 .f32) :
    msgArr x w (shapeCast S1x128 b shapeCasts_S128_S1x128) = refMsg x w b := by
  funext i
  obtain ⟨p, q, rfl⟩ : ∃ (p : Fin 640000) (q : Fin 128), i = ix2 p q := ⟨i 0, i 1, eq_ix2 i⟩
  refine Eq.trans ?_ (ref_msg x w b p q).symm
  show Cert.Spec.lin (fun k : Fin 144 => x (ix2 p k)) (fun (k : Fin 144) (c : Fin 128) => w (ix2 k c))
      (fun c : Fin 128 => shapeCast S1x128 b shapeCasts_S128_S1x128 (ix2 0 c)) q = _
  exact congrArg (fun f => Cert.Spec.lin (fun k : Fin 144 => x (ix2 p k)) (fun (k : Fin 144) (c : Fin 128) => w (ix2 k c)) f q)
    (funext fun c => shapeCast_a_1a_apply b shapeCasts_S128_S1x128 0 c)

/-- The cell with its two biases given as one-row matrices is the reference's cell on the bias vectors. -/
theorem gruArr_eq (a : FVec Ideal S20000x128 .f32) (h : FVec Ideal S20000x64 .f32) (wi : FVec Ideal S128x192 .f32)
    (wh : FVec Ideal S64x192 .f32) (bi bh : FVec Ideal S192 .f32) :
    gruArr a h wi wh (shapeCast S1x192 bi shapeCasts_S192_S1x192) (shapeCast S1x192 bh shapeCasts_S192_S1x192) = refGru a h wi wh bi bh := by
  funext i
  obtain ⟨n, q, rfl⟩ : ∃ (n : Fin 20000) (q : Fin 64), i = ix2 n q := ⟨i 0, i 1, eq_ix2 i⟩
  refine Eq.trans ?_ (ref_gru a h wi wh bi bh n q).symm
  have e1 : (fun c : Fin 192 => shapeCast S1x192 bi shapeCasts_S192_S1x192 (ix2 0 c)) = fun c : Fin 192 => bi (ix1 c) :=
    funext fun c => shapeCast_a_1a_apply bi shapeCasts_S192_S1x192 0 c
  have e2 : (fun c : Fin 192 => shapeCast S1x192 bh shapeCasts_S192_S1x192 (ix2 0 c)) = fun c : Fin 192 => bh (ix1 c) :=
    funext fun c => shapeCast_a_1a_apply bh shapeCasts_S192_S1x192 0 c
  show Cert.Spec.gru (fun k : Fin 128 => a (ix2 n k)) (fun k : Fin 64 => h (ix2 n k)) (fun (k : Fin 128) (c : Fin 192) => wi (ix2 k c))
      (fun (k : Fin 64) (c : Fin 192) => wh (ix2 k c)) (fun c : Fin 192 => shapeCast S1x192 bi shapeCasts_S192_S1x192 (ix2 0 c))
      (fun c : Fin 192 => shapeCast S1x192 bh shapeCasts_S192_S1x192 (ix2 0 c)) q = _
  rw [e1, e2]

/-! ## The result, boundary by boundary -/

variable (m : (ℓ : Loc nD τ sig) → Buf (Elt Ideal) ℓ) (ρ : Dev nD → PrngReg)

/-- After the first region: round 0's messages. -/
theorem W2_v20 (c : Dev nD) : W2 m ρ c (Proc.devRef .tc main_v20)
    = refMsg (refMsgIn (m ((c : Thread nD τ).loc main_arg0)) (m ((c : Thread nD τ).loc main_arg1)) (m ((c : Thread nD τ).loc main_arg2)) (m ((c : Thread nD τ).loc main_arg3))) (wmsg0 (m ((c : Thread nD τ).loc main_arg4))) (bmsg0 (m ((c : Thread nD τ).loc main_arg5))) := by
  refine ((W2_arr m ρ c 3).trans (final0 (U1 m ρ) c)).trans ?_
  rw [U1_v14 m ρ c, U1_v16 m ρ c, U1_v19 m ρ c]
  exact msgArr_eq _ _ _

/-- After the second region: the node states after round 0. -/
theorem W4_v36 (c : Dev nD) : W4 m ρ c (Proc.devRef .tc main_v36) = refRound0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 6).trans (final1 (U3 m ρ) c)).trans ?_
  rw [U3_v23 m ρ c, U3_v26 m ρ c, U3_v29 m ρ c, U3_v32 m ρ c, U3_v35 m ρ c, W2_v20 m ρ c,
    W2_main_arg3 m ρ c, W2_main_arg6 m ρ c, W2_main_arg7 m ρ c, W2_main_arg8 m ρ c, W2_main_arg9 m ρ c]
  rw [show U3 m ρ c main_arg0 = (m ((c : Thread nD τ).loc main_arg0)) from W3_main_arg0 m ρ c]
  exact gruArr_eq _ _ _ _ _ _

/-- After the third region: round 1's messages. -/
theorem W6_v57 (c : Dev nD) : W6 m ρ c (Proc.devRef .tc main_v57)
    = refMsg (refMsgIn (refRound0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) (m ((c : Thread nD τ).loc main_arg3))) (wmsg1 (m ((c : Thread nD τ).loc main_arg4))) (bmsg1 (m ((c : Thread nD τ).loc main_arg5))) := by
  refine ((W6_arr m ρ c 3).trans (final2 (U5 m ρ) c)).trans ?_
  rw [U5_v51 m ρ c, U5_v53 m ρ c, U5_v56 m ρ c, W4_v36 m ρ c,
    W4_main_arg1 m ρ c, W4_main_arg2 m ρ c, W4_main_arg3 m ρ c, W4_main_arg4 m ρ c, W4_main_arg5 m ρ c]
  exact msgArr_eq _ _ _

/-- After the fourth region: the result. -/
theorem W8_v73 (c : Dev nD) : W8 m ρ c (Proc.devRef .tc main_v73) = refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W8_arr m ρ c 6).trans (final3 (U7 m ρ) c)).trans ?_
  rw [U7_v60 m ρ c, U7_v36 m ρ c, U7_v63 m ρ c, U7_v66 m ρ c, U7_v69 m ρ c, U7_v72 m ρ c, W6_v57 m ρ c, W4_v36 m ρ c,
    W6_main_arg3 m ρ c, W6_main_arg6 m ρ c, W6_main_arg7 m ρ c, W6_main_arg8 m ρ c, W6_main_arg9 m ρ c]
  exact gruArr_eq _ _ _ _ _ _

/-- The idealized kernel's run: it terminates, nothing faulting, with the result buffer at the reference's two rounds of
    the launch contents and every argument array as launched. -/
theorem value_run : θ_run defs (onTc (τ := τ) (main (F := Ideal))) ⟨m, fun _ => 0, ρ⟩ (fun r => ∀ c : Dev nD,
      r.2.mem ((c.tc : Thread nD τ).loc main_v73) = refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v73 (by decide))).trans (W8_v73 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.KernelIdeal.Hand

end
-- ==== Proof.RefRunTwo.lean ====
/-
  The reference program's run, read in two stretches.

  The reference's entry function is one line of host operations.  Cut it after round 0: the first stretch ends with the
  operation that writes the node states after round 0, the second with the operation that writes the result.
  * The contents after a concatenation of two lines are the second line's contents over the first line's.
  * Each stretch, read against an arbitrary valuation of the buffers, ends with one round of the stage functions: the
    first on what the valuation holds at the ten arguments, the second on what it holds at the node states the first
    stretch writes and at the other nine arguments.
  * No operation writes an argument, so every argument reads back what it held through both stretches.
  Together: every weakly fair execution ends with the result at round 1 after round 0 of the stage functions on the
  arguments' launch contents, the arguments unchanged.
-/
import proofs.«180314_j10892037063246_1_alg».proof.Proof.Gen.ReferenceIdeal
import proofs.«180314_j10892037063246_1_alg».proof.Proof.RefStages
import Idealize.ShloMosaic.Lib.StableHlo.Run

noncomputable section

namespace Cert.Hand.Ref.Two

open Cert.ReferenceIdeal Cert.ReferenceIdeal.Gen Idealize.ShloMosaic Idealize.ShloMosaic.TcCoe Idealize.SL.Sem Idealize.ShloMosaic.StableHlo

variable {F : FTy → Type} [FloatOps F]

/-- The operations of round 0, in order: the last one writes the node states after round 0. -/
abbrev opsA : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg3 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 20000#32),
    unary main_c_0 main_v2 (broadcastInDim S640000 ![] bcast_S_S640000 : (⟨S_, .i32⟩ : BufTy).Contents (Elt F) → (⟨S640000, .i32⟩ : BufTy).Contents (Elt F)),
    binary main_arg3 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg3 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg0 main_v5 main_v6 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nullary main_c_1 (constantI S_ 32 0#32),
    unary main_c_1 main_v7 (broadcastInDim S640000 ![] bcast_S_S640000 : (⟨S_, .i32⟩ : BufTy).Contents (Elt F) → (⟨S640000, .i32⟩ : BufTy).Contents (Elt F)),
    binary main_arg2 main_v7 main_v8 (cmpi .slt : (⟨S640000, .i32⟩ : BufTy).Contents (Elt F) → (⟨S640000, .i32⟩ : BufTy).Contents (Elt F) → (⟨S640000, .i1⟩ : BufTy).Contents (Elt F)),
    nullary main_c_2 (constantI S_ 32 20000#32),
    unary main_c_2 main_v9 (broadcastInDim S640000 ![] bcast_S_S640000 : (⟨S_, .i32⟩ : BufTy).Contents (Elt F) → (⟨S640000, .i32⟩ : BufTy).Contents (Elt F)),
    binary main_arg2 main_v9 main_v10 (addi : (⟨S640000, .i32⟩ : BufTy).Contents (Elt F) → (⟨S640000, .i32⟩ : BufTy).Contents (Elt F) → (⟨S640000, .i32⟩ : BufTy).Contents (Elt F)),
    ternary main_v8 main_v10 main_arg2 main_v11 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v11 main_v12 (broadcastInDim S640000x1 ![0] bcast_S640000_S640000x1_0 : (⟨S640000, .i32⟩ : BufTy).Contents (Elt F) → (⟨S640000x1, .i32⟩ : BufTy).Contents (Elt F)),
    binary main_arg0 main_v12 main_v13 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nary ![main_v6, main_v13, main_arg1] main_v14 (fun u => concatenate S640000x144 1 [⟨S640000x64, u 0⟩, ⟨S640000x64, u 1⟩, ⟨S640000x16, u 2⟩] concatenates_S640000x64_S640000x64_S640000x16_S640000x144_d1),
    unary main_arg4 main_v15 ((extractStridedSlice S1x144x128 ![0, 0, 0] · slices_S2x144x128_S1x144x128_0_0_0) : (⟨S2x144x128, .f32⟩ : BufTy).Contents (Elt F) → (⟨S1x144x128, .f32⟩ : BufTy).Contents (Elt F)),
    reshape main_v15 main_v16 rfl shapeCasts_S1x144x128_S144x128,
    binary main_v14 main_v16 main_v17 ((fun l r => Host.dotGeneral dot_S640000x144_S144x128_S640000x128_1_0_0_1_n_n none l r) : (⟨S640000x144, .f32⟩ : BufTy).Contents (Elt F) → (⟨S144x128, .f32⟩ : BufTy).Contents (Elt F) → (⟨S640000x128, .f32⟩ : BufTy).Contents (Elt F)),
    unary main_arg5 main_v18 ((extractStridedSlice S1x128 ![0, 0] · slices_S2x128_S1x128_0_0) : (⟨S2x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S640000x128 ![0, 1] bcast_S1x128_S640000x128_0_1 : (⟨S1x128, .f32⟩ : BufTy).Contents (Elt F) → (⟨S640000x128, .f32⟩ : BufTy).Contents (Elt F)),
    binary main_v17 main_v21 main_v22 (addf : (⟨S640000x128, .f32⟩ : BufTy).Contents (Elt F) → (⟨S640000x128, .f32⟩ : BufTy).Contents (Elt F) → (⟨S640000x128, .f32⟩ : BufTy).Contents (Elt F)),
    nullary main_cst (constant S_ .f32 0x00000000#32),
    unary main_cst main_v23 (broadcastInDim S20000x128 ![] bcast_S_S20000x128 : (⟨S_, .f32⟩ : BufTy).Contents (Elt F) → (⟨S20000x128, .f32⟩ : BufTy).Contents (Elt F)),
    unary main_arg3 main_v24 (broadcastInDim S640000x1 ![0] bcast_S640000_S640000x1_0 : (⟨S640000, .i32⟩ : BufTy).Contents (Elt F) → (⟨S640000x1, .i32⟩ : BufTy).Contents (Elt F)),
    ternary main_v23 main_v24 main_v22 main_v25 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    unary main_arg6 main_v26 ((extractStridedSlice S1x192x128 ![0, 0, 0] · slices_S2x192x128_S1x192x128_0_0_0) : (⟨S2x192x128, .f32⟩ : BufTy).Contents (Elt F) → (⟨S1x192x128, .f32⟩ : BufTy).Contents (Elt F)),
    reshape main_v26 main_v27 rfl shapeCasts_S1x192x128_S192x128,
    unary main_arg7 main_v28 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v28 main_v29 rfl shapeCasts_S1x192x64_S192x64,
    unary main_arg8 main_v30 ((extractStridedSlice S1x192 ![0, 0] · slices_S2x192_S1x192_0_0) : (⟨S2x192, .f32⟩ : BufTy).Contents (Elt F) → (⟨S1x192, .f32⟩ : BufTy).Contents (Elt F)),
    reshape main_v30 main_v31 rfl shapeCasts_S1x192_S192,
    unary main_arg9 main_v32 ((extractStridedSlice S1x192 ![0, 0] · slices_S2x192_S1x192_0_0) : (⟨S2x192, .f32⟩ : BufTy).Contents (Elt F) → (⟨S1x192, .f32⟩ : BufTy).Contents (Elt F)),
    reshape main_v32 main_v33 rfl shapeCasts_S1x192_S192,
    unary main_v27 main_v34 ((transpose S128x192 [1, 0] · transposes_S192x128_S128x192_1_0) : (⟨S192x128, .f32⟩ : BufTy).Contents (Elt F) → (⟨S128x192, .f32⟩ : BufTy).Contents (Elt F)),
    binary main_v25 main_v34 main_v35 ((fun l r => Host.dotGeneral dot_S20000x128_S128x192_S20000x192_1_0_0_1_n_n none l r) : (⟨S20000x128, .f32⟩ : BufTy).Contents (Elt F) → (⟨S128x192, .f32⟩ : BufTy).Contents (Elt F) → (⟨S20000x192, .f32⟩ : BufTy).Contents (Elt F)),
    unary main_v31 main_v36 (broadcastInDim S1x192 ![1] bcast_S192_S1x192_1 : (⟨S192, .f32⟩ : BufTy).Contents (Elt F) → (⟨S1x192, .f32⟩ : BufTy).Contents (Elt F)),
    unary main_v36 main_v37 (broadcastInDim S20000x192 ![0, 1] bcast_S1x192_S20000x192_0_1 : (⟨S1x192, .f32⟩ : BufTy).Contents (Elt F) → (⟨S20000x192, .f32⟩ : BufTy).Contents (Elt F)),
    binary main_v35 main_v37 main_v38 (addf : (⟨S20000x192, .f32⟩ : BufTy).Contents (Elt F) → (⟨S20000x192, .f32⟩ : BufTy).Contents (Elt F) → (⟨S20000x192, .f32⟩ : BufTy).Contents (Elt F)),
    unary main_v29 main_v39 ((transpose S64x192 [1, 0] · transposes_S192x64_S64x192_1_0) : (⟨S192x64, .f32⟩ : BufTy).Contents (Elt F) → (⟨S64x192, .f32⟩ : BufTy).Contents (Elt F)),
    binary main_arg0 main_v39 main_v40 ((fun l r => Host.dotGeneral dot_S20000x64_S64x192_S20000x192_1_0_0_1_n_n none l r) : (⟨S20000x64, .f32⟩ : BufTy).Contents (Elt F) → (⟨S64x192, .f32⟩ : BufTy).Contents (Elt F) → (⟨S20000x192, .f32⟩ : BufTy).Contents (Elt F)),
    unary main_v33 main_v41 (broadcastInDim S1x192 ![1] bcast_S192_S1x192_1 : (⟨S192, .f32⟩ : BufTy).Contents (Elt F) → (⟨S1x192, .f32⟩ : BufTy).Contents (Elt F)),
    unary main_v41 main_v42 (broadcastInDim S20000x192 ![0, 1] bcast_S1x192_S20000x192_0_1 : (⟨S1x192, .f32⟩ : BufTy).Contents (Elt F) → (⟨S20000x192, .f32⟩ : BufTy).Contents (Elt F)),
    binary main_v40 main_v42 main_v43 (addf : (⟨S20000x192, .f32⟩ : BufTy).Contents (Elt F) → (⟨S20000x192, .f32⟩ : BufTy).Contents (Elt F) → (⟨S20000x192, .f32⟩ : BufTy).Contents (Elt F)),
    unary main_v38 main_v44 ((extractStridedSlice S20000x64 ![0, 0] · slices_S20000x192_S20000x64_0_0) : (⟨S20000x192, .f32⟩ : BufTy).Contents (Elt F) → (⟨S20000x64, .f32⟩ : BufTy).Contents (Elt F)),
    unary main_v38 main_v45 ((extractStridedSlice S20000x64 ![0, 64] · slices_S20000x192_S20000x64_0_64) : (⟨S20000x192, .f32⟩ : BufTy).Contents (Elt F) → (⟨S20000x64, .f32⟩ : BufTy).Contents (Elt F)),
    unary main_v38 main_v46 ((extractStridedSlice S20000x64 ![0, 128] · slices_S20000x192_S20000x64_0_128) : (⟨S20000x192, .f32⟩ : BufTy).Contents (Elt F) → (⟨S20000x64, .f32⟩ : BufTy).Contents (Elt F)),
    unary main_v43 main_v47 ((extractStridedSlice S20000x64 ![0, 0] · slices_S20000x192_S20000x64_0_0) : (⟨S20000x192, .f32⟩ : BufTy).Contents (Elt F) → (⟨S20000x64, .f32⟩ : BufTy).Contents (Elt F)),
    unary main_v43 main_v48 ((extractStridedSlice S20000x64 ![0, 64] · slices_S20000x192_S20000x64_0_64) : (⟨S20000x192, .f32⟩ : BufTy).Contents (Elt F) → (⟨S20000x64, .f32⟩ : BufTy).Contents (Elt F)),
    unary main_v43 main_v49 ((extractStridedSlice S20000x64 ![0, 128] · slices_S20000x192_S20000x64_0_128) : (⟨S20000x192, .f32⟩ : BufTy).Contents (Elt F) → (⟨S20000x64, .f32⟩ : BufTy).Contents (Elt F)),
    binary main_v44 main_v47 main_v50 (addf : (⟨S20000x64, .f32⟩ : BufTy).Contents (Elt F) → (⟨S20000x64, .f32⟩ : BufTy).Contents (Elt F) → (⟨S20000x64, .f32⟩ : BufTy).Contents (Elt F)),
    unary main_v50 main_v51 (Host.negf : (⟨S20000x64, .f32⟩ : BufTy).Contents (Elt F) → (⟨S20000x64, .f32⟩ : BufTy).Contents (Elt F)),
    unary main_v51 main_v52 (Host.exp : (⟨S20000x64, .f32⟩ : BufTy).Contents (Elt F) → (⟨S20000x64, .f32⟩ : BufTy).Contents (Elt F)),
    nullary main_cst_3 (constant S_ .f32 0x3F800000#32),
    unary main_cst_3 main_v53 (broadcastInDim S20000x64 ![] bcast_S_S20000x64 : (⟨S_, .f32⟩ : BufTy).Contents (Elt F) → (⟨S20000x64, .f32⟩ : BufTy).Contents (Elt F)),
    binary main_v53 main_v52 main_v54 (addf : (⟨S20000x64, .f32⟩ : BufTy).Contents (Elt F) → (⟨S20000x64, .f32⟩ : BufTy).Contents (Elt F) → (⟨S20000x64, .f32⟩ : BufTy).Contents (Elt F)),
    nullary main_cst_4 (constant S_ .f32 0x3F800000#32),
    unary main_cst_4 main_v55 (broadcastInDim S20000x64 ![] bcast_S_S20000x64 : (⟨S_, .f32⟩ : BufTy).Contents (Elt F) → (⟨S20000x64, .f32⟩ : BufTy).Contents (Elt F)),
    binary main_v55 main_v54 main_v56 (Host.divf : (⟨S20000x64, .f32⟩ : BufTy).Contents (Elt F) → (⟨S20000x64, .f32⟩ : BufTy).Contents (Elt F) → (⟨S20000x64, .f32⟩ : BufTy).Contents (Elt F)),
    binary main_v45 main_v48 main_v57 (addf : (⟨S20000x64, .f32⟩ : BufTy).Contents (Elt F) → (⟨S20000x64, .f32⟩ : BufTy).Contents (Elt F) → (⟨S20000x64, .f32⟩ : BufTy).Contents (Elt F)),
    unary main_v57 main_v58 (Host.negf : (⟨S20000x64, .f32⟩ : BufTy).Contents (Elt F) → (⟨S20000x64, .f32⟩ : BufTy).Contents (Elt F)),
    unary main_v58 main_v59 (Host.exp : (⟨S20000x64, .f32⟩ : BufTy).Contents (Elt F) → (⟨S20000x64, .f32⟩ : BufTy).Contents (Elt F)),
    nullary main_cst_5 (constant S_ .f32 0x3F800000#32),
    unary main_cst_5 main_v60 (broadcastInDim S20000x64 ![] bcast_S_S20000x64 : (⟨S_, .f32⟩ : BufTy).Contents (Elt F) → (⟨S20000x64, .f32⟩ : BufTy).Contents (Elt F)),
    binary main_v60 main_v59 main_v61 (addf : (⟨S20000x64, .f32⟩ : BufTy).Contents (Elt F) → (⟨S20000x64, .f32⟩ : BufTy).Contents (Elt F) → (⟨S20000x64, .f32⟩ : BufTy).Contents (Elt F)),
    nullary main_cst_6 (constant S_ .f32 0x3F800000#32),
    unary main_cst_6 main_v62 (broadcastInDim S20000x64 ![] bcast_S_S20000x64 : (⟨S_, .f32⟩ : BufTy).Contents (Elt F) → (⟨S20000x64, .f32⟩ : BufTy).Contents (Elt F)),
    binary main_v62 main_v61 main_v63 (Host.divf : (⟨S20000x64, .f32⟩ : BufTy).Contents (Elt F) → (⟨S20000x64, .f32⟩ : BufTy).Contents (Elt F) → (⟨S20000x64, .f32⟩ : BufTy).Contents (Elt F)),
    binary main_v56 main_v49 main_v64 (mulf : (⟨S20000x64, .f32⟩ : BufTy).Contents (Elt F) → (⟨S20000x64, .f32⟩ : BufTy).Contents (Elt F) → (⟨S20000x64, .f32⟩ : BufTy).Contents (Elt F)),
    binary main_v46 main_v64 main_v65 (addf : (⟨S20000x64, .f32⟩ : BufTy).Contents (Elt F) → (⟨S20000x64, .f32⟩ : BufTy).Contents (Elt F) → (⟨S20000x64, .f32⟩ : BufTy).Contents (Elt F)),
    unary main_v65 main_v66 (Host.tanh : (⟨S20000x64, .f32⟩ : BufTy).Contents (Elt F) → (⟨S20000x64, .f32⟩ : BufTy).Contents (Elt F)),
    nullary main_cst_7 (constant S_ .f32 0x3F800000#32),
    unary main_cst_7 main_v67 (broadcastInDim S20000x64 ![] bcast_S_S20000x64 : (⟨S_, .f32⟩ : BufTy).Contents (Elt F) → (⟨S20000x64, .f32⟩ : BufTy).Contents (Elt F)),
    binary main_v67 main_v63 main_v68 (subf : (⟨S20000x64, .f32⟩ : BufTy).Contents (Elt F) → (⟨S20000x64, .f32⟩ : BufTy).Contents (Elt F) → (⟨S20000x64, .f32⟩ : BufTy).Contents (Elt F)),
    binary main_v68 main_v66 main_v69 (mulf : (⟨S20000x64, .f32⟩ : BufTy).Contents (Elt F) → (⟨S20000x64, .f32⟩ : BufTy).Contents (Elt F) → (⟨S20000x64, .f32⟩ : BufTy).Contents (Elt F)),
    binary main_v63 main_arg0 main_v70 (mulf : (⟨S20000x64, .f32⟩ : BufTy).Contents (Elt F) → (⟨S20000x64, .f32⟩ : BufTy).Contents (Elt F) → (⟨S20000x64, .f32⟩ : BufTy).Contents (Elt F)),
    binary main_v69 main_v70 main_v71 (addf : (⟨S20000x64, .f32⟩ : BufTy).Contents (Elt F) → (⟨S20000x64, .f32⟩ : BufTy).Contents (Elt F) → (⟨S20000x64, .f32⟩ : BufTy).Contents (Elt F)) ]

/-- The operations of round 1, in order: the last one writes the program's result. -/
abbrev opsB : List (HloOp τ sig (Elt F)) :=
  [ nullary main_c_8 (constantI S_ 32 0#32),
    unary main_c_8 main_v72 (broadcastInDim S640000 ![] bcast_S_S640000 : (⟨S_, .i32⟩ : BufTy).Contents (Elt F) → (⟨S640000, .i32⟩ : BufTy).Contents (Elt F)),
    binary main_arg3 main_v72 main_v73 (cmpi .slt : (⟨S640000, .i32⟩ : BufTy).Contents (Elt F) → (⟨S640000, .i32⟩ : BufTy).Contents (Elt F) → (⟨S640000, .i1⟩ : BufTy).Contents (Elt F)),
    nullary main_c_9 (constantI S_ 32 20000#32),
    unary main_c_9 main_v74 (broadcastInDim S640000 ![] bcast_S_S640000 : (⟨S_, .i32⟩ : BufTy).Contents (Elt F) → (⟨S640000, .i32⟩ : BufTy).Contents (Elt F)),
    binary main_arg3 main_v74 main_v75 (addi : (⟨S640000, .i32⟩ : BufTy).Contents (Elt F) → (⟨S640000, .i32⟩ : BufTy).Contents (Elt F) → (⟨S640000, .i32⟩ : BufTy).Contents (Elt F)),
    ternary main_v73 main_v75 main_arg3 main_v76 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v76 main_v77 (broadcastInDim S640000x1 ![0] bcast_S640000_S640000x1_0 : (⟨S640000, .i32⟩ : BufTy).Contents (Elt F) → (⟨S640000x1, .i32⟩ : BufTy).Contents (Elt F)),
    binary main_v71 main_v77 main_v78 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nullary main_c_10 (constantI S_ 32 0#32),
    unary main_c_10 main_v79 (broadcastInDim S640000 ![] bcast_S_S640000 : (⟨S_, .i32⟩ : BufTy).Contents (Elt F) → (⟨S640000, .i32⟩ : BufTy).Contents (Elt F)),
    binary main_arg2 main_v79 main_v80 (cmpi .slt : (⟨S640000, .i32⟩ : BufTy).Contents (Elt F) → (⟨S640000, .i32⟩ : BufTy).Contents (Elt F) → (⟨S640000, .i1⟩ : BufTy).Contents (Elt F)),
    nullary main_c_11 (constantI S_ 32 20000#32),
    unary main_c_11 main_v81 (broadcastInDim S640000 ![] bcast_S_S640000 : (⟨S_, .i32⟩ : BufTy).Contents (Elt F) → (⟨S640000, .i32⟩ : BufTy).Contents (Elt F)),
    binary main_arg2 main_v81 main_v82 (addi : (⟨S640000, .i32⟩ : BufTy).Contents (Elt F) → (⟨S640000, .i32⟩ : BufTy).Contents (Elt F) → (⟨S640000, .i32⟩ : BufTy).Contents (Elt F)),
    ternary main_v80 main_v82 main_arg2 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v83 main_v84 (broadcastInDim S640000x1 ![0] bcast_S640000_S640000x1_0 : (⟨S640000, .i32⟩ : BufTy).Contents (Elt F) → (⟨S640000x1, .i32⟩ : BufTy).Contents (Elt F)),
    binary main_v71 main_v84 main_v85 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nary ![main_v78, main_v85, main_arg1] main_v86 (fun u => concatenate S640000x144 1 [⟨S640000x64, u 0⟩, ⟨S640000x64, u 1⟩, ⟨S640000x16, u 2⟩] concatenates_S640000x64_S640000x64_S640000x16_S640000x144_d1),
    unary main_arg4 main_v87 ((extractStridedSlice S1x144x128 ![1, 0, 0] · slices_S2x144x128_S1x144x128_1_0_0) : (⟨S2x144x128, .f32⟩ : BufTy).Contents (Elt F) → (⟨S1x144x128, .f32⟩ : BufTy).Contents (Elt F)),
    reshape main_v87 main_v88 rfl shapeCasts_S1x144x128_S144x128,
    binary main_v86 main_v88 main_v89 ((fun l r => Host.dotGeneral dot_S640000x144_S144x128_S640000x128_1_0_0_1_n_n none l r) : (⟨S640000x144, .f32⟩ : BufTy).Contents (Elt F) → (⟨S144x128, .f32⟩ : BufTy).Contents (Elt F) → (⟨S640000x128, .f32⟩ : BufTy).Contents (Elt F)),
    unary main_arg5 main_v90 ((extractStridedSlice S1x128 ![1, 0] · slices_S2x128_S1x128_1_0) : (⟨S2x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S640000x128 ![0, 1] bcast_S1x128_S640000x128_0_1 : (⟨S1x128, .f32⟩ : BufTy).Contents (Elt F) → (⟨S640000x128, .f32⟩ : BufTy).Contents (Elt F)),
    binary main_v89 main_v93 main_v94 (addf : (⟨S640000x128, .f32⟩ : BufTy).Contents (Elt F) → (⟨S640000x128, .f32⟩ : BufTy).Contents (Elt F) → (⟨S640000x128, .f32⟩ : BufTy).Contents (Elt F)),
    nullary main_cst_12 (constant S_ .f32 0x00000000#32),
    unary main_cst_12 main_v95 (broadcastInDim S20000x128 ![] bcast_S_S20000x128 : (⟨S_, .f32⟩ : BufTy).Contents (Elt F) → (⟨S20000x128, .f32⟩ : BufTy).Contents (Elt F)),
    unary main_arg3 main_v96 (broadcastInDim S640000x1 ![0] bcast_S640000_S640000x1_0 : (⟨S640000, .i32⟩ : BufTy).Contents (Elt F) → (⟨S640000x1, .i32⟩ : BufTy).Contents (Elt F)),
    ternary main_v95 main_v96 main_v94 main_v97 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    unary main_arg6 main_v98 ((extractStridedSlice S1x192x128 ![1, 0, 0] · slices_S2x192x128_S1x192x128_1_0_0) : (⟨S2x192x128, .f32⟩ : BufTy).Contents (Elt F) → (⟨S1x192x128, .f32⟩ : BufTy).Contents (Elt F)),
    reshape main_v98 main_v99 rfl shapeCasts_S1x192x128_S192x128,
    unary main_arg7 main_v100 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v100 main_v101 rfl shapeCasts_S1x192x64_S192x64,
    unary main_arg8 main_v102 ((extractStridedSlice S1x192 ![1, 0] · slices_S2x192_S1x192_1_0) : (⟨S2x192, .f32⟩ : BufTy).Contents (Elt F) → (⟨S1x192, .f32⟩ : BufTy).Contents (Elt F)),
    reshape main_v102 main_v103 rfl shapeCasts_S1x192_S192,
    unary main_arg9 main_v104 ((extractStridedSlice S1x192 ![1, 0] · slices_S2x192_S1x192_1_0) : (⟨S2x192, .f32⟩ : BufTy).Contents (Elt F) → (⟨S1x192, .f32⟩ : BufTy).Contents (Elt F)),
    reshape main_v104 main_v105 rfl shapeCasts_S1x192_S192,
    unary main_v99 main_v106 ((transpose S128x192 [1, 0] · transposes_S192x128_S128x192_1_0) : (⟨S192x128, .f32⟩ : BufTy).Contents (Elt F) → (⟨S128x192, .f32⟩ : BufTy).Contents (Elt F)),
    binary main_v97 main_v106 main_v107 ((fun l r => Host.dotGeneral dot_S20000x128_S128x192_S20000x192_1_0_0_1_n_n none l r) : (⟨S20000x128, .f32⟩ : BufTy).Contents (Elt F) → (⟨S128x192, .f32⟩ : BufTy).Contents (Elt F) → (⟨S20000x192, .f32⟩ : BufTy).Contents (Elt F)),
    unary main_v103 main_v108 (broadcastInDim S1x192 ![1] bcast_S192_S1x192_1 : (⟨S192, .f32⟩ : BufTy).Contents (Elt F) → (⟨S1x192, .f32⟩ : BufTy).Contents (Elt F)),
    unary main_v108 main_v109 (broadcastInDim S20000x192 ![0, 1] bcast_S1x192_S20000x192_0_1 : (⟨S1x192, .f32⟩ : BufTy).Contents (Elt F) → (⟨S20000x192, .f32⟩ : BufTy).Contents (Elt F)),
    binary main_v107 main_v109 main_v110 (addf : (⟨S20000x192, .f32⟩ : BufTy).Contents (Elt F) → (⟨S20000x192, .f32⟩ : BufTy).Contents (Elt F) → (⟨S20000x192, .f32⟩ : BufTy).Contents (Elt F)),
    unary main_v101 main_v111 ((transpose S64x192 [1, 0] · transposes_S192x64_S64x192_1_0) : (⟨S192x64, .f32⟩ : BufTy).Contents (Elt F) → (⟨S64x192, .f32⟩ : BufTy).Contents (Elt F)),
    binary main_v71 main_v111 main_v112 ((fun l r => Host.dotGeneral dot_S20000x64_S64x192_S20000x192_1_0_0_1_n_n none l r) : (⟨S20000x64, .f32⟩ : BufTy).Contents (Elt F) → (⟨S64x192, .f32⟩ : BufTy).Contents (Elt F) → (⟨S20000x192, .f32⟩ : BufTy).Contents (Elt F)),
    unary main_v105 main_v113 (broadcastInDim S1x192 ![1] bcast_S192_S1x192_1 : (⟨S192, .f32⟩ : BufTy).Contents (Elt F) → (⟨S1x192, .f32⟩ : BufTy).Contents (Elt F)),
    unary main_v113 main_v114 (broadcastInDim S20000x192 ![0, 1] bcast_S1x192_S20000x192_0_1 : (⟨S1x192, .f32⟩ : BufTy).Contents (Elt F) → (⟨S20000x192, .f32⟩ : BufTy).Contents (Elt F)),
    binary main_v112 main_v114 main_v115 (addf : (⟨S20000x192, .f32⟩ : BufTy).Contents (Elt F) → (⟨S20000x192, .f32⟩ : BufTy).Contents (Elt F) → (⟨S20000x192, .f32⟩ : BufTy).Contents (Elt F)),
    unary main_v110 main_v116 ((extractStridedSlice S20000x64 ![0, 0] · slices_S20000x192_S20000x64_0_0) : (⟨S20000x192, .f32⟩ : BufTy).Contents (Elt F) → (⟨S20000x64, .f32⟩ : BufTy).Contents (Elt F)),
    unary main_v110 main_v117 ((extractStridedSlice S20000x64 ![0, 64] · slices_S20000x192_S20000x64_0_64) : (⟨S20000x192, .f32⟩ : BufTy).Contents (Elt F) → (⟨S20000x64, .f32⟩ : BufTy).Contents (Elt F)),
    unary main_v110 main_v118 ((extractStridedSlice S20000x64 ![0, 128] · slices_S20000x192_S20000x64_0_128) : (⟨S20000x192, .f32⟩ : BufTy).Contents (Elt F) → (⟨S20000x64, .f32⟩ : BufTy).Contents (Elt F)),
    unary main_v115 main_v119 ((extractStridedSlice S20000x64 ![0, 0] · slices_S20000x192_S20000x64_0_0) : (⟨S20000x192, .f32⟩ : BufTy).Contents (Elt F) → (⟨S20000x64, .f32⟩ : BufTy).Contents (Elt F)),
    unary main_v115 main_v120 ((extractStridedSlice S20000x64 ![0, 64] · slices_S20000x192_S20000x64_0_64) : (⟨S20000x192, .f32⟩ : BufTy).Contents (Elt F) → (⟨S20000x64, .f32⟩ : BufTy).Contents (Elt F)),
    unary main_v115 main_v121 ((extractStridedSlice S20000x64 ![0, 128] · slices_S20000x192_S20000x64_0_128) : (⟨S20000x192, .f32⟩ : BufTy).Contents (Elt F) → (⟨S20000x64, .f32⟩ : BufTy).Contents (Elt F)),
    binary main_v116 main_v119 main_v122 (addf : (⟨S20000x64, .f32⟩ : BufTy).Contents (Elt F) → (⟨S20000x64, .f32⟩ : BufTy).Contents (Elt F) → (⟨S20000x64, .f32⟩ : BufTy).Contents (Elt F)),
    unary main_v122 main_v123 (Host.negf : (⟨S20000x64, .f32⟩ : BufTy).Contents (Elt F) → (⟨S20000x64, .f32⟩ : BufTy).Contents (Elt F)),
    unary main_v123 main_v124 (Host.exp : (⟨S20000x64, .f32⟩ : BufTy).Contents (Elt F) → (⟨S20000x64, .f32⟩ : BufTy).Contents (Elt F)),
    nullary main_cst_13 (constant S_ .f32 0x3F800000#32),
    unary main_cst_13 main_v125 (broadcastInDim S20000x64 ![] bcast_S_S20000x64 : (⟨S_, .f32⟩ : BufTy).Contents (Elt F) → (⟨S20000x64, .f32⟩ : BufTy).Contents (Elt F)),
    binary main_v125 main_v124 main_v126 (addf : (⟨S20000x64, .f32⟩ : BufTy).Contents (Elt F) → (⟨S20000x64, .f32⟩ : BufTy).Contents (Elt F) → (⟨S20000x64, .f32⟩ : BufTy).Contents (Elt F)),
    nullary main_cst_14 (constant S_ .f32 0x3F800000#32),
    unary main_cst_14 main_v127 (broadcastInDim S20000x64 ![] bcast_S_S20000x64 : (⟨S_, .f32⟩ : BufTy).Contents (Elt F) → (⟨S20000x64, .f32⟩ : BufTy).Contents (Elt F)),
    binary main_v127 main_v126 main_v128 (Host.divf : (⟨S20000x64, .f32⟩ : BufTy).Contents (Elt F) → (⟨S20000x64, .f32⟩ : BufTy).Contents (Elt F) → (⟨S20000x64, .f32⟩ : BufTy).Contents (Elt F)),
    binary main_v117 main_v120 main_v129 (addf : (⟨S20000x64, .f32⟩ : BufTy).Contents (Elt F) → (⟨S20000x64, .f32⟩ : BufTy).Contents (Elt F) → (⟨S20000x64, .f32⟩ : BufTy).Contents (Elt F)),
    unary main_v129 main_v130 (Host.negf : (⟨S20000x64, .f32⟩ : BufTy).Contents (Elt F) → (⟨S20000x64, .f32⟩ : BufTy).Contents (Elt F)),
    unary main_v130 main_v131 (Host.exp : (⟨S20000x64, .f32⟩ : BufTy).Contents (Elt F) → (⟨S20000x64, .f32⟩ : BufTy).Contents (Elt F)),
    nullary main_cst_15 (constant S_ .f32 0x3F800000#32),
    unary main_cst_15 main_v132 (broadcastInDim S20000x64 ![] bcast_S_S20000x64 : (⟨S_, .f32⟩ : BufTy).Contents (Elt F) → (⟨S20000x64, .f32⟩ : BufTy).Contents (Elt F)),
    binary main_v132 main_v131 main_v133 (addf : (⟨S20000x64, .f32⟩ : BufTy).Contents (Elt F) → (⟨S20000x64, .f32⟩ : BufTy).Contents (Elt F) → (⟨S20000x64, .f32⟩ : BufTy).Contents (Elt F)),
    nullary main_cst_16 (constant S_ .f32 0x3F800000#32),
    unary main_cst_16 main_v134 (broadcastInDim S20000x64 ![] bcast_S_S20000x64 : (⟨S_, .f32⟩ : BufTy).Contents (Elt F) → (⟨S20000x64, .f32⟩ : BufTy).Contents (Elt F)),
    binary main_v134 main_v133 main_v135 (Host.divf : (⟨S20000x64, .f32⟩ : BufTy).Contents (Elt F) → (⟨S20000x64, .f32⟩ : BufTy).Contents (Elt F) → (⟨S20000x64, .f32⟩ : BufTy).Contents (Elt F)),
    binary main_v128 main_v121 main_v136 (mulf : (⟨S20000x64, .f32⟩ : BufTy).Contents (Elt F) → (⟨S20000x64, .f32⟩ : BufTy).Contents (Elt F) → (⟨S20000x64, .f32⟩ : BufTy).Contents (Elt F)),
    binary main_v118 main_v136 main_v137 (addf : (⟨S20000x64, .f32⟩ : BufTy).Contents (Elt F) → (⟨S20000x64, .f32⟩ : BufTy).Contents (Elt F) → (⟨S20000x64, .f32⟩ : BufTy).Contents (Elt F)),
    unary main_v137 main_v138 (Host.tanh : (⟨S20000x64, .f32⟩ : BufTy).Contents (Elt F) → (⟨S20000x64, .f32⟩ : BufTy).Contents (Elt F)),
    nullary main_cst_17 (constant S_ .f32 0x3F800000#32),
    unary main_cst_17 main_v139 (broadcastInDim S20000x64 ![] bcast_S_S20000x64 : (⟨S_, .f32⟩ : BufTy).Contents (Elt F) → (⟨S20000x64, .f32⟩ : BufTy).Contents (Elt F)),
    binary main_v139 main_v135 main_v140 (subf : (⟨S20000x64, .f32⟩ : BufTy).Contents (Elt F) → (⟨S20000x64, .f32⟩ : BufTy).Contents (Elt F) → (⟨S20000x64, .f32⟩ : BufTy).Contents (Elt F)),
    binary main_v140 main_v138 main_v141 (mulf : (⟨S20000x64, .f32⟩ : BufTy).Contents (Elt F) → (⟨S20000x64, .f32⟩ : BufTy).Contents (Elt F) → (⟨S20000x64, .f32⟩ : BufTy).Contents (Elt F)),
    binary main_v135 main_v71 main_v142 (mulf : (⟨S20000x64, .f32⟩ : BufTy).Contents (Elt F) → (⟨S20000x64, .f32⟩ : BufTy).Contents (Elt F) → (⟨S20000x64, .f32⟩ : BufTy).Contents (Elt F)),
    binary main_v141 main_v142 main_v143 (addf : (⟨S20000x64, .f32⟩ : BufTy).Contents (Elt F) → (⟨S20000x64, .f32⟩ : BufTy).Contents (Elt F) → (⟨S20000x64, .f32⟩ : BufTy).Contents (Elt F))  ]

set_option maxRecDepth 8192 in
set_option maxHeartbeats 4000000 in
/-- The entry function is the one line of the two stretches of operations. -/
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Every operation touches TensorCore references only. -/
theorem ops_sub : (opsA ++ opsB : List (HloOp τ sig (Elt F))).Forall fun op => op.bufs ⊆ tcRefs τ sig :=
  List.forall_append.2 ⟨opsA_sub, opsB_sub⟩

/-- The contents after a line of operations cut in two: the second stretch's over the first stretch's. -/
theorem after_two {Val : EltTy → Type} (a b : List (HloOp τ sig Val)) (V : Valuation τ sig Val) :
    after (a ++ b) V = after b (after a V) := by
  induction a generalizing V with
  | nil => rfl
  | cons op a ih => exact ih (op.result V)

/-! ## Each stretch, read against an arbitrary valuation, is one round of the stage functions -/

set_option maxRecDepth 8192 in
set_option maxHeartbeats 4000000 in
/-- The node states after the first stretch, from any contents W: round 0 on W's arguments. -/
theorem roundA (W : Valuation τ sig (Elt Ideal)) :
    after (opsA (F := Ideal)) W (Proc.devRef .tc main_v71)
      = refRound0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp <;> rfl

set_option maxRecDepth 8192 in
set_option maxHeartbeats 4000000 in
/-- The result after the second stretch, from any contents W: round 1 on the node states W holds and W's arguments. -/
theorem roundB (W : Valuation τ sig (Elt Ideal)) :
    after (opsB (F := Ideal)) W (Proc.devRef .tc main_v143)
      = refRound1 (W (Proc.devRef .tc main_v71)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp <;> rfl

/-! ## No operation writes an argument -/

/-- The references the operations of `opsA` write. -/
abbrev WA : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_v21, main_v22, main_cst, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst_3, main_v53, main_v54, main_cst_4, main_v55, main_v56, main_v57, main_v58, main_v59, main_cst_5, main_v60, main_v61, main_cst_6, main_v62, main_v63, main_v64, main_v65, main_v66, main_cst_7, main_v67, main_v68, main_v69, main_v70, main_v71]
theorem opsA_writes : (opsA : List (HloOp τ sig (Elt F))).Forall fun op => op.writes ⊆ (WA.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The references the operations of `opsB` write. -/
abbrev WB : List (Ref sig .tc) := [main_c_8, main_v72, main_v73, main_c_9, main_v74, main_v75, main_v76, main_v77, main_v78, main_c_10, main_v79, main_v80, main_c_11, main_v81, main_v82, main_v83, main_v84, main_v85, main_v86, main_v87, main_v88, main_v89, main_v90, main_v91, main_v92, main_v93, main_v94, main_cst_12, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_cst_13, main_v125, main_v126, main_cst_14, main_v127, main_v128, main_v129, main_v130, main_v131, main_cst_15, main_v132, main_v133, main_cst_16, main_v134, main_v135, main_v136, main_v137, main_v138, main_cst_17, main_v139, main_v140, main_v141, main_v142, main_v143]
theorem opsB_writes : (opsB : List (HloOp τ sig (Elt F))).Forall fun op => op.writes ⊆ (WB.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference neither stretch writes reads back what it held. -/
theorem unwritten {r : Ref sig .tc} (V : Valuation τ sig (Elt F)) (hA : r ∉ WA) (hB : r ∉ WB) :
    after (opsA ++ opsB) V (Proc.devRef .tc r) = V (Proc.devRef .tc r) := by
  rw [after_two, after_of_writes_sub opsB _ opsB_writes hB, after_of_writes_sub opsA _ opsA_writes hA]

/-! ## The whole line -/

/-- The result after the whole line, from any contents V: the two rounds on V's arguments. -/
theorem result_eq (V : Valuation τ sig (Elt Ideal)) :
    after (opsA (F := Ideal) ++ opsB) V (Proc.devRef .tc main_v143)
      = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_two, roundB, roundA,
    after_of_writes_sub opsA V opsA_writes (show main_arg1 ∉ WA by decide),
    after_of_writes_sub opsA V opsA_writes (show main_arg2 ∉ WA by decide),
    after_of_writes_sub opsA V opsA_writes (show main_arg3 ∉ WA by decide),
    after_of_writes_sub opsA V opsA_writes (show main_arg4 ∉ WA by decide),
    after_of_writes_sub opsA V opsA_writes (show main_arg5 ∉ WA by decide),
    after_of_writes_sub opsA V opsA_writes (show main_arg6 ∉ WA by decide),
    after_of_writes_sub opsA V opsA_writes (show main_arg7 ∉ WA by decide),
    after_of_writes_sub opsA V opsA_writes (show main_arg8 ∉ WA by decide),
    after_of_writes_sub opsA V opsA_writes (show main_arg9 ∉ WA by decide)]
  rfl

set_option maxRecDepth 8192 in
/-- Every weakly fair execution of the reference ends with its result at the two rounds of the stages applied to the
    launch contents of the arguments, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143)
        = refNet (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v143).trans (result_eq (launchContents m c)),
      (h c main_arg0).trans (unwritten (launchContents m c) (by decide) (by decide)),
      (h c main_arg1).trans (unwritten (launchContents m c) (by decide) (by decide)),
      (h c main_arg2).trans (unwritten (launchContents m c) (by decide) (by decide)),
      (h c main_arg3).trans (unwritten (launchContents m c) (by decide) (by decide)),
      (h c main_arg4).trans (unwritten (launchContents m c) (by decide) (by decide)),
      (h c main_arg5).trans (unwritten (launchContents m c) (by decide) (by decide)),
      (h c main_arg6).trans (unwritten (launchContents m c) (by decide) (by decide)),
      (h c main_arg7).trans (unwritten (launchContents m c) (by decide) (by decide)),
      (h c main_arg8).trans (unwritten (launchContents m c) (by decide) (by decide)),
      (h c main_arg9).trans (unwritten (launchContents m c) (by decide) (by decide))⟩)
    (run_seq scopedRefs_eq scopedSems_eq defs main (fun _ => opsA ++ opsB) main_eq (fun _ => ops_sub) m ρ)

end Cert.Hand.Ref.Two

end
-- ==== Proof.lean ====
/-
  Two rounds of message passing on a graph with 20000 nodes and 640000 edges. In each round every edge forms the row
  [state of its destination | state of its source | its own features] (144 numbers), an affine layer maps it to a
  message of 128 numbers, the messages are summed at their destination nodes, and a gated recurrent cell updates each
  node's 64 numbers from the summed messages and the old state. The kernel program computes the affine layer and the cell
  in two tiled regions per round (80 blocks of 8000 edges, 5 blocks of 4000 nodes) and leaves the gather, the concatenation
  and the scattered sum to the same host operations the reference uses.

  The three frames: each kernel program is four host stretches and four regions; every region's body reads its input
  blocks whole and overwrites its output block whole, so its pipeline's proof data is explicit and the launch theorem for a
  list of segments gives termination, no fault, and every unscoped buffer at a known fold of the launch contents, through
  which each argument array reads back unchanged. The reference is host operations only.

  The value claim: at the ideal instance a change of float format is the identity, a matrix product into a zero
  accumulator and the host's contraction are the same finite sum, and the kernel's logistic is by definition the
  reference's 1 / (1 + e^(-x)); so each region's output array is the reference's stage of the same inputs, and the two
  programs' results are one function of the arguments. No law used needs the inputs to be finite.
-/
import proofs.«180314_j10892037063246_1_alg».proof.Defs
import proofs.«180314_j10892037063246_1_alg».proof.Proof.Gen.Kernel
import proofs.«180314_j10892037063246_1_alg».proof.Proof.Gen.KernelIdeal
import proofs.«180314_j10892037063246_1_alg».proof.Proof.Gen.ReferenceIdeal
import proofs.«180314_j10892037063246_1_alg».proof.Proof.Gen.Pre_finite_inputs
import proofs.«180314_j10892037063246_1_alg».proof.Proof.BitsRun
import proofs.«180314_j10892037063246_1_alg».proof.Proof.IdealValue
import proofs.«180314_j10892037063246_1_alg».proof.Proof.RefRunTwo

noncomputable section

namespace Cert.Proof

open Idealize.ShloMosaic Idealize.SL.Sem

/-- The kernel program as printed runs and leaves its arguments unchanged. -/
theorem frame_k : Cert.frame_Kernel :=
  fun m ρ _ => Cert.Kernel.Hand.frame (F := Bits) m ρ

/-- So does its idealization. -/
theorem frame_ki : Cert.frame_KernelIdeal :=
  fun m ρ _ => Cert.KernelIdeal.Hand.frame (F := Ideal) m ρ

/-- The reference is host operations only: its run, with the result dropped. -/
theorem frame_ri : Cert.frame_ReferenceIdeal :=
  fun m ρ _ => (θ_run Cert.ReferenceIdeal.defs _ _).mono (fun _ h c => (h c).2) (Cert.Hand.Ref.Two.ref_run m ρ)

/-- From memories agreeing on the arguments both idealized programs end with the result at the reference's two rounds of
    the arguments. -/
theorem algebraic : Cert.algebraic_KernelIdeal_ReferenceIdeal := by
  intro m ρ m' ρ' _ hagree
  refine ⟨fun c => Cert.Hand.Ref.refNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.value_run m ρ, ?_⟩
  refine (θ_run Cert.ReferenceIdeal.defs _ _).mono (fun r h c => ⟨(h c).1.trans ?_, (h c).2⟩) (Cert.Hand.Ref.Two.ref_run m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
